-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x129 : Shape := ⟨2, ![262144, 129]⟩
abbrev S5x128x128 : Shape := ⟨3, ![5, 128, 128]⟩
abbrev S5x1x128 : Shape := ⟨3, ![5, 1, 128]⟩
abbrev S5x128 : Shape := ⟨2, ![5, 128]⟩
abbrev S5x128x1 : Shape := ⟨3, ![5, 128, 1]⟩
abbrev S5x1x1 : Shape := ⟨3, ![5, 1, 1]⟩
abbrev S5x1 : Shape := ⟨2, ![5, 1]⟩
abbrev S_ : Shape := ⟨0, ![]⟩

class Facts : Prop where
  bcast_S_S262144x129 : S_.BroadcastsInDim S262144x129 (![] : Fin 0 → Fin S262144x129.rank)
  reducesTo_S262144x129_S_d0_1 : S262144x129.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x1x128 : S_.BroadcastsInDim S5x1x128 (![] : Fin 0 → Fin S5x1x128.rank)
  reducesTo_S5x1x128_S_d0_1_2 : S5x1x128.ReducesTo [0, 1, 2] S_
  bcast_S_S5x128 : S_.BroadcastsInDim S5x128 (![] : Fin 0 → Fin S5x128.rank)
  reducesTo_S5x128_S_d0_1 : S5x128.ReducesTo [0, 1] S_
  bcast_S_S5x128x1 : S_.BroadcastsInDim S5x128x1 (![] : Fin 0 → Fin S5x128x1.rank)
  reducesTo_S5x128x1_S_d0_1_2 : S5x128x1.ReducesTo [0, 1, 2] S_
  bcast_S_S5x1x1 : S_.BroadcastsInDim S5x1x1 (![] : Fin 0 → Fin S5x1x1.rank)
  reducesTo_S5x1x1_S_d0_1_2 : S5x1x1.ReducesTo [0, 1, 2] S_
  bcast_S_S5x1 : S_.BroadcastsInDim S5x1 (![] : Fin 0 → Fin S5x1.rank)
  reducesTo_S5x1_S_d0_1 : S5x1.ReducesTo [0, 1] S_

variable [Facts]

def fn_part2 {F : FTy → Type} [FloatOps F] (main_arg7 : FVec F S5x128x1 .f32) (main_arg8 : FVec F S5x1x1 .f32) (main_arg9 : FVec F S5x1 .f32) (main_v33 : IVec S_ 1) : IVec S_ 1 :=
  let main_v34 : FVec F S5x128x1 .f32 := Host.absf main_arg7
  let main_cst_12 : FVec F S_ .f32 := constant S_ .f32 0x7F800000#32
  let main_v35 : FVec F S5x128x1 .f32 := broadcastInDim S5x128x1 ![] bcast_S_S5x128x1 main_cst_12
  let main_v36 : IVec S5x128x1 1 := cmpf .olt main_v34 main_v35
  let main_c_13 : IVec S_ 1 := constantI S_ 1 1#1
  let main_v37 : IVec S_ 1 := (fun x v => Host.reduce IntOp.andi x v reducesTo_S5x128x1_S_d0_1_2 h_S_) main_v36 main_c_13
  let main_v38 : IVec S_ 1 := andi main_v33 main_v37
  let main_v39 : FVec F S5x1x1 .f32 := Host.absf main_arg8
  let main_cst_14 : FVec F S_ .f32 := constant S_ .f32 0x7F800000#32
  let main_v40 : FVec F S5x1x1 .f32 := broadcastInDim S5x1x1 ![] bcast_S_S5x1x1 main_cst_14
  let main_v41 : IVec S5x1x1 1 := cmpf .olt main_v39 main_v40
  let main_c_15 : IVec S_ 1 := constantI S_ 1 1#1
  let main_v42 : IVec S_ 1 := (fun x v => Host.reduce IntOp.andi x v reducesTo_S5x1x1_S_d0_1_2 h_S_) main_v41 main_c_15
  let main_v43 : IVec S_ 1 := andi main_v38 main_v42
  let main_v44 : FVec F S5x1 .f32 := Host.absf main_arg9
  let main_cst_16 : FVec F S_ .f32 := constant S_ .f32 0x7F800000#32
  let main_v45 : FVec F S5x1 .f32 := broadcastInDim S5x1 ![] bcast_S_S5x1 main_cst_16
  let main_v46 : IVec S5x1 1 := cmpf .olt main_v44 main_v45
  let main_c_17 : IVec S_ 1 := constantI S_ 1 1#1
  let main_v47 : IVec S_ 1 := (fun x v => Host.reduce IntOp.andi x v reducesTo_S5x1_S_d0_1 h_S_) main_v46 main_c_17
  let main_v48 : IVec S_ 1 := andi main_v43 main_v47
  main_v48

def fn_part1 {F : FTy → Type} [FloatOps F] (main_arg4 : FVec F S5x128x128 .f32) (main_arg5 : FVec F S5x1x128 .f32) (main_arg6 : FVec F S5x128 .f32) (main_arg7 : FVec F S5x128x1 .f32) (main_arg8 : FVec F S5x1x1 .f32) (main_arg9 : FVec F S5x1 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128x128 .f32 := Host.absf main_arg4
  let main_cst_6 : FVec F S_ .f32 := constant S_ .f32 0x7F800000#32
  let main_v20 : FVec F S5x128x128 .f32 := broadcastInDim S5x128x128 ![] bcast_S_S5x128x128 main_cst_6
  let main_v21 : IVec S5x128x128 1 := cmpf .olt main_v19 main_v20
  let main_c_7 : IVec S_ 1 := constantI S_ 1 1#1
  let main_v22 : IVec S_ 1 := (fun x v => Host.reduce IntOp.andi x v reducesTo_S5x128x128_S_d0_1_2 h_S_) main_v21 main_c_7
  let main_v23 : IVec S_ 1 := andi main_v18 main_v22
  let main_v24 : FVec F S5x1x128 .f32 := Host.absf main_arg5
  let main_cst_8 : FVec F S_ .f32 := constant S_ .f32 0x7F800000#32
  let main_v25 : FVec F S5x1x128 .f32 := broadcastInDim S5x1x128 ![] bcast_S_S5x1x128 main_cst_8
  let main_v26 : IVec S5x1x128 1 := cmpf .olt main_v24 main_v25
  let main_c_9 : IVec S_ 1 := constantI S_ 1 1#1
  let main_v27 : IVec S_ 1 := (fun x v => Host.reduce IntOp.andi x v reducesTo_S5x1x128_S_d0_1_2 h_S_) main_v26 main_c_9
  let main_v28 : IVec S_ 1 := andi main_v23 main_v27
  let main_v29 : FVec F S5x128 .f32 := Host.absf main_arg6
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S262144x129 .f32) (main_arg1 : FVec F S5x128x128 .f32) (main_arg2 : FVec F S5x1x128 .f32) (main_arg3 : FVec F S5x128 .f32) (main_arg4 : FVec F S5x128x128 .f32) (main_arg5 : FVec F S5x1x128 .f32) (main_arg6 : FVec F S5x128 .f32) (main_arg7 : FVec F S5x128x1 .f32) (main_arg8 : FVec F S5x1x1 .f32) (main_arg9 : FVec F S5x1 .f32) : IVec S_ 1 :=
  let main_v0 : FVec F S262144x129 .f32 := Host.absf main_arg0
  let main_cst : FVec F S_ .f32 := constant S_ .f32 0x7F800000#32
  let main_v1 : FVec F S262144x129 .f32 := broadcastInDim S262144x129 ![] bcast_S_S262144x129 main_cst
  let main_v2 : IVec S262144x129 1 := cmpf .olt main_v0 main_v1
  let main_c : IVec S_ 1 := constantI S_ 1 1#1
  let main_v3 : IVec S_ 1 := (fun x v => Host.reduce IntOp.andi x v reducesTo_S262144x129_S_d0_1 h_S_) main_v2 main_c
  let main_v4 : FVec F S5x128x128 .f32 := Host.absf main_arg1
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x1x128 .f32 := Host.absf main_arg2
  let main_cst_2 : FVec F S_ .f32 := constant S_ .f32 0x7F800000#32
  let main_v10 : FVec F S5x1x128 .f32 := broadcastInDim S5x1x128 ![] bcast_S_S5x1x128 main_cst_2
  let main_v11 : IVec S5x1x128 1 := cmpf .olt main_v9 main_v10
  let main_c_3 : IVec S_ 1 := constantI S_ 1 1#1
  let main_v12 : IVec S_ 1 := (fun x v => Host.reduce IntOp.andi x v reducesTo_S5x1x128_S_d0_1_2 h_S_) main_v11 main_c_3
  let main_v13 : IVec S_ 1 := andi main_v8 main_v12
  let main_v14 : FVec F S5x128 .f32 := Host.absf main_arg3
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg4 main_arg5 main_arg6 main_arg7 main_arg8 main_arg9 main_v13 main_v16
-- ==== Kernel.lean ====
abbrev S262144x129 : Shape := ⟨2, ![262144, 129]⟩
abbrev S5x128x128 : Shape := ⟨3, ![5, 128, 128]⟩
abbrev S5x1x128 : Shape := ⟨3, ![5, 1, 128]⟩
abbrev S5x128 : Shape := ⟨2, ![5, 128]⟩
abbrev S5x128x1 : Shape := ⟨3, ![5, 128, 1]⟩
abbrev S5x1x1 : Shape := ⟨3, ![5, 1, 1]⟩
abbrev S5x1 : Shape := ⟨2, ![5, 1]⟩
abbrev S128x5x128 : Shape := ⟨3, ![128, 5, 128]⟩
abbrev S128x640 : Shape := ⟨2, ![128, 640]⟩
abbrev S1x640 : Shape := ⟨2, ![1, 640]⟩
abbrev S262144x1 : Shape := ⟨2, ![262144, 1]⟩
abbrev S2048x129 : Shape := ⟨2, ![2048, 129]⟩
abbrev S2048x1 : Shape := ⟨2, ![2048, 1]⟩
abbrev S2048x128 : Shape := ⟨2, ![2048, 128]⟩
abbrev S2048x640 : Shape := ⟨2, ![2048, 640]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S1x128x1 : Shape := ⟨3, ![1, 128, 1]⟩
abbrev S128x1 : Shape := ⟨2, ![128, 1]⟩
abbrev S1x1x1 : Shape := ⟨3, ![1, 1, 1]⟩
abbrev S1x1 : Shape := ⟨2, ![1, 1]⟩
abbrev S1 : Shape := ⟨1, ![1]⟩

abbrev nBuf : Space → Nat
  | .hbm => 22
  | .vmem => 13
  | .smem => 0
  | _ => 0

abbrev bufTy : (tb : Table) → Fin (tcTables nBuf tb) → BufTy
  | .hbm, ⟨0, _⟩ => ⟨S262144x129, .f32⟩
  | .hbm, ⟨1, _⟩ => ⟨S5x128x128, .f32⟩
  | .hbm, ⟨2, _⟩ => ⟨S5x1x128, .f32⟩
  | .hbm, ⟨3, _⟩ => ⟨S5x128, .f32⟩
  | .hbm, ⟨4, _⟩ => ⟨S5x128x128, .f32⟩
  | .hbm, ⟨5, _⟩ => ⟨S5x1x128, .f32⟩
  | .hbm, ⟨6, _⟩ => ⟨S5x128, .f32⟩
  | .hbm, ⟨7, _⟩ => ⟨S5x128x1, .f32⟩
  | .hbm, ⟨8, _⟩ => ⟨S5x1x1, .f32⟩
  | .hbm, ⟨9, _⟩ => ⟨S5x1, .f32⟩
  | .hbm, ⟨10, _⟩ => ⟨S128x5x128, .f32⟩
  | .hbm, ⟨11, _⟩ => ⟨S128x640, .f32⟩
  | .hbm, ⟨12, _⟩ => ⟨S128x640, .bf16⟩
  | .hbm, ⟨13, _⟩ => ⟨S5x128, .f32⟩
  | .hbm, ⟨14, _⟩ => ⟨S1x640, .f32⟩
  | .hbm, ⟨15, _⟩ => ⟨S1x640, .bf16⟩
  | .hbm, ⟨16, _⟩ => ⟨S1x640, .f32⟩
  | .hbm, ⟨17, _⟩ => ⟨S5x128x128, .bf16⟩
  | .hbm, ⟨18, _⟩ => ⟨S5x1x128, .bf16⟩
  | .hbm, ⟨19, _⟩ => ⟨S5x128x1, .bf16⟩
  | .hbm, ⟨20, _⟩ => ⟨S5x1x1, .bf16⟩
  | .hbm, ⟨21, _⟩ => ⟨S262144x1, .f32⟩
  | .local _ .vmem, ⟨0, _⟩ => ⟨S2048x129, .f32⟩
  | .local _ .vmem, ⟨1, _⟩ => ⟨S2048x129, .f32⟩
  | .local _ .vmem, ⟨2, _⟩ => ⟨S128x640, .bf16⟩
  | .local _ .vmem, ⟨3, _⟩ => ⟨S1x640, .bf16⟩
  | .local _ .vmem, ⟨4, _⟩ => ⟨S1x640, .f32⟩
  | .local _ .vmem, ⟨5, _⟩ => ⟨S5x128x128, .bf16⟩
  | .local _ .vmem, ⟨6, _⟩ => ⟨S5x1x128, .bf16⟩
  | .local _ .vmem, ⟨7, _⟩ => ⟨S5x128, .f32⟩
  | .local _ .vmem, ⟨8, _⟩ => ⟨S5x128x1, .bf16⟩
  | .local _ .vmem, ⟨9, _⟩ => ⟨S5x1x1, .bf16⟩
  | .local _ .vmem, ⟨10, _⟩ => ⟨S5x1, .f32⟩
  | .local _ .vmem, ⟨11, _⟩ => ⟨S2048x1, .f32⟩
  | .local _ .vmem, ⟨12, _⟩ => ⟨S2048x1, .f32⟩
  | _, _ => ⟨S262144x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x128x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x1x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S5x128x128_S128x5x128_1_0_2 : S5x128x128.Transposes [1, 0, 2] S128x5x128
  shapeCasts_S128x5x128_S128x640 : S128x5x128.ShapeCasts S128x640
  bitsLt_bf16_f32 : FTy.bits .bf16 < FTy.bits .f32
  shapeCasts_S5x1x128_S5x128 : S5x1x128.ShapeCasts S5x128
  shapeCasts_S5x128_S1x640 : S5x128.ShapeCasts S1x640
  inb_S2048x129_S2048x129_0_0 : ∀ a, (![0, 0] : Fin 2 → Nat) a + S2048x129.size a ≤ S2048x129.size a
  h_S2048x129 : 0 < S2048x129.numel
  slices_S2048x129_o0_0_S2048x1 : S2048x129.Slices ![0, 0] S2048x1
  slices_S2048x129_o0_1_S2048x128 : S2048x129.Slices ![0, 1] S2048x128
  inb_S128x640_S128x640_0_0 : ∀ a, (![0, 0] : Fin 2 → Nat) a + S128x640.size a ≤ S128x640.size a
  h_S128x640 : 0 < S128x640.numel
  shapeCasts_S128x640_S128x640 : S128x640.ShapeCasts S128x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S2048x1_S2048x640 : S2048x1.Broadcasts S2048x640
  broadcasts_S1x640_S2048x640 : S1x640.Broadcasts S2048x640
  slices_S2048x640_o0_0_S2048x128 : S2048x640.Slices ![0, 0] S2048x128
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  inb_S5x1x128_S1x1x128_0_0_0 : ∀ a, (![0, 0, 0] : Fin 3 → Nat) a + S1x1x128.size a ≤ S5x1x128.size a
  h_S1x1x128 : 0 < S1x1x128.numel
  shapeCasts_S1x1x128_S1x128 : S1x1x128.ShapeCasts S1x128
  broadcasts_S2048x1_S2048x128 : S2048x1.Broadcasts S2048x128
  broadcasts_S1x128_S2048x128 : S1x128.Broadcasts S2048x128
  inb_S5x128_S1x128_0_0 : ∀ a, (![0, 0] : Fin 2 → Nat) a + S1x128.size a ≤ S5x128.size a
  h_S1x128 : 0 < S1x128.numel
  shapeCasts_S1x128_S128 : S1x128.ShapeCasts S128
  shapeCasts_S128_S1x128 : S128.ShapeCasts S1x128
  inb_S5x128x1_S1x128x1_0_0_0 : ∀ a, (![0, 0, 0] : Fin 3 → Nat) a + S1x128x1.size a ≤ S5x128x1.size a
  h_S1x128x1 : 0 < S1x128x1.numel
  shapeCasts_S1x128x1_S128x1 : S1x128x1.ShapeCasts S128x1
  inb_S5x1x1_S1x1x1_0_0_0 : ∀ a, (![0, 0, 0] : Fin 3 → Nat) a + S1x1x1.size a ≤ S5x1x1.size a
  h_S1x1x1 : 0 < S1x1x1.numel
  shapeCasts_S1x1x1_S1x1 : S1x1x1.ShapeCasts S1x1
  broadcasts_S1x1_S2048x1 : S1x1.Broadcasts S2048x1
  inb_S5x1_S1x1_0_0 : ∀ a, (![0, 0] : Fin 2 → Nat) a + S1x1.size a ≤ S5x1.size a
  h_S1x1 : 0 < S1x1.numel
  shapeCasts_S1x1_S1 : S1x1.ShapeCasts S1
  shapeCasts_S1_S1x1 : S1.ShapeCasts S1x1
  slices_S2048x640_o0_128_S2048x128 : S2048x640.Slices ![0, 128] S2048x128
  inb_S5x128x128_S1x128x128_1_0_0 : ∀ a, (![1, 0, 0] : Fin 3 → Nat) a + S1x128x128.size a ≤ S5x128x128.size a
  inb_S5x1x128_S1x1x128_1_0_0 : ∀ a, (![1, 0, 0] : Fin 3 → Nat) a + S1x1x128.size a ≤ S5x1x128.size a
  inb_S5x128_S1x128_1_0 : ∀ a, (![1, 0] : Fin 2 → Nat) a + S1x128.size a ≤ S5x128.size a
  inb_S5x128x1_S1x128x1_1_0_0 : ∀ a, (![1, 0, 0] : Fin 3 → Nat) a + S1x128x1.size a ≤ S5x128x1.size a
  inb_S5x1x1_S1x1x1_1_0_0 : ∀ a, (![1, 0, 0] : Fin 3 → Nat) a + S1x1x1.size a ≤ S5x1x1.size a
  inb_S5x1_S1x1_1_0 : ∀ a, (![1, 0] : Fin 2 → Nat) a + S1x1.size a ≤ S5x1.size a
  slices_S2048x640_o0_256_S2048x128 : S2048x640.Slices ![0, 256] S2048x128
  inb_S5x128x128_S1x128x128_2_0_0 : ∀ a, (![2, 0, 0] : Fin 3 → Nat) a + S1x128x128.size a ≤ S5x128x128.size a
  inb_S5x1x128_S1x1x128_2_0_0 : ∀ a, (![2, 0, 0] : Fin 3 → Nat) a + S1x1x128.size a ≤ S5x1x128.size a
  inb_S5x128_S1x128_2_0 : ∀ a, (![2, 0] : Fin 2 → Nat) a + S1x128.size a ≤ S5x128.size a
  inb_S5x128x1_S1x128x1_2_0_0 : ∀ a, (![2, 0, 0] : Fin 3 → Nat) a + S1x128x1.size a ≤ S5x128x1.size a
  inb_S5x1x1_S1x1x1_2_0_0 : ∀ a, (![2, 0, 0] : Fin 3 → Nat) a + S1x1x1.size a ≤ S5x1x1.size a
  inb_S5x1_S1x1_2_0 : ∀ a, (![2, 0] : Fin 2 → Nat) a + S1x1.size a ≤ S5x1.size a
  slices_S2048x640_o0_384_S2048x128 : S2048x640.Slices ![0, 384] S2048x128
  inb_S5x128x128_S1x128x128_3_0_0 : ∀ a, (![3, 0, 0] : Fin 3 → Nat) a + S1x128x128.size a ≤ S5x128x128.size a
  inb_S5x1x128_S1x1x128_3_0_0 : ∀ a, (![3, 0, 0] : Fin 3 → Nat) a + S1x1x128.size a ≤ S5x1x128.size a
  inb_S5x128_S1x128_3_0 : ∀ a, (![3, 0] : Fin 2 → Nat) a + S1x128.size a ≤ S5x128.size a
  inb_S5x128x1_S1x128x1_3_0_0 : ∀ a, (![3, 0, 0] : Fin 3 → Nat) a + S1x128x1.size a ≤ S5x128x1.size a
  inb_S5x1x1_S1x1x1_3_0_0 : ∀ a, (![3, 0, 0] : Fin 3 → Nat) a + S1x1x1.size a ≤ S5x1x1.size a
  inb_S5x1_S1x1_3_0 : ∀ a, (![3, 0] : Fin 2 → Nat) a + S1x1.size a ≤ S5x1.size a
  slices_S2048x640_o0_512_S2048x128 : S2048x640.Slices ![0, 512] S2048x128
  inb_S5x128x128_S1x128x128_4_0_0 : ∀ a, (![4, 0, 0] : Fin 3 → Nat) a + S1x128x128.size a ≤ S5x128x128.size a
  inb_S5x1x128_S1x1x128_4_0_0 : ∀ a, (![4, 0, 0] : Fin 3 → Nat) a + S1x1x128.size a ≤ S5x1x128.size a
  inb_S5x128_S1x128_4_0 : ∀ a, (![4, 0] : Fin 2 → Nat) a + S1x128.size a ≤ S5x128.size a
  inb_S5x128x1_S1x128x1_4_0_0 : ∀ a, (![4, 0, 0] : Fin 3 → Nat) a + S1x128x1.size a ≤ S5x128x1.size a
  inb_S5x1x1_S1x1x1_4_0_0 : ∀ a, (![4, 0, 0] : Fin 3 → Nat) a + S1x1x1.size a ≤ S5x1x1.size a
  inb_S5x1_S1x1_4_0 : ∀ a, (![4, 0] : Fin 2 → Nat) a + S1x1.size a ≤ S5x1.size a
  inb_S2048x1_S2048x1_0_0 : ∀ a, (![0, 0] : Fin 2 → Nat) a + S2048x1.size a ≤ S2048x1.size a
  h_S2048x1 : 0 < S2048x1.numel
  dot_S2048x128_S128x640_S2048x640_1_0_0_1_n_n_wf : DotDims.WF S2048x128 S128x640 S2048x640 [1] [0] [0] [1] [] []
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x129.size a ≤ S262144x129.size a
  hwx0_0 : ∀ i : grid0.Coords, EltTy.bits .f32 = 32 ∨ (Rect.block (s := S262144x129) S2048x129.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x640.size a ≤ S128x640.size a
  hwx0_1 : ∀ i : grid0.Coords, EltTy.bits .bf16 = 32 ∨ (Rect.block (s := S128x640) S128x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .bf16 = 32 ∨ (Rect.block (s := S1x640) S1x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x640.size a ≤ S1x640.size a
  hwx0_3 : ∀ i : grid0.Coords, EltTy.bits .f32 = 32 ∨ (Rect.block (s := S1x640) S1x640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x128x128.size a ≤ S5x128x128.size a
  hwx0_4 : ∀ i : grid0.Coords, EltTy.bits .bf16 = 32 ∨ (Rect.block (s := S5x128x128) S5x128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x1x128.size a ≤ S5x1x128.size a
  hwx0_5 : ∀ i : grid0.Coords, EltTy.bits .bf16 = 32 ∨ (Rect.block (s := S5x1x128) S5x1x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x128.size a ≤ S5x128.size a
  hwx0_6 : ∀ i : grid0.Coords, EltTy.bits .f32 = 32 ∨ (Rect.block (s := S5x128) S5x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x128x1.size a ≤ S5x128x1.size a
  hwx0_7 : ∀ i : grid0.Coords, EltTy.bits .bf16 = 32 ∨ (Rect.block (s := S5x128x1) S5x128x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5x1x1.size a ≤ S5x1x1.size a
  hwx0_8 : ∀ i : grid0.Coords, EltTy.bits .bf16 = 32 ∨ (Rect.block (s := S5x1x1) S5x1x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5x1.size a ≤ S5x1.size a
  hwx0_9 : ∀ i : grid0.Coords, EltTy.bits .f32 = 32 ∨ (Rect.block (s := S5x1) S5x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x1.size a ≤ S262144x1.size a
  hwx0_10 : ∀ i : grid0.Coords, EltTy.bits .f32 = 32 ∨ (Rect.block (s := S262144x1) S2048x1.size (cc0_transform_10 i) (hinb0_10 i)).WholeWords (EltTy.packing .f32)

variable [Facts₀]

def dot_S2048x128_S128x640_S2048x640_1_0_0_1_n_n : DotDims S2048x128 S128x640 S2048x640 where
  lhsContracting := [1]
  rhsContracting := [0]
  lhsNonContracting := [0]
  rhsNonContracting := [1]
  lhsBatch := []
  rhsBatch := []
  wf := dot_S2048x128_S128x640_S2048x640_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S2048x129.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S5x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S5x1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S5x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S5x128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S5x1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S5x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S2048x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S262144x129 : Shape := ⟨2, ![262144, 129]⟩
abbrev S5x128x128 : Shape := ⟨3, ![5, 128, 128]⟩
abbrev S5x1x128 : Shape := ⟨3, ![5, 1, 128]⟩
abbrev S5x128 : Shape := ⟨2, ![5, 128]⟩
abbrev S5x128x1 : Shape := ⟨3, ![5, 128, 1]⟩
abbrev S5x1x1 : Shape := ⟨3, ![5, 1, 1]⟩
abbrev S5x1 : Shape := ⟨2, ![5, 1]⟩
abbrev S262144x1 : Shape := ⟨2, ![262144, 1]⟩
abbrev S262144x128 : Shape := ⟨2, ![262144, 128]⟩
abbrev S_ : Shape := ⟨0, ![]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S1x128x1 : Shape := ⟨3, ![1, 128, 1]⟩
abbrev S128x1 : Shape := ⟨2, ![128, 1]⟩
abbrev S1x1x1 : Shape := ⟨3, ![1, 1, 1]⟩
abbrev S1x1 : Shape := ⟨2, ![1, 1]⟩
abbrev S1 : Shape := ⟨1, ![1]⟩

abbrev nBuf : Space → Nat
  | .hbm => 279
  | .vmem => 0
  | .smem => 0
  | _ => 0

abbrev hbmTy0_0 (i : Nat) : BufTy := match i % 128 with
  | 0 => ⟨S262144x129, .f32⟩
  | 1 => ⟨S5x128x128, .f32⟩
  | 2 => ⟨S5x1x128, .f32⟩
  | 3 => ⟨S5x128, .f32⟩
  | 4 => ⟨S5x128x128, .f32⟩
  | 5 => ⟨S5x1x128, .f32⟩
  | 6 => ⟨S5x128, .f32⟩
  | 7 => ⟨S5x128x1, .f32⟩
  | 8 => ⟨S5x1x1, .f32⟩
  | 9 => ⟨S5x1, .f32⟩
  | 10 => ⟨S262144x1, .f32⟩
  | 11 => ⟨S262144x128, .f32⟩
  | 12 => ⟨S_, .f32⟩
  | 13 => ⟨S262144x1, .f32⟩
  | 14 => ⟨S_, .f32⟩
  | 15 => ⟨S262144x1, .f32⟩
  | 16 => ⟨S262144x1, .i1⟩
  | 17 => ⟨S_, .f32⟩
  | 18 => ⟨S262144x1, .f32⟩
  | 19 => ⟨S262144x1, .i1⟩
  | 20 => ⟨S262144x1, .i1⟩
  | 21 => ⟨S1x128x128, .f32⟩
  | 22 => ⟨S128x128, .f32⟩
  | 23 => ⟨S262144x128, .f32⟩
  | 24 => ⟨S1x1x128, .f32⟩
  | 25 => ⟨S1x128, .f32⟩
  | 26 => ⟨S262144x128, .f32⟩
  | 27 => ⟨S262144x128, .f32⟩
  | 28 => ⟨S1x128, .f32⟩
  | 29 => ⟨S128, .f32⟩
  | 30 => ⟨S1x128, .f32⟩
  | 31 => ⟨S262144x128, .f32⟩
  | 32 => ⟨S262144x128, .f32⟩
  | 33 => ⟨S_, .f32⟩
  | 34 => ⟨S262144x128, .f32⟩
  | 35 => ⟨S262144x128, .f32⟩
  | 36 => ⟨S1x128x128, .f32⟩
  | 37 => ⟨S128x128, .f32⟩
  | 38 => ⟨S262144x128, .f32⟩
  | 39 => ⟨S1x1x128, .f32⟩
  | 40 => ⟨S1x128, .f32⟩
  | 41 => ⟨S262144x128, .f32⟩
  | 42 => ⟨S262144x128, .f32⟩
  | 43 => ⟨S1x128, .f32⟩
  | 44 => ⟨S128, .f32⟩
  | 45 => ⟨S1x128, .f32⟩
  | 46 => ⟨S262144x128, .f32⟩
  | 47 => ⟨S262144x128, .f32⟩
  | 48 => ⟨S_, .f32⟩
  | 49 => ⟨S262144x128, .f32⟩
  | 50 => ⟨S262144x128, .f32⟩
  | 51 => ⟨S1x128x1, .f32⟩
  | 52 => ⟨S128x1, .f32⟩
  | 53 => ⟨S262144x1, .f32⟩
  | 54 => ⟨S1x1x1, .f32⟩
  | 55 => ⟨S1x1, .f32⟩
  | 56 => ⟨S262144x1, .f32⟩
  | 57 => ⟨S262144x1, .f32⟩
  | 58 => ⟨S1x1, .f32⟩
  | 59 => ⟨S1, .f32⟩
  | 60 => ⟨S1x1, .f32⟩
  | 61 => ⟨S262144x1, .f32⟩
  | 62 => ⟨S262144x1, .f32⟩
  | 63 => ⟨S_, .f32⟩
  | 64 => ⟨S262144x1, .f32⟩
  | 65 => ⟨S262144x1, .f32⟩
  | 66 => ⟨S262144x1, .f32⟩
  | 67 => ⟨S_, .f32⟩
  | 68 => ⟨S262144x1, .f32⟩
  | 69 => ⟨S262144x1, .i1⟩
  | 70 => ⟨S_, .f32⟩
  | 71 => ⟨S262144x1, .f32⟩
  | 72 => ⟨S262144x1, .i1⟩
  | 73 => ⟨S262144x1, .i1⟩
  | 74 => ⟨S1x128x128, .f32⟩
  | 75 => ⟨S128x128, .f32⟩
  | 76 => ⟨S262144x128, .f32⟩
  | 77 => ⟨S1x1x128, .f32⟩
  | 78 => ⟨S1x128, .f32⟩
  | 79 => ⟨S262144x128, .f32⟩
  | 80 => ⟨S262144x128, .f32⟩
  | 81 => ⟨S1x128, .f32⟩
  | 82 => ⟨S128, .f32⟩
  | 83 => ⟨S1x128, .f32⟩
  | 84 => ⟨S262144x128, .f32⟩
  | 85 => ⟨S262144x128, .f32⟩
  | 86 => ⟨S_, .f32⟩
  | 87 => ⟨S262144x128, .f32⟩
  | 88 => ⟨S262144x128, .f32⟩
  | 89 => ⟨S1x128x128, .f32⟩
  | 90 => ⟨S128x128, .f32⟩
  | 91 => ⟨S262144x128, .f32⟩
  | 92 => ⟨S1x1x128, .f32⟩
  | 93 => ⟨S1x128, .f32⟩
  | 94 => ⟨S262144x128, .f32⟩
  | 95 => ⟨S262144x128, .f32⟩
  | 96 => ⟨S1x128, .f32⟩
  | 97 => ⟨S128, .f32⟩
  | 98 => ⟨S1x128, .f32⟩
  | 99 => ⟨S262144x128, .f32⟩
  | 100 => ⟨S262144x128, .f32⟩
  | 101 => ⟨S_, .f32⟩
  | 102 => ⟨S262144x128, .f32⟩
  | 103 => ⟨S262144x128, .f32⟩
  | 104 => ⟨S1x128x1, .f32⟩
  | 105 => ⟨S128x1, .f32⟩
  | 106 => ⟨S262144x1, .f32⟩
  | 107 => ⟨S1x1x1, .f32⟩
  | 108 => ⟨S1x1, .f32⟩
  | 109 => ⟨S262144x1, .f32⟩
  | 110 => ⟨S262144x1, .f32⟩
  | 111 => ⟨S1x1, .f32⟩
  | 112 => ⟨S1, .f32⟩
  | 113 => ⟨S1x1, .f32⟩
  | 114 => ⟨S262144x1, .f32⟩
  | 115 => ⟨S262144x1, .f32⟩
  | 116 => ⟨S_, .f32⟩
  | 117 => ⟨S262144x1, .f32⟩
  | 118 => ⟨S262144x1, .f32⟩
  | 119 => ⟨S262144x1, .f32⟩
  | 120 => ⟨S_, .f32⟩
  | 121 => ⟨S262144x1, .f32⟩
  | 122 => ⟨S262144x1, .i1⟩
  | 123 => ⟨S_, .f32⟩
  | 124 => ⟨S262144x1, .f32⟩
  | 125 => ⟨S262144x1, .i1⟩
  | 126 => ⟨S262144x1, .i1⟩
  | 127 => ⟨S1x128x128, .f32⟩
  | _ => ⟨S262144x129, .f32⟩

abbrev hbmTy0_1 (i : Nat) : BufTy := match i % 128 with
  | 0 => ⟨S128x128, .f32⟩
  | 1 => ⟨S262144x128, .f32⟩
  | 2 => ⟨S1x1x128, .f32⟩
  | 3 => ⟨S1x128, .f32⟩
  | 4 => ⟨S262144x128, .f32⟩
  | 5 => ⟨S262144x128, .f32⟩
  | 6 => ⟨S1x128, .f32⟩
  | 7 => ⟨S128, .f32⟩
  | 8 => ⟨S1x128, .f32⟩
  | 9 => ⟨S262144x128, .f32⟩
  | 10 => ⟨S262144x128, .f32⟩
  | 11 => ⟨S_, .f32⟩
  | 12 => ⟨S262144x128, .f32⟩
  | 13 => ⟨S262144x128, .f32⟩
  | 14 => ⟨S1x128x128, .f32⟩
  | 15 => ⟨S128x128, .f32⟩
  | 16 => ⟨S262144x128, .f32⟩
  | 17 => ⟨S1x1x128, .f32⟩
  | 18 => ⟨S1x128, .f32⟩
  | 19 => ⟨S262144x128, .f32⟩
  | 20 => ⟨S262144x128, .f32⟩
  | 21 => ⟨S1x128, .f32⟩
  | 22 => ⟨S128, .f32⟩
  | 23 => ⟨S1x128, .f32⟩
  | 24 => ⟨S262144x128, .f32⟩
  | 25 => ⟨S262144x128, .f32⟩
  | 26 => ⟨S_, .f32⟩
  | 27 => ⟨S262144x128, .f32⟩
  | 28 => ⟨S262144x128, .f32⟩
  | 29 => ⟨S1x128x1, .f32⟩
  | 30 => ⟨S128x1, .f32⟩
  | 31 => ⟨S262144x1, .f32⟩
  | 32 => ⟨S1x1x1, .f32⟩
  | 33 => ⟨S1x1, .f32⟩
  | 34 => ⟨S262144x1, .f32⟩
  | 35 => ⟨S262144x1, .f32⟩
  | 36 => ⟨S1x1, .f32⟩
  | 37 => ⟨S1, .f32⟩
  | 38 => ⟨S1x1, .f32⟩
  | 39 => ⟨S262144x1, .f32⟩
  | 40 => ⟨S262144x1, .f32⟩
  | 41 => ⟨S_, .f32⟩
  | 42 => ⟨S262144x1, .f32⟩
  | 43 => ⟨S262144x1, .f32⟩
  | 44 => ⟨S262144x1, .f32⟩
  | 45 => ⟨S_, .f32⟩
  | 46 => ⟨S262144x1, .f32⟩
  | 47 => ⟨S262144x1, .i1⟩
  | 48 => ⟨S_, .f32⟩
  | 49 => ⟨S262144x1, .f32⟩
  | 50 => ⟨S262144x1, .i1⟩
  | 51 => ⟨S262144x1, .i1⟩
  | 52 => ⟨S1x128x128, .f32⟩
  | 53 => ⟨S128x128, .f32⟩
  | 54 => ⟨S262144x128, .f32⟩
  | 55 => ⟨S1x1x128, .f32⟩
  | 56 => ⟨S1x128, .f32⟩
  | 57 => ⟨S262144x128, .f32⟩
  | 58 => ⟨S262144x128, .f32⟩
  | 59 => ⟨S1x128, .f32⟩
  | 60 => ⟨S128, .f32⟩
  | 61 => ⟨S1x128, .f32⟩
  | 62 => ⟨S262144x128, .f32⟩
  | 63 => ⟨S262144x128, .f32⟩
  | 64 => ⟨S_, .f32⟩
  | 65 => ⟨S262144x128, .f32⟩
  | 66 => ⟨S262144x128, .f32⟩
  | 67 => ⟨S1x128x128, .f32⟩
  | 68 => ⟨S128x128, .f32⟩
  | 69 => ⟨S262144x128, .f32⟩
  | 70 => ⟨S1x1x128, .f32⟩
  | 71 => ⟨S1x128, .f32⟩
  | 72 => ⟨S262144x128, .f32⟩
  | 73 => ⟨S262144x128, .f32⟩
  | 74 => ⟨S1x128, .f32⟩
  | 75 => ⟨S128, .f32⟩
  | 76 => ⟨S1x128, .f32⟩
  | 77 => ⟨S262144x128, .f32⟩
  | 78 => ⟨S262144x128, .f32⟩
  | 79 => ⟨S_, .f32⟩
  | 80 => ⟨S262144x128, .f32⟩
  | 81 => ⟨S262144x128, .f32⟩
  | 82 => ⟨S1x128x1, .f32⟩
  | 83 => ⟨S128x1, .f32⟩
  | 84 => ⟨S262144x1, .f32⟩
  | 85 => ⟨S1x1x1, .f32⟩
  | 86 => ⟨S1x1, .f32⟩
  | 87 => ⟨S262144x1, .f32⟩
  | 88 => ⟨S262144x1, .f32⟩
  | 89 => ⟨S1x1, .f32⟩
  | 90 => ⟨S1, .f32⟩
  | 91 => ⟨S1x1, .f32⟩
  | 92 => ⟨S262144x1, .f32⟩
  | 93 => ⟨S262144x1, .f32⟩
  | 94 => ⟨S_, .f32⟩
  | 95 => ⟨S262144x1, .f32⟩
  | 96 => ⟨S262144x1, .f32⟩
  | 97 => ⟨S262144x1, .f32⟩
  | 98 => ⟨S_, .f32⟩
  | 99 => ⟨S262144x1, .f32⟩
  | 100 => ⟨S262144x1, .i1⟩
  | 101 => ⟨S_, .f32⟩
  | 102 => ⟨S262144x1, .f32⟩
  | 103 => ⟨S262144x1, .i1⟩
  | 104 => ⟨S262144x1, .i1⟩
  | 105 => ⟨S1x128x128, .f32⟩
  | 106 => ⟨S128x128, .f32⟩
  | 107 => ⟨S262144x128, .f32⟩
  | 108 => ⟨S1x1x128, .f32⟩
  | 109 => ⟨S1x128, .f32⟩
  | 110 => ⟨S262144x128, .f32⟩
  | 111 => ⟨S262144x128, .f32⟩
  | 112 => ⟨S1x128, .f32⟩
  | 113 => ⟨S128, .f32⟩
  | 114 => ⟨S1x128, .f32⟩
  | 115 => ⟨S262144x128, .f32⟩
  | 116 => ⟨S262144x128, .f32⟩
  | 117 => ⟨S_, .f32⟩
  | 118 => ⟨S262144x128, .f32⟩
  | 119 => ⟨S262144x128, .f32⟩
  | 120 => ⟨S1x128x128, .f32⟩
  | 121 => ⟨S128x128, .f32⟩
  | 122 => ⟨S262144x128, .f32⟩
  | 123 => ⟨S1x1x128, .f32⟩
  | 124 => ⟨S1x128, .f32⟩
  | 125 => ⟨S262144x128, .f32⟩
  | 126 => ⟨S262144x128, .f32⟩
  | 127 => ⟨S1x128, .f32⟩
  | _ => ⟨S262144x129, .f32⟩

abbrev hbmTy0_2 (i : Nat) : BufTy := match i % 128 with
  | 0 => ⟨S128, .f32⟩
  | 1 => ⟨S1x128, .f32⟩
  | 2 => ⟨S262144x128, .f32⟩
  | 3 => ⟨S262144x128, .f32⟩
  | 4 => ⟨S_, .f32⟩
  | 5 => ⟨S262144x128, .f32⟩
  | 6 => ⟨S262144x128, .f32⟩
  | 7 => ⟨S1x128x1, .f32⟩
  | 8 => ⟨S128x1, .f32⟩
  | 9 => ⟨S262144x1, .f32⟩
  | 10 => ⟨S1x1x1, .f32⟩
  | 11 => ⟨S1x1, .f32⟩
  | 12 => ⟨S262144x1, .f32⟩
  | 13 => ⟨S262144x1, .f32⟩
  | 14 => ⟨S1x1, .f32⟩
  | 15 => ⟨S1, .f32⟩
  | 16 => ⟨S1x1, .f32⟩
  | 17 => ⟨S262144x1, .f32⟩
  | 18 => ⟨S262144x1, .f32⟩
  | 19 => ⟨S_, .f32⟩
  | 20 => ⟨S262144x1, .f32⟩
  | 21 => ⟨S262144x1, .f32⟩
  | 22 => ⟨S262144x1, .f32⟩
  | _ => ⟨S262144x129, .f32⟩

abbrev hbmTy (i : Nat) : BufTy := match i / 128 with
  | 0 => hbmTy0_0 i
  | 1 => hbmTy0_1 i
  | 2 => hbmTy0_2 i
  | _ => ⟨S262144x129, .f32⟩

abbrev bufTy : (tb : Table) → Fin (tcTables nBuf tb) → BufTy
  | .hbm, ⟨i, _⟩ => hbmTy i
  | _, _ => ⟨S262144x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call1_cst : Ref sig .tc := ⟨.hbm, 48, rfl⟩
abbrev main_call1_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_2 : Ref sig .tc := ⟨.hbm, 63, rfl⟩
abbrev main_call2_v0 : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_cst_4 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call3_cst : Ref sig .tc := ⟨.hbm, 86, rfl⟩
abbrev main_call3_v0 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_call4_cst : Ref sig .tc := ⟨.hbm, 101, rfl⟩
abbrev main_call4_v0 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_5 : Ref sig .tc := ⟨.hbm, 116, rfl⟩
abbrev main_call5_v0 : Ref sig .tc := ⟨.hbm, 117, rfl⟩
abbrev main_v91 : Ref sig .tc := ⟨.hbm, 118, rfl⟩
abbrev main_v92 : Ref sig .tc := ⟨.hbm, 119, rfl⟩
abbrev main_cst_6 : Ref sig .tc := ⟨.hbm, 120, rfl⟩
abbrev main_v93 : Ref sig .tc := ⟨.hbm, 121, rfl⟩
abbrev main_v94 : Ref sig .tc := ⟨.hbm, 122, rfl⟩
abbrev main_cst_7 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_call6_cst : Ref sig .tc := ⟨.hbm, 139, rfl⟩
abbrev main_call6_v0 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_call7_cst : Ref sig .tc := ⟨.hbm, 154, rfl⟩
abbrev main_call7_v0 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_8 : Ref sig .tc := ⟨.hbm, 169, rfl⟩
abbrev main_call8_v0 : Ref sig .tc := ⟨.hbm, 170, rfl⟩
abbrev main_v136 : Ref sig .tc := ⟨.hbm, 171, rfl⟩
abbrev main_v137 : Ref sig .tc := ⟨.hbm, 172, rfl⟩
abbrev main_cst_9 : Ref sig .tc := ⟨.hbm, 173, rfl⟩
abbrev main_v138 : Ref sig .tc := ⟨.hbm, 174, rfl⟩
abbrev main_v139 : Ref sig .tc := ⟨.hbm, 175, rfl⟩
abbrev main_cst_10 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_call9_cst : Ref sig .tc := ⟨.hbm, 192, rfl⟩
abbrev main_call9_v0 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_call10_cst : Ref sig .tc := ⟨.hbm, 207, rfl⟩
abbrev main_call10_v0 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_cst_11 : Ref sig .tc := ⟨.hbm, 222, rfl⟩
abbrev main_call11_v0 : Ref sig .tc := ⟨.hbm, 223, rfl⟩
abbrev main_v181 : Ref sig .tc := ⟨.hbm, 224, rfl⟩
abbrev main_v182 : Ref sig .tc := ⟨.hbm, 225, rfl⟩
abbrev main_cst_12 : Ref sig .tc := ⟨.hbm, 226, rfl⟩
abbrev main_v183 : Ref sig .tc := ⟨.hbm, 227, rfl⟩
abbrev main_v184 : Ref sig .tc := ⟨.hbm, 228, rfl⟩
abbrev main_cst_13 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_call12_cst : Ref sig .tc := ⟨.hbm, 245, rfl⟩
abbrev main_call12_v0 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_call13_cst : Ref sig .tc := ⟨.hbm, 260, rfl⟩
abbrev main_call13_v0 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_cst_14 : Ref sig .tc := ⟨.hbm, 275, rfl⟩
abbrev main_call14_v0 : Ref sig .tc := ⟨.hbm, 276, rfl⟩
abbrev main_v226 : Ref sig .tc := ⟨.hbm, 277, rfl⟩
abbrev main_v227 : Ref sig .tc := ⟨.hbm, 278, rfl⟩

abbrev nD : Nat := 1
abbrev τ : Topo := Topo.v7x

variable {F : FTy → Type} [FloatOps F]

class Facts₀ : Prop where
  slices_S262144x129_S262144x1_0_0 : S262144x129.Slices ![0, 0] S262144x1
  slices_S262144x129_S262144x128_0_1 : S262144x129.Slices ![0, 1] S262144x128
  bcast_S_S262144x1 : S_.BroadcastsInDim S262144x1 (![] : Fin 0 → Fin S262144x1.rank)
  slices_S5x128x128_S1x128x128_0_0_0 : S5x128x128.Slices ![0, 0, 0] S1x128x128
  shapeCasts_S1x128x128_S128x128 : S1x128x128.ShapeCasts S128x128
  slices_S5x1x128_S1x1x128_0_0_0 : S5x1x128.Slices ![0, 0, 0] S1x1x128
  shapeCasts_S1x1x128_S1x128 : S1x1x128.ShapeCasts S1x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  slices_S5x128x1_S1x128x1_0_0_0 : S5x128x1.Slices ![0, 0, 0] S1x128x1
  shapeCasts_S1x128x1_S128x1 : S1x128x1.ShapeCasts S128x1
  slices_S5x1x1_S1x1x1_0_0_0 : S5x1x1.Slices ![0, 0, 0] S1x1x1
  shapeCasts_S1x1x1_S1x1 : S1x1x1.ShapeCasts S1x1
  slices_S5x1_S1x1_0_0 : S5x1.Slices ![0, 0] S1x1
  shapeCasts_S1x1_S1 : S1x1.ShapeCasts S1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  slices_S5x128x128_S1x128x128_1_0_0 : S5x128x128.Slices ![1, 0, 0] S1x128x128
  slices_S5x1x128_S1x1x128_1_0_0 : S5x1x128.Slices ![1, 0, 0] S1x1x128
  slices_S5x128_S1x128_1_0 : S5x128.Slices ![1, 0] S1x128
  slices_S5x128x1_S1x128x1_1_0_0 : S5x128x1.Slices ![1, 0, 0] S1x128x1
  slices_S5x1x1_S1x1x1_1_0_0 : S5x1x1.Slices ![1, 0, 0] S1x1x1
  slices_S5x1_S1x1_1_0 : S5x1.Slices ![1, 0] S1x1
  slices_S5x128x128_S1x128x128_2_0_0 : S5x128x128.Slices ![2, 0, 0] S1x128x128
  slices_S5x1x128_S1x1x128_2_0_0 : S5x1x128.Slices ![2, 0, 0] S1x1x128
  slices_S5x128_S1x128_2_0 : S5x128.Slices ![2, 0] S1x128
  slices_S5x128x1_S1x128x1_2_0_0 : S5x128x1.Slices ![2, 0, 0] S1x128x1
  slices_S5x1x1_S1x1x1_2_0_0 : S5x1x1.Slices ![2, 0, 0] S1x1x1
  slices_S5x1_S1x1_2_0 : S5x1.Slices ![2, 0] S1x1
  slices_S5x128x128_S1x128x128_3_0_0 : S5x128x128.Slices ![3, 0, 0] S1x128x128
  slices_S5x1x128_S1x1x128_3_0_0 : S5x1x128.Slices ![3, 0, 0] S1x1x128
  slices_S5x128_S1x128_3_0 : S5x128.Slices ![3, 0] S1x128
  slices_S5x128x1_S1x128x1_3_0_0 : S5x128x1.Slices ![3, 0, 0] S1x128x1
  slices_S5x1x1_S1x1x1_3_0_0 : S5x1x1.Slices ![3, 0, 0] S1x1x1
  slices_S5x1_S1x1_3_0 : S5x1.Slices ![3, 0] S1x1
  slices_S5x128x128_S1x128x128_4_0_0 : S5x128x128.Slices ![4, 0, 0] S1x128x128
  slices_S5x1x128_S1x1x128_4_0_0 : S5x1x128.Slices ![4, 0, 0] S1x1x128
  slices_S5x128_S1x128_4_0 : S5x128.Slices ![4, 0] S1x128
  slices_S5x128x1_S1x128x1_4_0_0 : S5x128x1.Slices ![4, 0, 0] S1x128x1
  slices_S5x1x1_S1x1x1_4_0_0 : S5x1x1.Slices ![4, 0, 0] S1x1x1
  slices_S5x1_S1x1_4_0 : S5x1.Slices ![4, 0] S1x1
  dot_S262144x128_S128x128_S262144x128_1_0_0_1_n_n_wf : DotDims.WF S262144x128 S128x128 S262144x128 [1] [0] [0] [1] [] []
  dot_S262144x1_S1x128_S262144x128_1_0_0_1_n_n_wf : DotDims.WF S262144x1 S1x128 S262144x128 [1] [0] [0] [1] [] []
  dot_S262144x128_S128x1_S262144x1_1_0_0_1_n_n_wf : DotDims.WF S262144x128 S128x1 S262144x1 [1] [0] [0] [1] [] []
  dot_S262144x1_S1x1_S262144x1_1_0_0_1_n_n_wf : DotDims.WF S262144x1 S1x1 S262144x1 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x1_S1x128_S262144x128_1_0_0_1_n_n : DotDims S262144x1 S1x128 S262144x128 where
  lhsContracting := [1]
  rhsContracting := [0]
  lhsNonContracting := [0]
  rhsNonContracting := [1]
  lhsBatch := []
  rhsBatch := []
  wf := dot_S262144x1_S1x128_S262144x128_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def dot_S262144x1_S1x1_S262144x1_1_0_0_1_n_n : DotDims S262144x1 S1x1 S262144x1 where
  lhsContracting := [1]
  rhsContracting := [0]
  lhsNonContracting := [0]
  rhsNonContracting := [1]
  lhsBatch := []
  rhsBatch := []
  wf := dot_S262144x1_S1x1_S262144x1_1_0_0_1_n_n_wf

class Facts : Prop extends Facts₀ where

variable [Facts]
-- ==== Proof.RefOps.lean ====
/-
  The reference program as five stretches of host operations.

  The printed program is cut into five consecutive parts; each part is a plain sequence of host operations (a called
  function's operations standing in its call's place), and the whole program is the sequence of the five lists one
  after the other. Each list touches TensorCore buffers only and allocates nothing. Reading the program part by part
  keeps every definitional unfolding to some sixty operations.
-/
import proofs.«175108_j54133767799373_2_alg».proof.Proof.Gen.ReferenceIdeal
import Idealize.ShloMosaic.Lib.StableHlo.Run

noncomputable section

namespace Cert.Routed.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of part 0 of the program, in order. -/
abbrev opsP0 : List (HloOp τ sig (Elt F)) :=
  [ unary main_arg0 main_v0 ((extractStridedSlice S262144x1 ![0, 0] · slices_S262144x129_S262144x1_0_0) : (⟨S262144x129, .f32⟩ : BufTy).Contents (Elt F) → (⟨S262144x1, .f32⟩ : BufTy).Contents (Elt F)),
    unary main_arg0 main_v1 ((extractStridedSlice S262144x128 ![0, 1] · slices_S262144x129_S262144x128_0_1) : (⟨S262144x129, .f32⟩ : BufTy).Contents (Elt F) → (⟨S262144x128, .f32⟩ : BufTy).Contents (Elt F)),
    nullary main_cst (constant S_ .f32 0x00000000#32),
    unary main_cst main_v2 (broadcastInDim S262144x1 ![] bcast_S_S262144x1 : (⟨S_, .f32⟩ : BufTy).Contents (Elt F) → (⟨S262144x1, .f32⟩ : BufTy).Contents (Elt F)),
    nullary main_cst_0 (constant S_ .f32 0x00000000#32),
    unary main_cst_0 main_v3 (broadcastInDim S262144x1 ![] bcast_S_S262144x1 : (⟨S_, .f32⟩ : BufTy).Contents (Elt F) → (⟨S262144x1, .f32⟩ : BufTy).Contents (Elt F)),
    binary main_v0 main_v3 main_v4 (cmpf .oge : (⟨S262144x1, .f32⟩ : BufTy).Contents (Elt F) → (⟨S262144x1, .f32⟩ : BufTy).Contents (Elt F) → (⟨S262144x1, .i1⟩ : BufTy).Contents (Elt F)),
    nullary main_cst_1 (constant S_ .f32 0x3E4CCCCD#32),
    unary main_cst_1 main_v5 (broadcastInDim S262144x1 ![] bcast_S_S262144x1 : (⟨S_, .f32⟩ : BufTy).Contents (Elt F) → (⟨S262144x1, .f32⟩ : BufTy).Contents (Elt F)),
    binary main_v0 main_v5 main_v6 (cmpf .olt : (⟨S262144x1, .f32⟩ : BufTy).Contents (Elt F) → (⟨S262144x1, .f32⟩ : BufTy).Contents (Elt F) → (⟨S262144x1, .i1⟩ : BufTy).Contents (Elt F)),
    binary main_v4 main_v6 main_v7 (andi : (⟨S262144x1, .i1⟩ : BufTy).Contents (Elt F) → (⟨S262144x1, .i1⟩ : BufTy).Contents (Elt F) → (⟨S262144x1, .i1⟩ : BufTy).Contents (Elt F)),
    unary main_arg1 main_v8 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v8 main_v9 rfl shapeCasts_S1x128x128_S128x128,
    binary main_v1 main_v9 main_v10 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg2 main_v11 ((extractStridedSlice S1x1x128 ![0, 0, 0] · slices_S5x1x128_S1x1x128_0_0_0) : (⟨S5x1x128, .f32⟩ : BufTy).Contents (Elt F) → (⟨S1x1x128, .f32⟩ : BufTy).Contents (Elt F)),
    reshape main_v11 main_v12 rfl shapeCasts_S1x1x128_S1x128,
    binary main_v0 main_v12 main_v13 ((fun l r => Host.dotGeneral dot_S262144x1_S1x128_S262144x128_1_0_0_1_n_n none l r) : (⟨S262144x1, .f32⟩ : BufTy).Contents (Elt F) → (⟨S1x128, .f32⟩ : BufTy).Contents (Elt F) → (⟨S262144x128, .f32⟩ : BufTy).Contents (Elt F)),
    binary main_v10 main_v13 main_v14 (addf : (⟨S262144x128, .f32⟩ : BufTy).Contents (Elt F) → (⟨S262144x128, .f32⟩ : BufTy).Contents (Elt F) → (⟨S262144x128, .f32⟩ : BufTy).Contents (Elt F)),
    unary main_arg3 main_v15 ((extractStridedSlice S1x128 ![0, 0] · slices_S5x128_S1x128_0_0) : (⟨S5x128, .f32⟩ : BufTy).Contents (Elt F) → (⟨S1x128, .f32⟩ : BufTy).Contents (Elt F)),
    reshape main_v15 main_v16 rfl shapeCasts_S1x128_S128,
    unary main_v16 main_v17 (broadcastInDim S1x128 ![1] bcast_S128_S1x128_1 : (⟨S128, .f32⟩ : BufTy).Contents (Elt F) → (⟨S1x128, .f32⟩ : BufTy).Contents (Elt F)),
    unary main_v17 main_v18 (broadcastInDim S262144x128 ![0, 1] bcast_S1x128_S262144x128_0_1 : (⟨S1x128, .f32⟩ : BufTy).Contents (Elt F) → (⟨S262144x128, .f32⟩ : BufTy).Contents (Elt F)),
    binary main_v14 main_v18 main_v19 (addf : (⟨S262144x128, .f32⟩ : BufTy).Contents (Elt F) → (⟨S262144x128, .f32⟩ : BufTy).Contents (Elt F) → (⟨S262144x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S262144x128, .f32⟩) main_call0_v0) (broadcastInDim S262144x128 ![] bcast_S_S262144x128),
    TRef.binary (TRef.of (T := ⟨S262144x128, .f32⟩) main_v19) (TRef.of (T := ⟨S262144x128, .f32⟩) main_call0_v0) (TRef.of (T := ⟨S262144x128, .f32⟩) main_v20) maximumf,
    unary main_arg4 main_v21 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v21 main_v22 rfl shapeCasts_S1x128x128_S128x128,
    binary main_v20 main_v22 main_v23 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg5 main_v24 ((extractStridedSlice S1x1x128 ![0, 0, 0] · slices_S5x1x128_S1x1x128_0_0_0) : (⟨S5x1x128, .f32⟩ : BufTy).Contents (Elt F) → (⟨S1x1x128, .f32⟩ : BufTy).Contents (Elt F)),
    reshape main_v24 main_v25 rfl shapeCasts_S1x1x128_S1x128,
    binary main_v0 main_v25 main_v26 ((fun l r => Host.dotGeneral dot_S262144x1_S1x128_S262144x128_1_0_0_1_n_n none l r) : (⟨S262144x1, .f32⟩ : BufTy).Contents (Elt F) → (⟨S1x128, .f32⟩ : BufTy).Contents (Elt F) → (⟨S262144x128, .f32⟩ : BufTy).Contents (Elt F)),
    binary main_v23 main_v26 main_v27 (addf : (⟨S262144x128, .f32⟩ : BufTy).Contents (Elt F) → (⟨S262144x128, .f32⟩ : BufTy).Contents (Elt F) → (⟨S262144x128, .f32⟩ : BufTy).Contents (Elt F)),
    unary main_arg6 main_v28 ((extractStridedSlice S1x128 ![0, 0] · slices_S5x128_S1x128_0_0) : (⟨S5x128, .f32⟩ : BufTy).Contents (Elt F) → (⟨S1x128, .f32⟩ : BufTy).Contents (Elt F)),
    reshape main_v28 main_v29 rfl shapeCasts_S1x128_S128,
    unary main_v29 main_v30 (broadcastInDim S1x128 ![1] bcast_S128_S1x128_1 : (⟨S128, .f32⟩ : BufTy).Contents (Elt F) → (⟨S1x128, .f32⟩ : BufTy).Contents (Elt F)),
    unary main_v30 main_v31 (broadcastInDim S262144x128 ![0, 1] bcast_S1x128_S262144x128_0_1 : (⟨S1x128, .f32⟩ : BufTy).Contents (Elt F) → (⟨S262144x128, .f32⟩ : BufTy).Contents (Elt F)),
    binary main_v27 main_v31 main_v32 (addf : (⟨S262144x128, .f32⟩ : BufTy).Contents (Elt F) → (⟨S262144x128, .f32⟩ : BufTy).Contents (Elt F) → (⟨S262144x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S262144x128, .f32⟩) main_call1_v0) (broadcastInDim S262144x128 ![] bcast_S_S262144x128),
    TRef.binary (TRef.of (T := ⟨S262144x128, .f32⟩) main_v32) (TRef.of (T := ⟨S262144x128, .f32⟩) main_call1_v0) (TRef.of (T := ⟨S262144x128, .f32⟩) main_v33) maximumf,
    unary main_arg7 main_v34 ((extractStridedSlice S1x128x1 ![0, 0, 0] · slices_S5x128x1_S1x128x1_0_0_0) : (⟨S5x128x1, .f32⟩ : BufTy).Contents (Elt F) → (⟨S1x128x1, .f32⟩ : BufTy).Contents (Elt F)),
    reshape main_v34 main_v35 rfl shapeCasts_S1x128x1_S128x1,
    binary main_v33 main_v35 main_v36 ((fun l r => Host.dotGeneral dot_S262144x128_S128x1_S262144x1_1_0_0_1_n_n none l r) : (⟨S262144x128, .f32⟩ : BufTy).Contents (Elt F) → (⟨S128x1, .f32⟩ : BufTy).Contents (Elt F) → (⟨S262144x1, .f32⟩ : BufTy).Contents (Elt F)),
    unary main_arg8 main_v37 ((extractStridedSlice S1x1x1 ![0, 0, 0] · slices_S5x1x1_S1x1x1_0_0_0) : (⟨S5x1x1, .f32⟩ : BufTy).Contents (Elt F) → (⟨S1x1x1, .f32⟩ : BufTy).Contents (Elt F)),
    reshape main_v37 main_v38 rfl shapeCasts_S1x1x1_S1x1,
    binary main_v0 main_v38 main_v39 ((fun l r => Host.dotGeneral dot_S262144x1_S1x1_S262144x1_1_0_0_1_n_n none l r) : (⟨S262144x1, .f32⟩ : BufTy).Contents (Elt F) → (⟨S1x1, .f32⟩ : BufTy).Contents (Elt F) → (⟨S262144x1, .f32⟩ : BufTy).Contents (Elt F)),
    binary main_v36 main_v39 main_v40 (addf : (⟨S262144x1, .f32⟩ : BufTy).Contents (Elt F) → (⟨S262144x1, .f32⟩ : BufTy).Contents (Elt F) → (⟨S262144x1, .f32⟩ : BufTy).Contents (Elt F)),
    unary main_arg9 main_v41 ((extractStridedSlice S1x1 ![0, 0] · slices_S5x1_S1x1_0_0) : (⟨S5x1, .f32⟩ : BufTy).Contents (Elt F) → (⟨S1x1, .f32⟩ : BufTy).Contents (Elt F)),
    reshape main_v41 main_v42 rfl shapeCasts_S1x1_S1,
    unary main_v42 main_v43 (broadcastInDim S1x1 ![1] bcast_S1_S1x1_1 : (⟨S1, .f32⟩ : BufTy).Contents (Elt F) → (⟨S1x1, .f32⟩ : BufTy).Contents (Elt F)),
    unary main_v43 main_v44 (broadcastInDim S262144x1 ![0, 1] bcast_S1x1_S262144x1_0_1 : (⟨S1x1, .f32⟩ : BufTy).Contents (Elt F) → (⟨S262144x1, .f32⟩ : BufTy).Contents (Elt F)),
    binary main_v40 main_v44 main_v45 (addf : (⟨S262144x1, .f32⟩ : BufTy).Contents (Elt F) → (⟨S262144x1, .f32⟩ : BufTy).Contents (Elt F) → (⟨S262144x1, .f32⟩ : BufTy).Contents (Elt F)),
    nullary main_cst_2 (constant S_ .f32 0x00000000#32),
    TRef.unary (TRef.of (T := ⟨S_, .f32⟩) main_cst_2) (TRef.of (T := ⟨S262144x1, .f32⟩) main_call2_v0) (broadcastInDim S262144x1 ![] bcast_S_S262144x1),
    TRef.ternary (TRef.of (T := ⟨S262144x1, .i1⟩) main_v7) (TRef.of (T := ⟨S262144x1, .f32⟩) main_v45) (TRef.of (T := ⟨S262144x1, .f32⟩) main_call2_v0) (TRef.of (T := ⟨S262144x1, .f32⟩) main_v46) select,
    binary main_v2 main_v46 main_v47 (addf : (⟨S262144x1, .f32⟩ : BufTy).Contents (Elt F) → (⟨S262144x1, .f32⟩ : BufTy).Contents (Elt F) → (⟨S262144x1, .f32⟩ : BufTy).Contents (Elt F)),
    nullary main_cst_3 (constant S_ .f32 0x3E4CCCCD#32),
    unary main_cst_3 main_v48 (broadcastInDim S262144x1 ![] bcast_S_S262144x1 : (⟨S_, .f32⟩ : BufTy).Contents (Elt F) → (⟨S262144x1, .f32⟩ : BufTy).Contents (Elt F)),
    binary main_v0 main_v48 main_v49 (cmpf .oge : (⟨S262144x1, .f32⟩ : BufTy).Contents (Elt F) → (⟨S262144x1, .f32⟩ : BufTy).Contents (Elt F) → (⟨S262144x1, .i1⟩ : BufTy).Contents (Elt F)),
    nullary main_cst_4 (constant S_ .f32 0x3ECCCCCD#32),
    unary main_cst_4 main_v50 (broadcastInDim S262144x1 ![] bcast_S_S262144x1 : (⟨S_, .f32⟩ : BufTy).Contents (Elt F) → (⟨S262144x1, .f32⟩ : BufTy).Contents (Elt F)),
    binary main_v0 main_v50 main_v51 (cmpf .olt : (⟨S262144x1, .f32⟩ : BufTy).Contents (Elt F) → (⟨S262144x1, .f32⟩ : BufTy).Contents (Elt F) → (⟨S262144x1, .i1⟩ : BufTy).Contents (Elt F)),
    binary main_v49 main_v51 main_v52 (andi : (⟨S262144x1, .i1⟩ : BufTy).Contents (Elt F) → (⟨S262144x1, .i1⟩ : BufTy).Contents (Elt F) → (⟨S262144x1, .i1⟩ : BufTy).Contents (Elt F)),
    unary main_arg1 main_v53 ((extractStridedSlice S1x128x128 ![1, 0, 0] · slices_S5x128x128_S1x128x128_1_0_0) : (⟨S5x128x128, .f32⟩ : BufTy).Contents (Elt F) → (⟨S1x128x128, .f32⟩ : BufTy).Contents (Elt F)) ]

/-- The operations of part 1 of the program, in order. -/
abbrev opsP1 : List (HloOp τ sig (Elt F)) :=
  [ reshape main_v53 main_v54 rfl shapeCasts_S1x128x128_S128x128,
    binary main_v1 main_v54 main_v55 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg2 main_v56 ((extractStridedSlice S1x1x128 ![1, 0, 0] · slices_S5x1x128_S1x1x128_1_0_0) : (⟨S5x1x128, .f32⟩ : BufTy).Contents (Elt F) → (⟨S1x1x128, .f32⟩ : BufTy).Contents (Elt F)),
    reshape main_v56 main_v57 rfl shapeCasts_S1x1x128_S1x128,
    binary main_v0 main_v57 main_v58 ((fun l r => Host.dotGeneral dot_S262144x1_S1x128_S262144x128_1_0_0_1_n_n none l r) : (⟨S262144x1, .f32⟩ : BufTy).Contents (Elt F) → (⟨S1x128, .f32⟩ : BufTy).Contents (Elt F) → (⟨S262144x128, .f32⟩ : BufTy).Contents (Elt F)),
    binary main_v55 main_v58 main_v59 (addf : (⟨S262144x128, .f32⟩ : BufTy).Contents (Elt F) → (⟨S262144x128, .f32⟩ : BufTy).Contents (Elt F) → (⟨S262144x128, .f32⟩ : BufTy).Contents (Elt F)),
    unary main_arg3 main_v60 ((extractStridedSlice S1x128 ![1, 0] · slices_S5x128_S1x128_1_0) : (⟨S5x128, .f32⟩ : BufTy).Contents (Elt F) → (⟨S1x128, .f32⟩ : BufTy).Contents (Elt F)),
    reshape main_v60 main_v61 rfl shapeCasts_S1x128_S128,
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S262144x128 ![0, 1] bcast_S1x128_S262144x128_0_1 : (⟨S1x128, .f32⟩ : BufTy).Contents (Elt F) → (⟨S262144x128, .f32⟩ : BufTy).Contents (Elt F)),
    binary main_v59 main_v63 main_v64 (addf : (⟨S262144x128, .f32⟩ : BufTy).Contents (Elt F) → (⟨S262144x128, .f32⟩ : BufTy).Contents (Elt F) → (⟨S262144x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S262144x128, .f32⟩) main_call3_v0) (broadcastInDim S262144x128 ![] bcast_S_S262144x128),
    TRef.binary (TRef.of (T := ⟨S262144x128, .f32⟩) main_v64) (TRef.of (T := ⟨S262144x128, .f32⟩) main_call3_v0) (TRef.of (T := ⟨S262144x128, .f32⟩) main_v65) maximumf,
    unary main_arg4 main_v66 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v66 main_v67 rfl shapeCasts_S1x128x128_S128x128,
    binary main_v65 main_v67 main_v68 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg5 main_v69 ((extractStridedSlice S1x1x128 ![1, 0, 0] · slices_S5x1x128_S1x1x128_1_0_0) : (⟨S5x1x128, .f32⟩ : BufTy).Contents (Elt F) → (⟨S1x1x128, .f32⟩ : BufTy).Contents (Elt F)),
    reshape main_v69 main_v70 rfl shapeCasts_S1x1x128_S1x128,
    binary main_v0 main_v70 main_v71 ((fun l r => Host.dotGeneral dot_S262144x1_S1x128_S262144x128_1_0_0_1_n_n none l r) : (⟨S262144x1, .f32⟩ : BufTy).Contents (Elt F) → (⟨S1x128, .f32⟩ : BufTy).Contents (Elt F) → (⟨S262144x128, .f32⟩ : BufTy).Contents (Elt F)),
    binary main_v68 main_v71 main_v72 (addf : (⟨S262144x128, .f32⟩ : BufTy).Contents (Elt F) → (⟨S262144x128, .f32⟩ : BufTy).Contents (Elt F) → (⟨S262144x128, .f32⟩ : BufTy).Contents (Elt F)),
    unary main_arg6 main_v73 ((extractStridedSlice S1x128 ![1, 0] · slices_S5x128_S1x128_1_0) : (⟨S5x128, .f32⟩ : BufTy).Contents (Elt F) → (⟨S1x128, .f32⟩ : BufTy).Contents (Elt F)),
    reshape main_v73 main_v74 rfl shapeCasts_S1x128_S128,
    unary main_v74 main_v75 (broadcastInDim S1x128 ![1] bcast_S128_S1x128_1 : (⟨S128, .f32⟩ : BufTy).Contents (Elt F) → (⟨S1x128, .f32⟩ : BufTy).Contents (Elt F)),
    unary main_v75 main_v76 (broadcastInDim S262144x128 ![0, 1] bcast_S1x128_S262144x128_0_1 : (⟨S1x128, .f32⟩ : BufTy).Contents (Elt F) → (⟨S262144x128, .f32⟩ : BufTy).Contents (Elt F)),
    binary main_v72 main_v76 main_v77 (addf : (⟨S262144x128, .f32⟩ : BufTy).Contents (Elt F) → (⟨S262144x128, .f32⟩ : BufTy).Contents (Elt F) → (⟨S262144x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S262144x128, .f32⟩) main_call4_v0) (broadcastInDim S262144x128 ![] bcast_S_S262144x128),
    TRef.binary (TRef.of (T := ⟨S262144x128, .f32⟩) main_v77) (TRef.of (T := ⟨S262144x128, .f32⟩) main_call4_v0) (TRef.of (T := ⟨S262144x128, .f32⟩) main_v78) maximumf,
    unary main_arg7 main_v79 ((extractStridedSlice S1x128x1 ![1, 0, 0] · slices_S5x128x1_S1x128x1_1_0_0) : (⟨S5x128x1, .f32⟩ : BufTy).Contents (Elt F) → (⟨S1x128x1, .f32⟩ : BufTy).Contents (Elt F)),
    reshape main_v79 main_v80 rfl shapeCasts_S1x128x1_S128x1,
    binary main_v78 main_v80 main_v81 ((fun l r => Host.dotGeneral dot_S262144x128_S128x1_S262144x1_1_0_0_1_n_n none l r) : (⟨S262144x128, .f32⟩ : BufTy).Contents (Elt F) → (⟨S128x1, .f32⟩ : BufTy).Contents (Elt F) → (⟨S262144x1, .f32⟩ : BufTy).Contents (Elt F)),
    unary main_arg8 main_v82 ((extractStridedSlice S1x1x1 ![1, 0, 0] · slices_S5x1x1_S1x1x1_1_0_0) : (⟨S5x1x1, .f32⟩ : BufTy).Contents (Elt F) → (⟨S1x1x1, .f32⟩ : BufTy).Contents (Elt F)),
    reshape main_v82 main_v83 rfl shapeCasts_S1x1x1_S1x1,
    binary main_v0 main_v83 main_v84 ((fun l r => Host.dotGeneral dot_S262144x1_S1x1_S262144x1_1_0_0_1_n_n none l r) : (⟨S262144x1, .f32⟩ : BufTy).Contents (Elt F) → (⟨S1x1, .f32⟩ : BufTy).Contents (Elt F) → (⟨S262144x1, .f32⟩ : BufTy).Contents (Elt F)),
    binary main_v81 main_v84 main_v85 (addf : (⟨S262144x1, .f32⟩ : BufTy).Contents (Elt F) → (⟨S262144x1, .f32⟩ : BufTy).Contents (Elt F) → (⟨S262144x1, .f32⟩ : BufTy).Contents (Elt F)),
    unary main_arg9 main_v86 ((extractStridedSlice S1x1 ![1, 0] · slices_S5x1_S1x1_1_0) : (⟨S5x1, .f32⟩ : BufTy).Contents (Elt F) → (⟨S1x1, .f32⟩ : BufTy).Contents (Elt F)),
    reshape main_v86 main_v87 rfl shapeCasts_S1x1_S1,
    unary main_v87 main_v88 (broadcastInDim S1x1 ![1] bcast_S1_S1x1_1 : (⟨S1, .f32⟩ : BufTy).Contents (Elt F) → (⟨S1x1, .f32⟩ : BufTy).Contents (Elt F)),
    unary main_v88 main_v89 (broadcastInDim S262144x1 ![0, 1] bcast_S1x1_S262144x1_0_1 : (⟨S1x1, .f32⟩ : BufTy).Contents (Elt F) → (⟨S262144x1, .f32⟩ : BufTy).Contents (Elt F)),
    binary main_v85 main_v89 main_v90 (addf : (⟨S262144x1, .f32⟩ : BufTy).Contents (Elt F) → (⟨S262144x1, .f32⟩ : BufTy).Contents (Elt F) → (⟨S262144x1, .f32⟩ : BufTy).Contents (Elt F)),
    nullary main_cst_5 (constant S_ .f32 0x00000000#32),
    TRef.unary (TRef.of (T := ⟨S_, .f32⟩) main_cst_5) (TRef.of (T := ⟨S262144x1, .f32⟩) main_call5_v0) (broadcastInDim S262144x1 ![] bcast_S_S262144x1),
    TRef.ternary (TRef.of (T := ⟨S262144x1, .i1⟩) main_v52) (TRef.of (T := ⟨S262144x1, .f32⟩) main_v90) (TRef.of (T := ⟨S262144x1, .f32⟩) main_call5_v0) (TRef.of (T := ⟨S262144x1, .f32⟩) main_v91) select,
    binary main_v47 main_v91 main_v92 (addf : (⟨S262144x1, .f32⟩ : BufTy).Contents (Elt F) → (⟨S262144x1, .f32⟩ : BufTy).Contents (Elt F) → (⟨S262144x1, .f32⟩ : BufTy).Contents (Elt F)),
    nullary main_cst_6 (constant S_ .f32 0x3ECCCCCD#32),
    unary main_cst_6 main_v93 (broadcastInDim S262144x1 ![] bcast_S_S262144x1 : (⟨S_, .f32⟩ : BufTy).Contents (Elt F) → (⟨S262144x1, .f32⟩ : BufTy).Contents (Elt F)),
    binary main_v0 main_v93 main_v94 (cmpf .oge : (⟨S262144x1, .f32⟩ : BufTy).Contents (Elt F) → (⟨S262144x1, .f32⟩ : BufTy).Contents (Elt F) → (⟨S262144x1, .i1⟩ : BufTy).Contents (Elt F)),
    nullary main_cst_7 (constant S_ .f32 0x3F19999A#32),
    unary main_cst_7 main_v95 (broadcastInDim S262144x1 ![] bcast_S_S262144x1 : (⟨S_, .f32⟩ : BufTy).Contents (Elt F) → (⟨S262144x1, .f32⟩ : BufTy).Contents (Elt F)),
    binary main_v0 main_v95 main_v96 (cmpf .olt : (⟨S262144x1, .f32⟩ : BufTy).Contents (Elt F) → (⟨S262144x1, .f32⟩ : BufTy).Contents (Elt F) → (⟨S262144x1, .i1⟩ : BufTy).Contents (Elt F)),
    binary main_v94 main_v96 main_v97 (andi : (⟨S262144x1, .i1⟩ : BufTy).Contents (Elt F) → (⟨S262144x1, .i1⟩ : BufTy).Contents (Elt F) → (⟨S262144x1, .i1⟩ : BufTy).Contents (Elt F)),
    unary main_arg1 main_v98 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v98 main_v99 rfl shapeCasts_S1x128x128_S128x128,
    binary main_v1 main_v99 main_v100 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg2 main_v101 ((extractStridedSlice S1x1x128 ![2, 0, 0] · slices_S5x1x128_S1x1x128_2_0_0) : (⟨S5x1x128, .f32⟩ : BufTy).Contents (Elt F) → (⟨S1x1x128, .f32⟩ : BufTy).Contents (Elt F)),
    reshape main_v101 main_v102 rfl shapeCasts_S1x1x128_S1x128,
    binary main_v0 main_v102 main_v103 ((fun l r => Host.dotGeneral dot_S262144x1_S1x128_S262144x128_1_0_0_1_n_n none l r) : (⟨S262144x1, .f32⟩ : BufTy).Contents (Elt F) → (⟨S1x128, .f32⟩ : BufTy).Contents (Elt F) → (⟨S262144x128, .f32⟩ : BufTy).Contents (Elt F)),
    binary main_v100 main_v103 main_v104 (addf : (⟨S262144x128, .f32⟩ : BufTy).Contents (Elt F) → (⟨S262144x128, .f32⟩ : BufTy).Contents (Elt F) → (⟨S262144x128, .f32⟩ : BufTy).Contents (Elt F)),
    unary main_arg3 main_v105 ((extractStridedSlice S1x128 ![2, 0] · slices_S5x128_S1x128_2_0) : (⟨S5x128, .f32⟩ : BufTy).Contents (Elt F) → (⟨S1x128, .f32⟩ : BufTy).Contents (Elt F)),
    reshape main_v105 main_v106 rfl shapeCasts_S1x128_S128,
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S262144x128 ![0, 1] bcast_S1x128_S262144x128_0_1 : (⟨S1x128, .f32⟩ : BufTy).Contents (Elt F) → (⟨S262144x128, .f32⟩ : BufTy).Contents (Elt F)),
    binary main_v104 main_v108 main_v109 (addf : (⟨S262144x128, .f32⟩ : BufTy).Contents (Elt F) → (⟨S262144x128, .f32⟩ : BufTy).Contents (Elt F) → (⟨S262144x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S262144x128, .f32⟩) main_call6_v0) (broadcastInDim S262144x128 ![] bcast_S_S262144x128),
    TRef.binary (TRef.of (T := ⟨S262144x128, .f32⟩) main_v109) (TRef.of (T := ⟨S262144x128, .f32⟩) main_call6_v0) (TRef.of (T := ⟨S262144x128, .f32⟩) main_v110) maximumf ]

/-- The operations of part 2 of the program, in order. -/
abbrev opsP2 : List (HloOp τ sig (Elt F)) :=
  [ unary main_arg4 main_v111 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v111 main_v112 rfl shapeCasts_S1x128x128_S128x128,
    binary main_v110 main_v112 main_v113 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg5 main_v114 ((extractStridedSlice S1x1x128 ![2, 0, 0] · slices_S5x1x128_S1x1x128_2_0_0) : (⟨S5x1x128, .f32⟩ : BufTy).Contents (Elt F) → (⟨S1x1x128, .f32⟩ : BufTy).Contents (Elt F)),
    reshape main_v114 main_v115 rfl shapeCasts_S1x1x128_S1x128,
    binary main_v0 main_v115 main_v116 ((fun l r => Host.dotGeneral dot_S262144x1_S1x128_S262144x128_1_0_0_1_n_n none l r) : (⟨S262144x1, .f32⟩ : BufTy).Contents (Elt F) → (⟨S1x128, .f32⟩ : BufTy).Contents (Elt F) → (⟨S262144x128, .f32⟩ : BufTy).Contents (Elt F)),
    binary main_v113 main_v116 main_v117 (addf : (⟨S262144x128, .f32⟩ : BufTy).Contents (Elt F) → (⟨S262144x128, .f32⟩ : BufTy).Contents (Elt F) → (⟨S262144x128, .f32⟩ : BufTy).Contents (Elt F)),
    unary main_arg6 main_v118 ((extractStridedSlice S1x128 ![2, 0] · slices_S5x128_S1x128_2_0) : (⟨S5x128, .f32⟩ : BufTy).Contents (Elt F) → (⟨S1x128, .f32⟩ : BufTy).Contents (Elt F)),
    reshape main_v118 main_v119 rfl shapeCasts_S1x128_S128,
    unary main_v119 main_v120 (broadcastInDim S1x128 ![1] bcast_S128_S1x128_1 : (⟨S128, .f32⟩ : BufTy).Contents (Elt F) → (⟨S1x128, .f32⟩ : BufTy).Contents (Elt F)),
    unary main_v120 main_v121 (broadcastInDim S262144x128 ![0, 1] bcast_S1x128_S262144x128_0_1 : (⟨S1x128, .f32⟩ : BufTy).Contents (Elt F) → (⟨S262144x128, .f32⟩ : BufTy).Contents (Elt F)),
    binary main_v117 main_v121 main_v122 (addf : (⟨S262144x128, .f32⟩ : BufTy).Contents (Elt F) → (⟨S262144x128, .f32⟩ : BufTy).Contents (Elt F) → (⟨S262144x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S262144x128, .f32⟩) main_call7_v0) (broadcastInDim S262144x128 ![] bcast_S_S262144x128),
    TRef.binary (TRef.of (T := ⟨S262144x128, .f32⟩) main_v122) (TRef.of (T := ⟨S262144x128, .f32⟩) main_call7_v0) (TRef.of (T := ⟨S262144x128, .f32⟩) main_v123) maximumf,
    unary main_arg7 main_v124 ((extractStridedSlice S1x128x1 ![2, 0, 0] · slices_S5x128x1_S1x128x1_2_0_0) : (⟨S5x128x1, .f32⟩ : BufTy).Contents (Elt F) → (⟨S1x128x1, .f32⟩ : BufTy).Contents (Elt F)),
    reshape main_v124 main_v125 rfl shapeCasts_S1x128x1_S128x1,
    binary main_v123 main_v125 main_v126 ((fun l r => Host.dotGeneral dot_S262144x128_S128x1_S262144x1_1_0_0_1_n_n none l r) : (⟨S262144x128, .f32⟩ : BufTy).Contents (Elt F) → (⟨S128x1, .f32⟩ : BufTy).Contents (Elt F) → (⟨S262144x1, .f32⟩ : BufTy).Contents (Elt F)),
    unary main_arg8 main_v127 ((extractStridedSlice S1x1x1 ![2, 0, 0] · slices_S5x1x1_S1x1x1_2_0_0) : (⟨S5x1x1, .f32⟩ : BufTy).Contents (Elt F) → (⟨S1x1x1, .f32⟩ : BufTy).Contents (Elt F)),
    reshape main_v127 main_v128 rfl shapeCasts_S1x1x1_S1x1,
    binary main_v0 main_v128 main_v129 ((fun l r => Host.dotGeneral dot_S262144x1_S1x1_S262144x1_1_0_0_1_n_n none l r) : (⟨S262144x1, .f32⟩ : BufTy).Contents (Elt F) → (⟨S1x1, .f32⟩ : BufTy).Contents (Elt F) → (⟨S262144x1, .f32⟩ : BufTy).Contents (Elt F)),
    binary main_v126 main_v129 main_v130 (addf : (⟨S262144x1, .f32⟩ : BufTy).Contents (Elt F) → (⟨S262144x1, .f32⟩ : BufTy).Contents (Elt F) → (⟨S262144x1, .f32⟩ : BufTy).Contents (Elt F)),
    unary main_arg9 main_v131 ((extractStridedSlice S1x1 ![2, 0] · slices_S5x1_S1x1_2_0) : (⟨S5x1, .f32⟩ : BufTy).Contents (Elt F) → (⟨S1x1, .f32⟩ : BufTy).Contents (Elt F)),
    reshape main_v131 main_v132 rfl shapeCasts_S1x1_S1,
    unary main_v132 main_v133 (broadcastInDim S1x1 ![1] bcast_S1_S1x1_1 : (⟨S1, .f32⟩ : BufTy).Contents (Elt F) → (⟨S1x1, .f32⟩ : BufTy).Contents (Elt F)),
    unary main_v133 main_v134 (broadcastInDim S262144x1 ![0, 1] bcast_S1x1_S262144x1_0_1 : (⟨S1x1, .f32⟩ : BufTy).Contents (Elt F) → (⟨S262144x1, .f32⟩ : BufTy).Contents (Elt F)),
    binary main_v130 main_v134 main_v135 (addf : (⟨S262144x1, .f32⟩ : BufTy).Contents (Elt F) → (⟨S262144x1, .f32⟩ : BufTy).Contents (Elt F) → (⟨S262144x1, .f32⟩ : BufTy).Contents (Elt F)),
    nullary main_cst_8 (constant S_ .f32 0x00000000#32),
    TRef.unary (TRef.of (T := ⟨S_, .f32⟩) main_cst_8) (TRef.of (T := ⟨S262144x1, .f32⟩) main_call8_v0) (broadcastInDim S262144x1 ![] bcast_S_S262144x1),
    TRef.ternary (TRef.of (T := ⟨S262144x1, .i1⟩) main_v97) (TRef.of (T := ⟨S262144x1, .f32⟩) main_v135) (TRef.of (T := ⟨S262144x1, .f32⟩) main_call8_v0) (TRef.of (T := ⟨S262144x1, .f32⟩) main_v136) select,
    binary main_v92 main_v136 main_v137 (addf : (⟨S262144x1, .f32⟩ : BufTy).Contents (Elt F) → (⟨S262144x1, .f32⟩ : BufTy).Contents (Elt F) → (⟨S262144x1, .f32⟩ : BufTy).Contents (Elt F)),
    nullary main_cst_9 (constant S_ .f32 0x3F19999A#32),
    unary main_cst_9 main_v138 (broadcastInDim S262144x1 ![] bcast_S_S262144x1 : (⟨S_, .f32⟩ : BufTy).Contents (Elt F) → (⟨S262144x1, .f32⟩ : BufTy).Contents (Elt F)),
    binary main_v0 main_v138 main_v139 (cmpf .oge : (⟨S262144x1, .f32⟩ : BufTy).Contents (Elt F) → (⟨S262144x1, .f32⟩ : BufTy).Contents (Elt F) → (⟨S262144x1, .i1⟩ : BufTy).Contents (Elt F)),
    nullary main_cst_10 (constant S_ .f32 0x3F4CCCCD#32),
    unary main_cst_10 main_v140 (broadcastInDim S262144x1 ![] bcast_S_S262144x1 : (⟨S_, .f32⟩ : BufTy).Contents (Elt F) → (⟨S262144x1, .f32⟩ : BufTy).Contents (Elt F)),
    binary main_v0 main_v140 main_v141 (cmpf .olt : (⟨S262144x1, .f32⟩ : BufTy).Contents (Elt F) → (⟨S262144x1, .f32⟩ : BufTy).Contents (Elt F) → (⟨S262144x1, .i1⟩ : BufTy).Contents (Elt F)),
    binary main_v139 main_v141 main_v142 (andi : (⟨S262144x1, .i1⟩ : BufTy).Contents (Elt F) → (⟨S262144x1, .i1⟩ : BufTy).Contents (Elt F) → (⟨S262144x1, .i1⟩ : BufTy).Contents (Elt F)),
    unary main_arg1 main_v143 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v143 main_v144 rfl shapeCasts_S1x128x128_S128x128,
    binary main_v1 main_v144 main_v145 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg2 main_v146 ((extractStridedSlice S1x1x128 ![3, 0, 0] · slices_S5x1x128_S1x1x128_3_0_0) : (⟨S5x1x128, .f32⟩ : BufTy).Contents (Elt F) → (⟨S1x1x128, .f32⟩ : BufTy).Contents (Elt F)),
    reshape main_v146 main_v147 rfl shapeCasts_S1x1x128_S1x128,
    binary main_v0 main_v147 main_v148 ((fun l r => Host.dotGeneral dot_S262144x1_S1x128_S262144x128_1_0_0_1_n_n none l r) : (⟨S262144x1, .f32⟩ : BufTy).Contents (Elt F) → (⟨S1x128, .f32⟩ : BufTy).Contents (Elt F) → (⟨S262144x128, .f32⟩ : BufTy).Contents (Elt F)),
    binary main_v145 main_v148 main_v149 (addf : (⟨S262144x128, .f32⟩ : BufTy).Contents (Elt F) → (⟨S262144x128, .f32⟩ : BufTy).Contents (Elt F) → (⟨S262144x128, .f32⟩ : BufTy).Contents (Elt F)),
    unary main_arg3 main_v150 ((extractStridedSlice S1x128 ![3, 0] · slices_S5x128_S1x128_3_0) : (⟨S5x128, .f32⟩ : BufTy).Contents (Elt F) → (⟨S1x128, .f32⟩ : BufTy).Contents (Elt F)),
    reshape main_v150 main_v151 rfl shapeCasts_S1x128_S128,
    unary main_v151 main_v152 (broadcastInDim S1x128 ![1] bcast_S128_S1x128_1 : (⟨S128, .f32⟩ : BufTy).Contents (Elt F) → (⟨S1x128, .f32⟩ : BufTy).Contents (Elt F)),
    unary main_v152 main_v153 (broadcastInDim S262144x128 ![0, 1] bcast_S1x128_S262144x128_0_1 : (⟨S1x128, .f32⟩ : BufTy).Contents (Elt F) → (⟨S262144x128, .f32⟩ : BufTy).Contents (Elt F)),
    binary main_v149 main_v153 main_v154 (addf : (⟨S262144x128, .f32⟩ : BufTy).Contents (Elt F) → (⟨S262144x128, .f32⟩ : BufTy).Contents (Elt F) → (⟨S262144x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S262144x128, .f32⟩) main_call9_v0) (broadcastInDim S262144x128 ![] bcast_S_S262144x128),
    TRef.binary (TRef.of (T := ⟨S262144x128, .f32⟩) main_v154) (TRef.of (T := ⟨S262144x128, .f32⟩) main_call9_v0) (TRef.of (T := ⟨S262144x128, .f32⟩) main_v155) maximumf,
    unary main_arg4 main_v156 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v156 main_v157 rfl shapeCasts_S1x128x128_S128x128,
    binary main_v155 main_v157 main_v158 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg5 main_v159 ((extractStridedSlice S1x1x128 ![3, 0, 0] · slices_S5x1x128_S1x1x128_3_0_0) : (⟨S5x1x128, .f32⟩ : BufTy).Contents (Elt F) → (⟨S1x1x128, .f32⟩ : BufTy).Contents (Elt F)),
    reshape main_v159 main_v160 rfl shapeCasts_S1x1x128_S1x128,
    binary main_v0 main_v160 main_v161 ((fun l r => Host.dotGeneral dot_S262144x1_S1x128_S262144x128_1_0_0_1_n_n none l r) : (⟨S262144x1, .f32⟩ : BufTy).Contents (Elt F) → (⟨S1x128, .f32⟩ : BufTy).Contents (Elt F) → (⟨S262144x128, .f32⟩ : BufTy).Contents (Elt F)),
    binary main_v158 main_v161 main_v162 (addf : (⟨S262144x128, .f32⟩ : BufTy).Contents (Elt F) → (⟨S262144x128, .f32⟩ : BufTy).Contents (Elt F) → (⟨S262144x128, .f32⟩ : BufTy).Contents (Elt F)),
    unary main_arg6 main_v163 ((extractStridedSlice S1x128 ![3, 0] · slices_S5x128_S1x128_3_0) : (⟨S5x128, .f32⟩ : BufTy).Contents (Elt F) → (⟨S1x128, .f32⟩ : BufTy).Contents (Elt F)),
    reshape main_v163 main_v164 rfl shapeCasts_S1x128_S128,
    unary main_v164 main_v165 (broadcastInDim S1x128 ![1] bcast_S128_S1x128_1 : (⟨S128, .f32⟩ : BufTy).Contents (Elt F) → (⟨S1x128, .f32⟩ : BufTy).Contents (Elt F)),
    unary main_v165 main_v166 (broadcastInDim S262144x128 ![0, 1] bcast_S1x128_S262144x128_0_1 : (⟨S1x128, .f32⟩ : BufTy).Contents (Elt F) → (⟨S262144x128, .f32⟩ : BufTy).Contents (Elt F)),
    binary main_v162 main_v166 main_v167 (addf : (⟨S262144x128, .f32⟩ : BufTy).Contents (Elt F) → (⟨S262144x128, .f32⟩ : BufTy).Contents (Elt F) → (⟨S262144x128, .f32⟩ : BufTy).Contents (Elt F)) ]

/-- The operations of part 3 of the program, in order. -/
abbrev opsP3 : List (HloOp τ sig (Elt F)) :=
  [ TRef.nullary (TRef.of (T := ⟨S_, .f32⟩) main_call10_cst) (constant S_ .f32 0x00000000#32),
    TRef.unary (TRef.of (T := ⟨S_, .f32⟩) main_call10_cst) (TRef.of (T := ⟨S262144x128, .f32⟩) main_call10_v0) (broadcastInDim S262144x128 ![] bcast_S_S262144x128),
    TRef.binary (TRef.of (T := ⟨S262144x128, .f32⟩) main_v167) (TRef.of (T := ⟨S262144x128, .f32⟩) main_call10_v0) (TRef.of (T := ⟨S262144x128, .f32⟩) main_v168) maximumf,
    unary main_arg7 main_v169 ((extractStridedSlice S1x128x1 ![3, 0, 0] · slices_S5x128x1_S1x128x1_3_0_0) : (⟨S5x128x1, .f32⟩ : BufTy).Contents (Elt F) → (⟨S1x128x1, .f32⟩ : BufTy).Contents (Elt F)),
    reshape main_v169 main_v170 rfl shapeCasts_S1x128x1_S128x1,
    binary main_v168 main_v170 main_v171 ((fun l r => Host.dotGeneral dot_S262144x128_S128x1_S262144x1_1_0_0_1_n_n none l r) : (⟨S262144x128, .f32⟩ : BufTy).Contents (Elt F) → (⟨S128x1, .f32⟩ : BufTy).Contents (Elt F) → (⟨S262144x1, .f32⟩ : BufTy).Contents (Elt F)),
    unary main_arg8 main_v172 ((extractStridedSlice S1x1x1 ![3, 0, 0] · slices_S5x1x1_S1x1x1_3_0_0) : (⟨S5x1x1, .f32⟩ : BufTy).Contents (Elt F) → (⟨S1x1x1, .f32⟩ : BufTy).Contents (Elt F)),
    reshape main_v172 main_v173 rfl shapeCasts_S1x1x1_S1x1,
    binary main_v0 main_v173 main_v174 ((fun l r => Host.dotGeneral dot_S262144x1_S1x1_S262144x1_1_0_0_1_n_n none l r) : (⟨S262144x1, .f32⟩ : BufTy).Contents (Elt F) → (⟨S1x1, .f32⟩ : BufTy).Contents (Elt F) → (⟨S262144x1, .f32⟩ : BufTy).Contents (Elt F)),
    binary main_v171 main_v174 main_v175 (addf : (⟨S262144x1, .f32⟩ : BufTy).Contents (Elt F) → (⟨S262144x1, .f32⟩ : BufTy).Contents (Elt F) → (⟨S262144x1, .f32⟩ : BufTy).Contents (Elt F)),
    unary main_arg9 main_v176 ((extractStridedSlice S1x1 ![3, 0] · slices_S5x1_S1x1_3_0) : (⟨S5x1, .f32⟩ : BufTy).Contents (Elt F) → (⟨S1x1, .f32⟩ : BufTy).Contents (Elt F)),
    reshape main_v176 main_v177 rfl shapeCasts_S1x1_S1,
    unary main_v177 main_v178 (broadcastInDim S1x1 ![1] bcast_S1_S1x1_1 : (⟨S1, .f32⟩ : BufTy).Contents (Elt F) → (⟨S1x1, .f32⟩ : BufTy).Contents (Elt F)),
    unary main_v178 main_v179 (broadcastInDim S262144x1 ![0, 1] bcast_S1x1_S262144x1_0_1 : (⟨S1x1, .f32⟩ : BufTy).Contents (Elt F) → (⟨S262144x1, .f32⟩ : BufTy).Contents (Elt F)),
    binary main_v175 main_v179 main_v180 (addf : (⟨S262144x1, .f32⟩ : BufTy).Contents (Elt F) → (⟨S262144x1, .f32⟩ : BufTy).Contents (Elt F) → (⟨S262144x1, .f32⟩ : BufTy).Contents (Elt F)),
    nullary main_cst_11 (constant S_ .f32 0x00000000#32),
    TRef.unary (TRef.of (T := ⟨S_, .f32⟩) main_cst_11) (TRef.of (T := ⟨S262144x1, .f32⟩) main_call11_v0) (broadcastInDim S262144x1 ![] bcast_S_S262144x1),
    TRef.ternary (TRef.of (T := ⟨S262144x1, .i1⟩) main_v142) (TRef.of (T := ⟨S262144x1, .f32⟩) main_v180) (TRef.of (T := ⟨S262144x1, .f32⟩) main_call11_v0) (TRef.of (T := ⟨S262144x1, .f32⟩) main_v181) select,
    binary main_v137 main_v181 main_v182 (addf : (⟨S262144x1, .f32⟩ : BufTy).Contents (Elt F) → (⟨S262144x1, .f32⟩ : BufTy).Contents (Elt F) → (⟨S262144x1, .f32⟩ : BufTy).Contents (Elt F)),
    nullary main_cst_12 (constant S_ .f32 0x3F4CCCCD#32),
    unary main_cst_12 main_v183 (broadcastInDim S262144x1 ![] bcast_S_S262144x1 : (⟨S_, .f32⟩ : BufTy).Contents (Elt F) → (⟨S262144x1, .f32⟩ : BufTy).Contents (Elt F)),
    binary main_v0 main_v183 main_v184 (cmpf .oge : (⟨S262144x1, .f32⟩ : BufTy).Contents (Elt F) → (⟨S262144x1, .f32⟩ : BufTy).Contents (Elt F) → (⟨S262144x1, .i1⟩ : BufTy).Contents (Elt F)),
    nullary main_cst_13 (constant S_ .f32 0x3F800000#32),
    unary main_cst_13 main_v185 (broadcastInDim S262144x1 ![] bcast_S_S262144x1 : (⟨S_, .f32⟩ : BufTy).Contents (Elt F) → (⟨S262144x1, .f32⟩ : BufTy).Contents (Elt F)),
    binary main_v0 main_v185 main_v186 (cmpf .olt : (⟨S262144x1, .f32⟩ : BufTy).Contents (Elt F) → (⟨S262144x1, .f32⟩ : BufTy).Contents (Elt F) → (⟨S262144x1, .i1⟩ : BufTy).Contents (Elt F)),
    binary main_v184 main_v186 main_v187 (andi : (⟨S262144x1, .i1⟩ : BufTy).Contents (Elt F) → (⟨S262144x1, .i1⟩ : BufTy).Contents (Elt F) → (⟨S262144x1, .i1⟩ : BufTy).Contents (Elt F)),
    unary main_arg1 main_v188 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v188 main_v189 rfl shapeCasts_S1x128x128_S128x128,
    binary main_v1 main_v189 main_v190 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg2 main_v191 ((extractStridedSlice S1x1x128 ![4, 0, 0] · slices_S5x1x128_S1x1x128_4_0_0) : (⟨S5x1x128, .f32⟩ : BufTy).Contents (Elt F) → (⟨S1x1x128, .f32⟩ : BufTy).Contents (Elt F)),
    reshape main_v191 main_v192 rfl shapeCasts_S1x1x128_S1x128,
    binary main_v0 main_v192 main_v193 ((fun l r => Host.dotGeneral dot_S262144x1_S1x128_S262144x128_1_0_0_1_n_n none l r) : (⟨S262144x1, .f32⟩ : BufTy).Contents (Elt F) → (⟨S1x128, .f32⟩ : BufTy).Contents (Elt F) → (⟨S262144x128, .f32⟩ : BufTy).Contents (Elt F)),
    binary main_v190 main_v193 main_v194 (addf : (⟨S262144x128, .f32⟩ : BufTy).Contents (Elt F) → (⟨S262144x128, .f32⟩ : BufTy).Contents (Elt F) → (⟨S262144x128, .f32⟩ : BufTy).Contents (Elt F)),
    unary main_arg3 main_v195 ((extractStridedSlice S1x128 ![4, 0] · slices_S5x128_S1x128_4_0) : (⟨S5x128, .f32⟩ : BufTy).Contents (Elt F) → (⟨S1x128, .f32⟩ : BufTy).Contents (Elt F)),
    reshape main_v195 main_v196 rfl shapeCasts_S1x128_S128,
    unary main_v196 main_v197 (broadcastInDim S1x128 ![1] bcast_S128_S1x128_1 : (⟨S128, .f32⟩ : BufTy).Contents (Elt F) → (⟨S1x128, .f32⟩ : BufTy).Contents (Elt F)),
    unary main_v197 main_v198 (broadcastInDim S262144x128 ![0, 1] bcast_S1x128_S262144x128_0_1 : (⟨S1x128, .f32⟩ : BufTy).Contents (Elt F) → (⟨S262144x128, .f32⟩ : BufTy).Contents (Elt F)),
    binary main_v194 main_v198 main_v199 (addf : (⟨S262144x128, .f32⟩ : BufTy).Contents (Elt F) → (⟨S262144x128, .f32⟩ : BufTy).Contents (Elt F) → (⟨S262144x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S262144x128, .f32⟩) main_call12_v0) (broadcastInDim S262144x128 ![] bcast_S_S262144x128),
    TRef.binary (TRef.of (T := ⟨S262144x128, .f32⟩) main_v199) (TRef.of (T := ⟨S262144x128, .f32⟩) main_call12_v0) (TRef.of (T := ⟨S262144x128, .f32⟩) main_v200) maximumf,
    unary main_arg4 main_v201 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v201 main_v202 rfl shapeCasts_S1x128x128_S128x128,
    binary main_v200 main_v202 main_v203 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg5 main_v204 ((extractStridedSlice S1x1x128 ![4, 0, 0] · slices_S5x1x128_S1x1x128_4_0_0) : (⟨S5x1x128, .f32⟩ : BufTy).Contents (Elt F) → (⟨S1x1x128, .f32⟩ : BufTy).Contents (Elt F)),
    reshape main_v204 main_v205 rfl shapeCasts_S1x1x128_S1x128,
    binary main_v0 main_v205 main_v206 ((fun l r => Host.dotGeneral dot_S262144x1_S1x128_S262144x128_1_0_0_1_n_n none l r) : (⟨S262144x1, .f32⟩ : BufTy).Contents (Elt F) → (⟨S1x128, .f32⟩ : BufTy).Contents (Elt F) → (⟨S262144x128, .f32⟩ : BufTy).Contents (Elt F)),
    binary main_v203 main_v206 main_v207 (addf : (⟨S262144x128, .f32⟩ : BufTy).Contents (Elt F) → (⟨S262144x128, .f32⟩ : BufTy).Contents (Elt F) → (⟨S262144x128, .f32⟩ : BufTy).Contents (Elt F)),
    unary main_arg6 main_v208 ((extractStridedSlice S1x128 ![4, 0] · slices_S5x128_S1x128_4_0) : (⟨S5x128, .f32⟩ : BufTy).Contents (Elt F) → (⟨S1x128, .f32⟩ : BufTy).Contents (Elt F)),
    reshape main_v208 main_v209 rfl shapeCasts_S1x128_S128,
    unary main_v209 main_v210 (broadcastInDim S1x128 ![1] bcast_S128_S1x128_1 : (⟨S128, .f32⟩ : BufTy).Contents (Elt F) → (⟨S1x128, .f32⟩ : BufTy).Contents (Elt F)),
    unary main_v210 main_v211 (broadcastInDim S262144x128 ![0, 1] bcast_S1x128_S262144x128_0_1 : (⟨S1x128, .f32⟩ : BufTy).Contents (Elt F) → (⟨S262144x128, .f32⟩ : BufTy).Contents (Elt F)),
    binary main_v207 main_v211 main_v212 (addf : (⟨S262144x128, .f32⟩ : BufTy).Contents (Elt F) → (⟨S262144x128, .f32⟩ : BufTy).Contents (Elt F) → (⟨S262144x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S262144x128, .f32⟩) main_call13_v0) (broadcastInDim S262144x128 ![] bcast_S_S262144x128),
    TRef.binary (TRef.of (T := ⟨S262144x128, .f32⟩) main_v212) (TRef.of (T := ⟨S262144x128, .f32⟩) main_call13_v0) (TRef.of (T := ⟨S262144x128, .f32⟩) main_v213) maximumf,
    unary main_arg7 main_v214 ((extractStridedSlice S1x128x1 ![4, 0, 0] · slices_S5x128x1_S1x128x1_4_0_0) : (⟨S5x128x1, .f32⟩ : BufTy).Contents (Elt F) → (⟨S1x128x1, .f32⟩ : BufTy).Contents (Elt F)),
    reshape main_v214 main_v215 rfl shapeCasts_S1x128x1_S128x1,
    binary main_v213 main_v215 main_v216 ((fun l r => Host.dotGeneral dot_S262144x128_S128x1_S262144x1_1_0_0_1_n_n none l r) : (⟨S262144x128, .f32⟩ : BufTy).Contents (Elt F) → (⟨S128x1, .f32⟩ : BufTy).Contents (Elt F) → (⟨S262144x1, .f32⟩ : BufTy).Contents (Elt F)),
    unary main_arg8 main_v217 ((extractStridedSlice S1x1x1 ![4, 0, 0] · slices_S5x1x1_S1x1x1_4_0_0) : (⟨S5x1x1, .f32⟩ : BufTy).Contents (Elt F) → (⟨S1x1x1, .f32⟩ : BufTy).Contents (Elt F)),
    reshape main_v217 main_v218 rfl shapeCasts_S1x1x1_S1x1,
    binary main_v0 main_v218 main_v219 ((fun l r => Host.dotGeneral dot_S262144x1_S1x1_S262144x1_1_0_0_1_n_n none l r) : (⟨S262144x1, .f32⟩ : BufTy).Contents (Elt F) → (⟨S1x1, .f32⟩ : BufTy).Contents (Elt F) → (⟨S262144x1, .f32⟩ : BufTy).Contents (Elt F)),
    binary main_v216 main_v219 main_v220 (addf : (⟨S262144x1, .f32⟩ : BufTy).Contents (Elt F) → (⟨S262144x1, .f32⟩ : BufTy).Contents (Elt F) → (⟨S262144x1, .f32⟩ : BufTy).Contents (Elt F)),
    unary main_arg9 main_v221 ((extractStridedSlice S1x1 ![4, 0] · slices_S5x1_S1x1_4_0) : (⟨S5x1, .f32⟩ : BufTy).Contents (Elt F) → (⟨S1x1, .f32⟩ : BufTy).Contents (Elt F)),
    reshape main_v221 main_v222 rfl shapeCasts_S1x1_S1,
    unary main_v222 main_v223 (broadcastInDim S1x1 ![1] bcast_S1_S1x1_1 : (⟨S1, .f32⟩ : BufTy).Contents (Elt F) → (⟨S1x1, .f32⟩ : BufTy).Contents (Elt F)),
    unary main_v223 main_v224 (broadcastInDim S262144x1 ![0, 1] bcast_S1x1_S262144x1_0_1 : (⟨S1x1, .f32⟩ : BufTy).Contents (Elt F) → (⟨S262144x1, .f32⟩ : BufTy).Contents (Elt F)) ]

/-- The operations of part 4 of the program, in order. -/
abbrev opsP4 : List (HloOp τ sig (Elt F)) :=
  [ binary main_v220 main_v224 main_v225 (addf : (⟨S262144x1, .f32⟩ : BufTy).Contents (Elt F) → (⟨S262144x1, .f32⟩ : BufTy).Contents (Elt F) → (⟨S262144x1, .f32⟩ : BufTy).Contents (Elt F)),
    nullary main_cst_14 (constant S_ .f32 0x00000000#32),
    TRef.unary (TRef.of (T := ⟨S_, .f32⟩) main_cst_14) (TRef.of (T := ⟨S262144x1, .f32⟩) main_call14_v0) (broadcastInDim S262144x1 ![] bcast_S_S262144x1),
    TRef.ternary (TRef.of (T := ⟨S262144x1, .i1⟩) main_v187) (TRef.of (T := ⟨S262144x1, .f32⟩) main_v225) (TRef.of (T := ⟨S262144x1, .f32⟩) main_call14_v0) (TRef.of (T := ⟨S262144x1, .f32⟩) main_v226) select,
    binary main_v182 main_v226 main_v227 (addf : (⟨S262144x1, .f32⟩ : BufTy).Contents (Elt F) → (⟨S262144x1, .f32⟩ : BufTy).Contents (Elt F) → (⟨S262144x1, .f32⟩ : BufTy).Contents (Elt F)) ]

/-- The whole program's operations: the five lists one after the other. -/
abbrev opsAll : List (HloOp τ sig (Elt F)) := opsP0 ++ (opsP1 ++ (opsP2 ++ (opsP3 ++ opsP4)))

set_option maxRecDepth 8192 in
set_option maxHeartbeats 4000000 in
/-- Part 0 of the program is the sequence of its operations. -/
theorem main_part0_eq (c : Dev nD) : main_part0 (F := F) c = seq opsP0 := rfl

set_option maxRecDepth 8192 in
set_option maxHeartbeats 4000000 in
/-- Part 1 of the program is the sequence of its operations. -/
theorem main_part1_eq (c : Dev nD) : main_part1 (F := F) c = seq opsP1 := rfl

set_option maxRecDepth 8192 in
set_option maxHeartbeats 4000000 in
/-- Part 2 of the program is the sequence of its operations. -/
theorem main_part2_eq (c : Dev nD) : main_part2 (F := F) c = seq opsP2 := rfl

set_option maxRecDepth 8192 in
set_option maxHeartbeats 4000000 in
/-- Part 3 of the program is the sequence of its operations. -/
theorem main_part3_eq (c : Dev nD) : main_part3 (F := F) c = seq opsP3 := rfl

set_option maxRecDepth 8192 in
set_option maxHeartbeats 4000000 in
/-- Part 4 of the program is the sequence of its operations. -/
theorem main_part4_eq (c : Dev nD) : main_part4 (F := F) c = seq opsP4 := rfl

/-- The program is the sequence of all its operations. -/
theorem main_eq (c : Dev nD) : main (F := F) c = seq opsAll := by
  unfold opsAll
  rw [seq_append, seq_append, seq_append, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsP0_sub : (opsP0 : List (HloOp τ sig (Elt F))).Forall fun op => op.bufs ⊆ tcRefs τ sig :=
  ⟨unary_bufs_sub .., unary_bufs_sub .., nullary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., ternary_bufs_sub .., binary_bufs_sub .., nullary_bufs_sub .., unary_bufs_sub .., binary_bufs_sub .., nullary_bufs_sub .., unary_bufs_sub .., binary_bufs_sub .., binary_bufs_sub .., unary_bufs_sub ..⟩

set_option maxRecDepth 8192 in
theorem opsP0_fresh : ∀ op ∈ (opsP0 : List (HloOp τ sig (Elt F))), op.fresh = ∅ := by
  intro _ h; (repeat (cases h with | head => rfl | tail _ h => ?_)); exact nomatch h

set_option maxRecDepth 8192 in
theorem opsP1_sub : (opsP1 : List (HloOp τ sig (Elt F))).Forall fun op => op.bufs ⊆ tcRefs τ sig :=
  ⟨reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., ternary_bufs_sub .., binary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
theorem opsP1_fresh : ∀ op ∈ (opsP1 : List (HloOp τ sig (Elt F))), op.fresh = ∅ := by
  intro _ h; (repeat (cases h with | head => rfl | tail _ h => ?_)); exact nomatch h

set_option maxRecDepth 8192 in
theorem opsP2_sub : (opsP2 : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., ternary_bufs_sub .., binary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

set_option maxRecDepth 8192 in
theorem opsP2_fresh : ∀ op ∈ (opsP2 : List (HloOp τ sig (Elt F))), op.fresh = ∅ := by
  intro _ h; (repeat (cases h with | head => rfl | tail _ h => ?_)); exact nomatch h

set_option maxRecDepth 8192 in
theorem opsP3_sub : (opsP3 : List (HloOp τ sig (Elt F))).Forall fun op => op.bufs ⊆ tcRefs τ sig :=
  ⟨nullary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., ternary_bufs_sub .., binary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub ..⟩

set_option maxRecDepth 8192 in
theorem opsP3_fresh : ∀ op ∈ (opsP3 : List (HloOp τ sig (Elt F))), op.fresh = ∅ := by
  intro _ h; (repeat (cases h with | head => rfl | tail _ h => ?_)); exact nomatch h

set_option maxRecDepth 8192 in
theorem opsP4_sub : (opsP4 : List (HloOp τ sig (Elt F))).Forall fun op => op.bufs ⊆ tcRefs τ sig :=
  ⟨binary_bufs_sub .., nullary_bufs_sub .., unary_bufs_sub .., ternary_bufs_sub .., binary_bufs_sub ..⟩

set_option maxRecDepth 8192 in
theorem opsP4_fresh : ∀ op ∈ (opsP4 : List (HloOp τ sig (Elt F))), op.fresh = ∅ := by
  intro _ h; (repeat (cases h with | head => rfl | tail _ h => ?_)); exact nomatch h

/-- Every operation touches TensorCore buffers only. -/
theorem opsAll_sub : (opsAll : List (HloOp τ sig (Elt F))).Forall fun op => op.bufs ⊆ tcRefs τ sig := by
  rw [List.forall_iff_forall_mem]
  intro op h
  simp only [opsAll, List.mem_append] at h
  rcases h with h | h | h | h | h
  · exact (List.forall_iff_forall_mem.mp opsP0_sub) op h
  · exact (List.forall_iff_forall_mem.mp opsP1_sub) op h
  · exact (List.forall_iff_forall_mem.mp opsP2_sub) op h
  · exact (List.forall_iff_forall_mem.mp opsP3_sub) op h
  · exact (List.forall_iff_forall_mem.mp opsP4_sub) op h

/-- No operation allocates a buffer. -/
theorem opsAll_fresh : ∀ op ∈ (opsAll : List (HloOp τ sig (Elt F))), op.fresh = ∅ := by
  intro op h
  simp only [opsAll, List.mem_append] at h
  rcases h with h | h | h | h | h
  · exact opsP0_fresh op h
  · exact opsP1_fresh op h
  · exact opsP2_fresh op h
  · exact opsP3_fresh op h
  · exact opsP4_fresh op h

/-- The buffers after two stretches of operations are those after the second, from what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Routed.RefRun

end
-- ==== Proof.RefStage0.lean ====
/-
  Part 0 of the reference program, read back: from buffers that hold the arguments, the part leaves
  each value a later part reads at its stage of the operation-by-operation reading, and the arguments as they were.
-/
import proofs.«175108_j54133767799373_2_alg».proof.Proof.RefOps
import proofs.«175108_j54133767799373_2_alg».proof.Proof.ReadP

noncomputable section

namespace Cert.Routed.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 40000000 in
theorem stage0 (V : Valuation τ sig (Elt F)) (x0 : (⟨S262144x129, .f32⟩ : BufTy).Contents (Elt F)) (x1 : (⟨S5x128x128, .f32⟩ : BufTy).Contents (Elt F)) (x2 : (⟨S5x1x128, .f32⟩ : BufTy).Contents (Elt F)) (x3 : (⟨S5x128, .f32⟩ : BufTy).Contents (Elt F)) (x4 : (⟨S5x128x128, .f32⟩ : BufTy).Contents (Elt F)) (x5 : (⟨S5x1x128, .f32⟩ : BufTy).Contents (Elt F)) (x6 : (⟨S5x128, .f32⟩ : BufTy).Contents (Elt F)) (x7 : (⟨S5x128x1, .f32⟩ : BufTy).Contents (Elt F)) (x8 : (⟨S5x1x1, .f32⟩ : BufTy).Contents (Elt F)) (x9 : (⟨S5x1, .f32⟩ : BufTy).Contents (Elt F))
    (ha0 : V (Proc.devRef (τ := τ) .tc main_arg0) = x0)
    (ha1 : V (Proc.devRef (τ := τ) .tc main_arg1) = x1)
    (ha2 : V (Proc.devRef (τ := τ) .tc main_arg2) = x2)
    (ha3 : V (Proc.devRef (τ := τ) .tc main_arg3) = x3)
    (ha4 : V (Proc.devRef (τ := τ) .tc main_arg4) = x4)
    (ha5 : V (Proc.devRef (τ := τ) .tc main_arg5) = x5)
    (ha6 : V (Proc.devRef (τ := τ) .tc main_arg6) = x6)
    (ha7 : V (Proc.devRef (τ := τ) .tc main_arg7) = x7)
    (ha8 : V (Proc.devRef (τ := τ) .tc main_arg8) = x8)
    (ha9 : V (Proc.devRef (τ := τ) .tc main_arg9) = x9) :
    after (opsP0 (F := F)) V (Proc.devRef (τ := τ) .tc main_v0) = val_main_v0 (F := F) x0
    ∧ after (opsP0 (F := F)) V (Proc.devRef (τ := τ) .tc main_v1) = val_main_v1 (F := F) x0
    ∧ after (opsP0 (F := F)) V (Proc.devRef (τ := τ) .tc main_v47) = val_main_v47 (F := F) x0 x1 x2 x3 x4 x5 x6 x7 x8 x9
    ∧ after (opsP0 (F := F)) V (Proc.devRef (τ := τ) .tc main_v52) = val_main_v52 (F := F) x0
    ∧ after (opsP0 (F := F)) V (Proc.devRef (τ := τ) .tc main_v53) = val_main_v53 (F := F) x1
    ∧ after (opsP0 (F := F)) V (Proc.devRef (τ := τ) .tc main_arg0) = x0
    ∧ after (opsP0 (F := F)) V (Proc.devRef (τ := τ) .tc main_arg1) = x1
    ∧ after (opsP0 (F := F)) V (Proc.devRef (τ := τ) .tc main_arg2) = x2
    ∧ after (opsP0 (F := F)) V (Proc.devRef (τ := τ) .tc main_arg3) = x3
    ∧ after (opsP0 (F := F)) V (Proc.devRef (τ := τ) .tc main_arg4) = x4
    ∧ after (opsP0 (F := F)) V (Proc.devRef (τ := τ) .tc main_arg5) = x5
    ∧ after (opsP0 (F := F)) V (Proc.devRef (τ := τ) .tc main_arg6) = x6
    ∧ after (opsP0 (F := F)) V (Proc.devRef (τ := τ) .tc main_arg7) = x7
    ∧ after (opsP0 (F := F)) V (Proc.devRef (τ := τ) .tc main_arg8) = x8
    ∧ after (opsP0 (F := F)) V (Proc.devRef (τ := τ) .tc main_arg9) = x9 := by
  refine ⟨?_, ?_, ?_, ?_, ?_, ?_, ?_, ?_, ?_, ?_, ?_, ?_, ?_, ?_, ?_⟩ <;>
    (after_results_simp; simp only [ha0, ha1, ha2, ha3, ha4, ha5, ha6, ha7, ha8, ha9]; try rfl)

end Cert.Routed.RefRun

end
-- ==== Proof.RefStage1.lean ====
/-
  Part 1 of the reference program, read back: from buffers that hold the arguments and the values the earlier parts left, the part leaves
  each value a later part reads at its stage of the operation-by-operation reading, and the arguments as they were.
-/
import proofs.«175108_j54133767799373_2_alg».proof.Proof.RefOps
import proofs.«175108_j54133767799373_2_alg».proof.Proof.ReadP

noncomputable section

namespace Cert.Routed.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 40000000 in
theorem stage1 (V : Valuation τ sig (Elt F)) (x0 : (⟨S262144x129, .f32⟩ : BufTy).Contents (Elt F)) (x1 : (⟨S5x128x128, .f32⟩ : BufTy).Contents (Elt F)) (x2 : (⟨S5x1x128, .f32⟩ : BufTy).Contents (Elt F)) (x3 : (⟨S5x128, .f32⟩ : BufTy).Contents (Elt F)) (x4 : (⟨S5x128x128, .f32⟩ : BufTy).Contents (Elt F)) (x5 : (⟨S5x1x128, .f32⟩ : BufTy).Contents (Elt F)) (x6 : (⟨S5x128, .f32⟩ : BufTy).Contents (Elt F)) (x7 : (⟨S5x128x1, .f32⟩ : BufTy).Contents (Elt F)) (x8 : (⟨S5x1x1, .f32⟩ : BufTy).Contents (Elt F)) (x9 : (⟨S5x1, .f32⟩ : BufTy).Contents (Elt F))
    (ha0 : V (Proc.devRef (τ := τ) .tc main_arg0) = x0)
    (ha1 : V (Proc.devRef (τ := τ) .tc main_arg1) = x1)
    (ha2 : V (Proc.devRef (τ := τ) .tc main_arg2) = x2)
    (ha3 : V (Proc.devRef (τ := τ) .tc main_arg3) = x3)
    (ha4 : V (Proc.devRef (τ := τ) .tc main_arg4) = x4)
    (ha5 : V (Proc.devRef (τ := τ) .tc main_arg5) = x5)
    (ha6 : V (Proc.devRef (τ := τ) .tc main_arg6) = x6)
    (ha7 : V (Proc.devRef (τ := τ) .tc main_arg7) = x7)
    (ha8 : V (Proc.devRef (τ := τ) .tc main_arg8) = x8)
    (ha9 : V (Proc.devRef (τ := τ) .tc main_arg9) = x9)
    (hin_v0 : V (Proc.devRef (τ := τ) .tc main_v0) = val_main_v0 (F := F) x0)
    (hin_v1 : V (Proc.devRef (τ := τ) .tc main_v1) = val_main_v1 (F := F) x0)
    (hin_v47 : V (Proc.devRef (τ := τ) .tc main_v47) = val_main_v47 (F := F) x0 x1 x2 x3 x4 x5 x6 x7 x8 x9)
    (hin_v52 : V (Proc.devRef (τ := τ) .tc main_v52) = val_main_v52 (F := F) x0)
    (hin_v53 : V (Proc.devRef (τ := τ) .tc main_v53) = val_main_v53 (F := F) x1) :
    after (opsP1 (F := F)) V (Proc.devRef (τ := τ) .tc main_v0) = val_main_v0 (F := F) x0
    ∧ after (opsP1 (F := F)) V (Proc.devRef (τ := τ) .tc main_v1) = val_main_v1 (F := F) x0
    ∧ after (opsP1 (F := F)) V (Proc.devRef (τ := τ) .tc main_v92) = val_main_v92 (F := F) x0 x1 x2 x3 x4 x5 x6 x7 x8 x9
    ∧ after (opsP1 (F := F)) V (Proc.devRef (τ := τ) .tc main_v97) = val_main_v97 (F := F) x0
    ∧ after (opsP1 (F := F)) V (Proc.devRef (τ := τ) .tc main_v110) = val_main_v110 (F := F) x0 x1 x2 x3
    ∧ after (opsP1 (F := F)) V (Proc.devRef (τ := τ) .tc main_arg0) = x0
    ∧ after (opsP1 (F := F)) V (Proc.devRef (τ := τ) .tc main_arg1) = x1
    ∧ after (opsP1 (F := F)) V (Proc.devRef (τ := τ) .tc main_arg2) = x2
    ∧ after (opsP1 (F := F)) V (Proc.devRef (τ := τ) .tc main_arg3) = x3
    ∧ after (opsP1 (F := F)) V (Proc.devRef (τ := τ) .tc main_arg4) = x4
    ∧ after (opsP1 (F := F)) V (Proc.devRef (τ := τ) .tc main_arg5) = x5
    ∧ after (opsP1 (F := F)) V (Proc.devRef (τ := τ) .tc main_arg6) = x6
    ∧ after (opsP1 (F := F)) V (Proc.devRef (τ := τ) .tc main_arg7) = x7
    ∧ after (opsP1 (F := F)) V (Proc.devRef (τ := τ) .tc main_arg8) = x8
    ∧ after (opsP1 (F := F)) V (Proc.devRef (τ := τ) .tc main_arg9) = x9 := by
  refine ⟨?_, ?_, ?_, ?_, ?_, ?_, ?_, ?_, ?_, ?_, ?_, ?_, ?_, ?_, ?_⟩ <;>
    (after_results_simp; simp only [ha0, ha1, ha2, ha3, ha4, ha5, ha6, ha7, ha8, ha9, hin_v0, hin_v1, hin_v47, hin_v52, hin_v53]; try rfl)

end Cert.Routed.RefRun

end
-- ==== Proof.RefStage2.lean ====
/-
  Part 2 of the reference program, read back: from buffers that hold the arguments and the values the earlier parts left, the part leaves
  each value a later part reads at its stage of the operation-by-operation reading, and the arguments as they were.
-/
import proofs.«175108_j54133767799373_2_alg».proof.Proof.RefOps
import proofs.«175108_j54133767799373_2_alg».proof.Proof.ReadP

noncomputable section

namespace Cert.Routed.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 40000000 in
theorem stage2 (V : Valuation τ sig (Elt F)) (x0 : (⟨S262144x129, .f32⟩ : BufTy).Contents (Elt F)) (x1 : (⟨S5x128x128, .f32⟩ : BufTy).Contents (Elt F)) (x2 : (⟨S5x1x128, .f32⟩ : BufTy).Contents (Elt F)) (x3 : (⟨S5x128, .f32⟩ : BufTy).Contents (Elt F)) (x4 : (⟨S5x128x128, .f32⟩ : BufTy).Contents (Elt F)) (x5 : (⟨S5x1x128, .f32⟩ : BufTy).Contents (Elt F)) (x6 : (⟨S5x128, .f32⟩ : BufTy).Contents (Elt F)) (x7 : (⟨S5x128x1, .f32⟩ : BufTy).Contents (Elt F)) (x8 : (⟨S5x1x1, .f32⟩ : BufTy).Contents (Elt F)) (x9 : (⟨S5x1, .f32⟩ : BufTy).Contents (Elt F))
    (ha0 : V (Proc.devRef (τ := τ) .tc main_arg0) = x0)
    (ha1 : V (Proc.devRef (τ := τ) .tc main_arg1) = x1)
    (ha2 : V (Proc.devRef (τ := τ) .tc main_arg2) = x2)
    (ha3 : V (Proc.devRef (τ := τ) .tc main_arg3) = x3)
    (ha4 : V (Proc.devRef (τ := τ) .tc main_arg4) = x4)
    (ha5 : V (Proc.devRef (τ := τ) .tc main_arg5) = x5)
    (ha6 : V (Proc.devRef (τ := τ) .tc main_arg6) = x6)
    (ha7 : V (Proc.devRef (τ := τ) .tc main_arg7) = x7)
    (ha8 : V (Proc.devRef (τ := τ) .tc main_arg8) = x8)
    (ha9 : V (Proc.devRef (τ := τ) .tc main_arg9) = x9)
    (hin_v0 : V (Proc.devRef (τ := τ) .tc main_v0) = val_main_v0 (F := F) x0)
    (hin_v1 : V (Proc.devRef (τ := τ) .tc main_v1) = val_main_v1 (F := F) x0)
    (hin_v92 : V (Proc.devRef (τ := τ) .tc main_v92) = val_main_v92 (F := F) x0 x1 x2 x3 x4 x5 x6 x7 x8 x9)
    (hin_v97 : V (Proc.devRef (τ := τ) .tc main_v97) = val_main_v97 (F := F) x0)
    (hin_v110 : V (Proc.devRef (τ := τ) .tc main_v110) = val_main_v110 (F := F) x0 x1 x2 x3) :
    after (opsP2 (F := F)) V (Proc.devRef (τ := τ) .tc main_v0) = val_main_v0 (F := F) x0
    ∧ after (opsP2 (F := F)) V (Proc.devRef (τ := τ) .tc main_v1) = val_main_v1 (F := F) x0
    ∧ after (opsP2 (F := F)) V (Proc.devRef (τ := τ) .tc main_v137) = val_main_v137 (F := F) x0 x1 x2 x3 x4 x5 x6 x7 x8 x9
    ∧ after (opsP2 (F := F)) V (Proc.devRef (τ := τ) .tc main_v142) = val_main_v142 (F := F) x0
    ∧ after (opsP2 (F := F)) V (Proc.devRef (τ := τ) .tc main_v167) = val_main_v167 (F := F) x0 x1 x2 x3 x4 x5 x6
    ∧ after (opsP2 (F := F)) V (Proc.devRef (τ := τ) .tc main_arg0) = x0
    ∧ after (opsP2 (F := F)) V (Proc.devRef (τ := τ) .tc main_arg1) = x1
    ∧ after (opsP2 (F := F)) V (Proc.devRef (τ := τ) .tc main_arg2) = x2
    ∧ after (opsP2 (F := F)) V (Proc.devRef (τ := τ) .tc main_arg3) = x3
    ∧ after (opsP2 (F := F)) V (Proc.devRef (τ := τ) .tc main_arg4) = x4
    ∧ after (opsP2 (F := F)) V (Proc.devRef (τ := τ) .tc main_arg5) = x5
    ∧ after (opsP2 (F := F)) V (Proc.devRef (τ := τ) .tc main_arg6) = x6
    ∧ after (opsP2 (F := F)) V (Proc.devRef (τ := τ) .tc main_arg7) = x7
    ∧ after (opsP2 (F := F)) V (Proc.devRef (τ := τ) .tc main_arg8) = x8
    ∧ after (opsP2 (F := F)) V (Proc.devRef (τ := τ) .tc main_arg9) = x9 := by
  refine ⟨?_, ?_, ?_, ?_, ?_, ?_, ?_, ?_, ?_, ?_, ?_, ?_, ?_, ?_, ?_⟩ <;>
    (after_results_simp; simp only [ha0, ha1, ha2, ha3, ha4, ha5, ha6, ha7, ha8, ha9, hin_v0, hin_v1, hin_v92, hin_v97, hin_v110]; try rfl)

end Cert.Routed.RefRun

end
-- ==== Proof.RefStage3.lean ====
/-
  Part 3 of the reference program, read back: from buffers that hold the arguments and the values the earlier parts left, the part leaves
  each value a later part reads at its stage of the operation-by-operation reading, and the arguments as they were.
-/
import proofs.«175108_j54133767799373_2_alg».proof.Proof.RefOps
import proofs.«175108_j54133767799373_2_alg».proof.Proof.ReadP

noncomputable section

namespace Cert.Routed.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 40000000 in
theorem stage3 (V : Valuation τ sig (Elt F)) (x0 : (⟨S262144x129, .f32⟩ : BufTy).Contents (Elt F)) (x1 : (⟨S5x128x128, .f32⟩ : BufTy).Contents (Elt F)) (x2 : (⟨S5x1x128, .f32⟩ : BufTy).Contents (Elt F)) (x3 : (⟨S5x128, .f32⟩ : BufTy).Contents (Elt F)) (x4 : (⟨S5x128x128, .f32⟩ : BufTy).Contents (Elt F)) (x5 : (⟨S5x1x128, .f32⟩ : BufTy).Contents (Elt F)) (x6 : (⟨S5x128, .f32⟩ : BufTy).Contents (Elt F)) (x7 : (⟨S5x128x1, .f32⟩ : BufTy).Contents (Elt F)) (x8 : (⟨S5x1x1, .f32⟩ : BufTy).Contents (Elt F)) (x9 : (⟨S5x1, .f32⟩ : BufTy).Contents (Elt F))
    (ha0 : V (Proc.devRef (τ := τ) .tc main_arg0) = x0)
    (ha1 : V (Proc.devRef (τ := τ) .tc main_arg1) = x1)
    (ha2 : V (Proc.devRef (τ := τ) .tc main_arg2) = x2)
    (ha3 : V (Proc.devRef (τ := τ) .tc main_arg3) = x3)
    (ha4 : V (Proc.devRef (τ := τ) .tc main_arg4) = x4)
    (ha5 : V (Proc.devRef (τ := τ) .tc main_arg5) = x5)
    (ha6 : V (Proc.devRef (τ := τ) .tc main_arg6) = x6)
    (ha7 : V (Proc.devRef (τ := τ) .tc main_arg7) = x7)
    (ha8 : V (Proc.devRef (τ := τ) .tc main_arg8) = x8)
    (ha9 : V (Proc.devRef (τ := τ) .tc main_arg9) = x9)
    (hin_v0 : V (Proc.devRef (τ := τ) .tc main_v0) = val_main_v0 (F := F) x0)
    (hin_v1 : V (Proc.devRef (τ := τ) .tc main_v1) = val_main_v1 (F := F) x0)
    (hin_v137 : V (Proc.devRef (τ := τ) .tc main_v137) = val_main_v137 (F := F) x0 x1 x2 x3 x4 x5 x6 x7 x8 x9)
    (hin_v142 : V (Proc.devRef (τ := τ) .tc main_v142) = val_main_v142 (F := F) x0)
    (hin_v167 : V (Proc.devRef (τ := τ) .tc main_v167) = val_main_v167 (F := F) x0 x1 x2 x3 x4 x5 x6) :
    after (opsP3 (F := F)) V (Proc.devRef (τ := τ) .tc main_v182) = val_main_v182 (F := F) x0 x1 x2 x3 x4 x5 x6 x7 x8 x9
    ∧ after (opsP3 (F := F)) V (Proc.devRef (τ := τ) .tc main_v187) = val_main_v187 (F := F) x0
    ∧ after (opsP3 (F := F)) V (Proc.devRef (τ := τ) .tc main_v220) = val_main_v220 (F := F) x0 x1 x2 x3 x4 x5 x6 x7 x8
    ∧ after (opsP3 (F := F)) V (Proc.devRef (τ := τ) .tc main_v224) = val_main_v224 (F := F) x9
    ∧ after (opsP3 (F := F)) V (Proc.devRef (τ := τ) .tc main_arg0) = x0
    ∧ after (opsP3 (F := F)) V (Proc.devRef (τ := τ) .tc main_arg1) = x1
    ∧ after (opsP3 (F := F)) V (Proc.devRef (τ := τ) .tc main_arg2) = x2
    ∧ after (opsP3 (F := F)) V (Proc.devRef (τ := τ) .tc main_arg3) = x3
    ∧ after (opsP3 (F := F)) V (Proc.devRef (τ := τ) .tc main_arg4) = x4
    ∧ after (opsP3 (F := F)) V (Proc.devRef (τ := τ) .tc main_arg5) = x5
    ∧ after (opsP3 (F := F)) V (Proc.devRef (τ := τ) .tc main_arg6) = x6
    ∧ after (opsP3 (F := F)) V (Proc.devRef (τ := τ) .tc main_arg7) = x7
    ∧ after (opsP3 (F := F)) V (Proc.devRef (τ := τ) .tc main_arg8) = x8
    ∧ after (opsP3 (F := F)) V (Proc.devRef (τ := τ) .tc main_arg9) = x9 := by
  refine ⟨?_, ?_, ?_, ?_, ?_, ?_, ?_, ?_, ?_, ?_, ?_, ?_, ?_, ?_⟩ <;>
    (after_results_simp; simp only [ha0, ha1, ha2, ha3, ha4, ha5, ha6, ha7, ha8, ha9, hin_v0, hin_v1, hin_v137, hin_v142, hin_v167]; try rfl)

end Cert.Routed.RefRun

end
-- ==== Proof.RefStage4.lean ====
/-
  Part 4 of the reference program, read back: from buffers that hold the arguments and the values the earlier parts left, the part leaves
  the result at the last stage of the operation-by-operation reading, and the arguments as they were.
-/
import proofs.«175108_j54133767799373_2_alg».proof.Proof.RefOps
import proofs.«175108_j54133767799373_2_alg».proof.Proof.ReadP

noncomputable section

namespace Cert.Routed.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 40000000 in
theorem stage4 (V : Valuation τ sig (Elt F)) (x0 : (⟨S262144x129, .f32⟩ : BufTy).Contents (Elt F)) (x1 : (⟨S5x128x128, .f32⟩ : BufTy).Contents (Elt F)) (x2 : (⟨S5x1x128, .f32⟩ : BufTy).Contents (Elt F)) (x3 : (⟨S5x128, .f32⟩ : BufTy).Contents (Elt F)) (x4 : (⟨S5x128x128, .f32⟩ : BufTy).Contents (Elt F)) (x5 : (⟨S5x1x128, .f32⟩ : BufTy).Contents (Elt F)) (x6 : (⟨S5x128, .f32⟩ : BufTy).Contents (Elt F)) (x7 : (⟨S5x128x1, .f32⟩ : BufTy).Contents (Elt F)) (x8 : (⟨S5x1x1, .f32⟩ : BufTy).Contents (Elt F)) (x9 : (⟨S5x1, .f32⟩ : BufTy).Contents (Elt F))
    (ha0 : V (Proc.devRef (τ := τ) .tc main_arg0) = x0)
    (ha1 : V (Proc.devRef (τ := τ) .tc main_arg1) = x1)
    (ha2 : V (Proc.devRef (τ := τ) .tc main_arg2) = x2)
    (ha3 : V (Proc.devRef (τ := τ) .tc main_arg3) = x3)
    (ha4 : V (Proc.devRef (τ := τ) .tc main_arg4) = x4)
    (ha5 : V (Proc.devRef (τ := τ) .tc main_arg5) = x5)
    (ha6 : V (Proc.devRef (τ := τ) .tc main_arg6) = x6)
    (ha7 : V (Proc.devRef (τ := τ) .tc main_arg7) = x7)
    (ha8 : V (Proc.devRef (τ := τ) .tc main_arg8) = x8)
    (ha9 : V (Proc.devRef (τ := τ) .tc main_arg9) = x9)
    (hin_v182 : V (Proc.devRef (τ := τ) .tc main_v182) = val_main_v182 (F := F) x0 x1 x2 x3 x4 x5 x6 x7 x8 x9)
    (hin_v187 : V (Proc.devRef (τ := τ) .tc main_v187) = val_main_v187 (F := F) x0)
    (hin_v220 : V (Proc.devRef (τ := τ) .tc main_v220) = val_main_v220 (F := F) x0 x1 x2 x3 x4 x5 x6 x7 x8)
    (hin_v224 : V (Proc.devRef (τ := τ) .tc main_v224) = val_main_v224 (F := F) x9) :
    after (opsP4 (F := F)) V (Proc.devRef (τ := τ) .tc main_v227) = val_main_v227 (F := F) x0 x1 x2 x3 x4 x5 x6 x7 x8 x9
    ∧ after (opsP4 (F := F)) V (Proc.devRef (τ := τ) .tc main_arg0) = x0
    ∧ after (opsP4 (F := F)) V (Proc.devRef (τ := τ) .tc main_arg1) = x1
    ∧ after (opsP4 (F := F)) V (Proc.devRef (τ := τ) .tc main_arg2) = x2
    ∧ after (opsP4 (F := F)) V (Proc.devRef (τ := τ) .tc main_arg3) = x3
    ∧ after (opsP4 (F := F)) V (Proc.devRef (τ := τ) .tc main_arg4) = x4
    ∧ after (opsP4 (F := F)) V (Proc.devRef (τ := τ) .tc main_arg5) = x5
    ∧ after (opsP4 (F := F)) V (Proc.devRef (τ := τ) .tc main_arg6) = x6
    ∧ after (opsP4 (F := F)) V (Proc.devRef (τ := τ) .tc main_arg7) = x7
    ∧ after (opsP4 (F := F)) V (Proc.devRef (τ := τ) .tc main_arg8) = x8
    ∧ after (opsP4 (F := F)) V (Proc.devRef (τ := τ) .tc main_arg9) = x9 := by
  refine ⟨?_, ?_, ?_, ?_, ?_, ?_, ?_, ?_, ?_, ?_, ?_⟩ <;>
    (after_results_simp; simp only [ha0, ha1, ha2, ha3, ha4, ha5, ha6, ha7, ha8, ha9, hin_v182, hin_v187, hin_v220, hin_v224]; try rfl)

end Cert.Routed.RefRun

end
-- ==== Proof.RefRun.lean ====
/-
  The reference program's run. The program is the sequence of its operations, so every weakly fair execution ends, and
  each buffer ends at the fold of the operations over its launch contents. Folding the five parts one after the other —
  each part from what the parts before it left — the result buffer ends at the last stage of the operation-by-operation
  reading, applied to the arguments, and the arguments end as they were.
-/
import proofs.«175108_j54133767799373_2_alg».proof.Proof.RefStage0
import proofs.«175108_j54133767799373_2_alg».proof.Proof.RefStage1
import proofs.«175108_j54133767799373_2_alg».proof.Proof.RefStage2
import proofs.«175108_j54133767799373_2_alg».proof.Proof.RefStage3
import proofs.«175108_j54133767799373_2_alg».proof.Proof.RefStage4

noncomputable section

namespace Cert.Routed.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- After all the operations, from the launch contents: the result and the arguments. -/
theorem posts (m : (ℓ : Loc nD τ sig) → Buf (Elt F) ℓ) (c : Dev nD) :
    after (opsAll (F := F)) (launchContents m c) (Proc.devRef (τ := τ) .tc main_v227) = val_main_v227 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ after (opsAll (F := F)) (launchContents m c) (Proc.devRef (τ := τ) .tc main_arg0) = m ((c.tc : Thread nD τ).loc main_arg0)
    ∧ after (opsAll (F := F)) (launchContents m c) (Proc.devRef (τ := τ) .tc main_arg1) = m ((c.tc : Thread nD τ).loc main_arg1)
    ∧ after (opsAll (F := F)) (launchContents m c) (Proc.devRef (τ := τ) .tc main_arg2) = m ((c.tc : Thread nD τ).loc main_arg2)
    ∧ after (opsAll (F := F)) (launchContents m c) (Proc.devRef (τ := τ) .tc main_arg3) = m ((c.tc : Thread nD τ).loc main_arg3)
    ∧ after (opsAll (F := F)) (launchContents m c) (Proc.devRef (τ := τ) .tc main_arg4) = m ((c.tc : Thread nD τ).loc main_arg4)
    ∧ after (opsAll (F := F)) (launchContents m c) (Proc.devRef (τ := τ) .tc main_arg5) = m ((c.tc : Thread nD τ).loc main_arg5)
    ∧ after (opsAll (F := F)) (launchContents m c) (Proc.devRef (τ := τ) .tc main_arg6) = m ((c.tc : Thread nD τ).loc main_arg6)
    ∧ after (opsAll (F := F)) (launchContents m c) (Proc.devRef (τ := τ) .tc main_arg7) = m ((c.tc : Thread nD τ).loc main_arg7)
    ∧ after (opsAll (F := F)) (launchContents m c) (Proc.devRef (τ := τ) .tc main_arg8) = m ((c.tc : Thread nD τ).loc main_arg8)
    ∧ after (opsAll (F := F)) (launchContents m c) (Proc.devRef (τ := τ) .tc main_arg9) = m ((c.tc : Thread nD τ).loc main_arg9) := by
  unfold opsAll
  rw [after_append, after_append, after_append, after_append]
  obtain ⟨o0_v0, o0_v1, o0_v47, o0_v52, o0_v53, a0_0, a0_1, a0_2, a0_3, a0_4, a0_5, a0_6, a0_7, a0_8, a0_9⟩ := stage0 (F := F) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) rfl rfl rfl rfl rfl rfl rfl rfl rfl rfl
  obtain ⟨o1_v0, o1_v1, o1_v92, o1_v97, o1_v110, a1_0, a1_1, a1_2, a1_3, a1_4, a1_5, a1_6, a1_7, a1_8, a1_9⟩ := stage1 (F := F) (after (opsP0 (F := F)) (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) a0_0 a0_1 a0_2 a0_3 a0_4 a0_5 a0_6 a0_7 a0_8 a0_9 o0_v0 o0_v1 o0_v47 o0_v52 o0_v53
  obtain ⟨o2_v0, o2_v1, o2_v137, o2_v142, o2_v167, a2_0, a2_1, a2_2, a2_3, a2_4, a2_5, a2_6, a2_7, a2_8, a2_9⟩ := stage2 (F := F) (after (opsP1 (F := F)) (after (opsP0 (F := F)) (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) a1_0 a1_1 a1_2 a1_3 a1_4 a1_5 a1_6 a1_7 a1_8 a1_9 o1_v0 o1_v1 o1_v92 o1_v97 o1_v110
  obtain ⟨o3_v182, o3_v187, o3_v220, o3_v224, a3_0, a3_1, a3_2, a3_3, a3_4, a3_5, a3_6, a3_7, a3_8, a3_9⟩ := stage3 (F := F) (after (opsP2 (F := F)) (after (opsP1 (F := F)) (after (opsP0 (F := F)) (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) a2_0 a2_1 a2_2 a2_3 a2_4 a2_5 a2_6 a2_7 a2_8 a2_9 o2_v0 o2_v1 o2_v137 o2_v142 o2_v167
  obtain ⟨o4_v227, a4_0, a4_1, a4_2, a4_3, a4_4, a4_5, a4_6, a4_7, a4_8, a4_9⟩ := stage4 (F := F) (after (opsP3 (F := F)) (after (opsP2 (F := F)) (after (opsP1 (F := F)) (after (opsP0 (F := F)) (launchContents m c))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) a3_0 a3_1 a3_2 a3_3 a3_4 a3_5 a3_6 a3_7 a3_8 a3_9 o3_v182 o3_v187 o3_v220 o3_v224
  exact ⟨o4_v227, a4_0, a4_1, a4_2, a4_3, a4_4, a4_5, a4_6, a4_7, a4_8, a4_9⟩

/-- On every device, from any memory with zero counters: every weakly fair execution of the program terminates with the
    result buffer at the reading's last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v227) = val_main_v227 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨p, q0, q1, q2, q3, q4, q5, q6, q7, q8, q9⟩ := posts (F := F) m c
      exact ⟨(h c main_v227).trans p, (h c main_arg0).trans q0, (h c main_arg1).trans q1, (h c main_arg2).trans q2, (h c main_arg3).trans q3, (h c main_arg4).trans q4, (h c main_arg5).trans q5, (h c main_arg6).trans q6, (h c main_arg7).trans q7, (h c main_arg8).trans q8, (h c main_arg9).trans q9⟩)
    (run_seq scopedRefs_eq scopedSems_eq defs main (fun _ => opsAll) main_eq (fun _ => opsAll_sub) m ρ (fun _ => opsAll_fresh))

end Cert.Routed.RefRun

end
-- ==== Proof.Spec.lean ====
/-
  Five routed experts, row by row.

  A row of the input is a treatment value t (column 0) followed by 128 features f. Each of five experts e is a
  three-layer perceptron whose every layer adds a treatment term: with weights W, treatment weights tw and bias b a
  layer sends a vector h to (Σ_k h_k · W_{k j}) + t · tw_j + b_j; the first two layers are followed by max(·, 0), the
  last one has a single output. Expert e answers only for rows whose treatment lies in its interval [lo_e, hi_e); the
  row's result is the sum over the experts, in order, of the expert's output where its interval holds and 0 elsewhere,
  starting from 0.

  Everything is over the extended reals, and a float literal stays the word it is printed as: the same words stand on
  both sides of the comparison and are never evaluated.
-/
import Idealize.ShloMosaic.PureOps.Ideal
import Idealize.ShloMosaic.Lib.ValueIdx

noncomputable section

namespace Cert.Routed

open Idealize.ShloMosaic Idealize.ShloMosaic.ValueIdx

/-- The literal 0.0. -/
abbrev zero : EReal := Ideal.ofBits .f32 0x00000000#32

/-- One output of a layer: the inner product of the incoming vector with a weight column, plus the treatment term,
    plus the bias, added in that order. -/
def lin {K : ℕ} (h w : Fin K → EReal) (t tw b : EReal) : EReal := (∑ k : Fin K, h k * w k) + t * tw + b

/-- The routing test lo ≤ t < hi on float words, as the one-bit conjunction of the two comparisons. -/
def gate (lo hi : BitVec 32) (t : EReal) : BitVec 1 :=
  IntOp.andi (FloatOps.cmpf (F := Ideal) (φ := .f32) .oge t (Ideal.ofBits .f32 lo))
    (FloatOps.cmpf (F := Ideal) (φ := .f32) .olt t (Ideal.ofBits .f32 hi))

/-- An expert's contribution: its output where the treatment is in its interval, 0.0 elsewhere. -/
def route (lo hi : BitVec 32) (t o : EReal) : EReal := Scalar.select (gate lo hi t) o zero

section row

variable (t : EReal) (f : Fin 128 → EReal)
  (w1 : Fin 5 → Fin 128 → Fin 128 → EReal) (t1 b1 : Fin 5 → Fin 128 → EReal)
  (w2 : Fin 5 → Fin 128 → Fin 128 → EReal) (t2 b2 : Fin 5 → Fin 128 → EReal)
  (w3 : Fin 5 → Fin 128 → EReal) (t3 b3 : Fin 5 → EReal)

/-- Expert e's first hidden vector. -/
def hid1 (e : Fin 5) (j : Fin 128) : EReal := max (lin f (fun k => w1 e k j) t (t1 e j) (b1 e j)) zero

/-- Expert e's second hidden vector. -/
def hid2 (e : Fin 5) (j : Fin 128) : EReal :=
  max (lin (hid1 t f w1 t1 b1 e) (fun k => w2 e k j) t (t2 e j) (b2 e j)) zero

/-- Expert e's output. -/
def outE (e : Fin 5) : EReal := lin (hid2 t f w1 t1 b1 w2 t2 b2 e) (fun k => w3 e k) t (t3 e) (b3 e)

/-- Expert e's routed contribution. -/
def contrib (lo hi : BitVec 32) (e : Fin 5) : EReal := route lo hi t (outE t f w1 t1 b1 w2 t2 b2 w3 t3 b3 e)

/-- The row's result: the five contributions added to 0.0 one after the other. The interval ends are the float
    words of 0, 0.2, 0.4, 0.6, 0.8 and 1. -/
def rowOut : EReal :=
  ((((zero + contrib t f w1 t1 b1 w2 t2 b2 w3 t3 b3 0x00000000#32 0x3E4CCCCD#32 0)
      + contrib t f w1 t1 b1 w2 t2 b2 w3 t3 b3 0x3E4CCCCD#32 0x3ECCCCCD#32 1)
      + contrib t f w1 t1 b1 w2 t2 b2 w3 t3 b3 0x3ECCCCCD#32 0x3F19999A#32 2)
      + contrib t f w1 t1 b1 w2 t2 b2 w3 t3 b3 0x3F19999A#32 0x3F4CCCCD#32 3)
      + contrib t f w1 t1 b1 w2 t2 b2 w3 t3 b3 0x3F4CCCCD#32 0x3F800000#32 4

end row

/-! ## The whole array -/

/-- Feature k of a row sits in column 1 + k. -/
abbrev featCol (k : Fin 128) : Fin 129 := ⟨1 + k.val, by have := k.isLt; omega⟩

/-- The result array [262144, 1] as one function of the ten argument arrays: entry (r, 0) is row r's result. -/
def G (X : (⟨2, ![262144, 129]⟩ : Shape).Idx → EReal)
    (W1 : (⟨3, ![5, 128, 128]⟩ : Shape).Idx → EReal) (T1 : (⟨3, ![5, 1, 128]⟩ : Shape).Idx → EReal)
    (B1 : (⟨2, ![5, 128]⟩ : Shape).Idx → EReal)
    (W2 : (⟨3, ![5, 128, 128]⟩ : Shape).Idx → EReal) (T2 : (⟨3, ![5, 1, 128]⟩ : Shape).Idx → EReal)
    (B2 : (⟨2, ![5, 128]⟩ : Shape).Idx → EReal)
    (W3 : (⟨3, ![5, 128, 1]⟩ : Shape).Idx → EReal) (T3 : (⟨3, ![5, 1, 1]⟩ : Shape).Idx → EReal)
    (B3 : (⟨2, ![5, 1]⟩ : Shape).Idx → EReal) :
    (⟨2, ![262144, 1]⟩ : Shape).Idx → EReal := fun i =>
  rowOut (X (ix2 (i 0) (0 : Fin 129))) (fun k => X (ix2 (i 0) (featCol k)))
    (fun e k j => W1 (ix3 e k j)) (fun e j => T1 (ix3 e (0 : Fin 1) j)) (fun e j => B1 (ix2 e j))
    (fun e k j => W2 (ix3 e k j)) (fun e j => T2 (ix3 e (0 : Fin 1) j)) (fun e j => B2 (ix2 e j))
    (fun e k => W3 (ix3 e k (0 : Fin 1))) (fun e => T3 (ix3 e (0 : Fin 1) (0 : Fin 1))) (fun e => B3 (ix2 e (0 : Fin 1)))

end Cert.Routed

end
-- ==== Proof.Layout.lean ====
/-
  Two small readings the library leaves to its user: a column broadcast along rows, and the place of expert e's j-th
  hidden unit among the 640 columns of the five experts' first layers laid side by side.
-/
import Idealize.ShloMosaic.Lib.ValueIdx
import Idealize.ShloMosaic.Lib.ValueLayout
import Idealize.ShloMosaic.Lib.Pipeline.Value

namespace Cert.Routed

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column e · 128 + j of the side-by-side first layers is hidden unit j of expert e. -/
abbrev col (e : Fin 5) (j : Fin 128) : Fin 640 := ⟨e.val * 128 + j.val, by have := e.isLt; have := j.isLt; omega⟩

end Cert.Routed
-- ==== Proof.KDots.lean ====
/-
  The three matrix products of the body, read at an entry: each contracts the 128 columns of a [2048, 128] matrix with
  the 128 rows of a weight matrix, and starts from zeros, so an entry is a plain inner product.
-/
import proofs.«175108_j54133767799373_2_alg».proof.Proof.Gen.KernelIdeal
import Idealize.ShloMosaic.Lib.ValueIdx
import Idealize.ShloMosaic.PureOps.Ideal.Laws

noncomputable section

namespace Cert.Routed.Kernel

open Cert.KernelIdeal Idealize.ShloMosaic Idealize.ShloMosaic.ValueIdx

theorem mm640_lhs0 (i : S2048x640.Idx) (q : dot_S2048x128_S128x640_S2048x640_1_0_0_1_n_n.contr.Idx) : (dot_S2048x128_S128x640_S2048x640_1_0_0_1_n_n.lhsIdx i q 0).val = (i 0).val := by
  unfold DotDims.lhsIdx
  rw [dif_neg (show ¬(0 : Fin S2048x128.rank) ∈ dot_S2048x128_S128x640_S2048x640_1_0_0_1_n_n.lhsBatch by decide), dif_pos (show (0 : Fin S2048x128.rank) ∈ dot_S2048x128_S128x640_S2048x640_1_0_0_1_n_n.lhsNonContracting by decide)]
  rfl

theorem mm640_rhs1 (i : S2048x640.Idx) (q : dot_S2048x128_S128x640_S2048x640_1_0_0_1_n_n.contr.Idx) : (dot_S2048x128_S128x640_S2048x640_1_0_0_1_n_n.rhsIdx i q 1).val = (i 1).val := by
  unfold DotDims.rhsIdx
  rw [dif_neg (show ¬(1 : Fin S128x640.rank) ∈ dot_S2048x128_S128x640_S2048x640_1_0_0_1_n_n.rhsBatch by decide), dif_pos (show (1 : Fin S128x640.rank) ∈ dot_S2048x128_S128x640_S2048x640_1_0_0_1_n_n.rhsNonContracting by decide)]
  rfl

/-- A product of a [2048, 128] matrix with a [128, 640] matrix, accumulated into zeros, has at (p, c) the inner product
    of row p of the first with column c of the second. -/
theorem mm640_apply {φ₁ φ₂ : FTy} (x : FVec Ideal S2048x128 φ₁) (w : FVec Ideal S128x640 φ₂) (p : Fin 2048) (c : Fin 640) :
    matmul dot_S2048x128_S128x640_S2048x640_1_0_0_1_n_n none x w (constant S2048x640 .f32 0x00000000#32) (ix2 p c)
      = ∑ k : Fin 128, x (ix2 p k) * w (ix2 k c) := by
  simp only [matmul]
  rw [Ideal.matmul_constant_zero_apply, ← Equiv.sum_comp (contrEquiv1 dot_S2048x128_S128x640_S2048x640_1_0_0_1_n_n 128 rfl rfl).symm]
  refine Finset.sum_congr rfl fun k _ => ?_
  have hk := contrEquiv1_symm_val dot_S2048x128_S128x640_S2048x640_1_0_0_1_n_n 128 rfl rfl k
  have el : dot_S2048x128_S128x640_S2048x640_1_0_0_1_n_n.lhsIdx (ix2 p c) ((contrEquiv1 dot_S2048x128_S128x640_S2048x640_1_0_0_1_n_n 128 rfl rfl).symm k) = ix2 p k := funext fun a => Fin.ext (by
    match a with
    | ⟨0, _⟩ => exact mm640_lhs0 _ _
    | ⟨1, _⟩ => exact (dot_S2048x128_S128x640_S2048x640_1_0_0_1_n_n.lhsIdx_val_of_single rfl _ _).trans hk)
  have er : dot_S2048x128_S128x640_S2048x640_1_0_0_1_n_n.rhsIdx (ix2 p c) ((contrEquiv1 dot_S2048x128_S128x640_S2048x640_1_0_0_1_n_n 128 rfl rfl).symm k) = ix2 k c := funext fun a => Fin.ext (by
    match a with
    | ⟨0, _⟩ => exact (dot_S2048x128_S128x640_S2048x640_1_0_0_1_n_n.rhsIdx_val_of_single rfl _ _).trans hk
    | ⟨1, _⟩ => exact mm640_rhs1 _ _)
  rw [el, er]

theorem mm128_lhs0 (i : S2048x128.Idx) (q : dot_S2048x128_S128x128_S2048x128_1_0_0_1_n_n.contr.Idx) : (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl

theorem mm128_rhs1 (i : S2048x128.Idx) (q : dot_S2048x128_S128x128_S2048x128_1_0_0_1_n_n.contr.Idx) : (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A product of a [2048, 128] matrix with a [128, 128] matrix, accumulated into zeros, has at (p, c) the inner product
    of row p of the first with column c of the second. -/
theorem mm128_apply {φ₁ φ₂ : FTy} (x : FVec Ideal S2048x128 φ₁) (w : FVec Ideal S128x128 φ₂) (p : Fin 2048) (c : Fin 128) :
    matmul dot_S2048x128_S128x128_S2048x128_1_0_0_1_n_n none x w (constant S2048x128 .f32 0x00000000#32) (ix2 p c)
      = ∑ k : Fin 128, x (ix2 p k) * w (ix2 k c) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p c) ((contrEquiv1 dot_S2048x128_S128x128_S2048x128_1_0_0_1_n_n 128 rfl rfl).symm k) = ix2 p k := funext fun a => Fin.ext (by
    match a with
    | ⟨0, _⟩ => exact mm128_lhs0 _ _
    | ⟨1, _⟩ => exact (dot_S2048x128_S128x128_S2048x128_1_0_0_1_n_n.lhsIdx_val_of_single rfl _ _).trans hk)
  have er : dot_S2048x128_S128x128_S2048x128_1_0_0_1_n_n.rhsIdx (ix2 p c) ((contrEquiv1 dot_S2048x128_S128x128_S2048x128_1_0_0_1_n_n 128 rfl rfl).symm k) = ix2 k c := funext fun a => Fin.ext (by
    match a with
    | ⟨0, _⟩ => exact (dot_S2048x128_S128x128_S2048x128_1_0_0_1_n_n.rhsIdx_val_of_single rfl _ _).trans hk
    | ⟨1, _⟩ => exact mm128_rhs1 _ _)
  rw [el, er]

theorem mm1_lhs0 (i : S2048x1.Idx) (q : dot_S2048x128_S128x1_S2048x1_1_0_0_1_n_n.contr.Idx) : (dot_S2048x128_S128x1_S2048x1_1_0_0_1_n_n.lhsIdx i q 0).val = (i 0).val := by
  unfold DotDims.lhsIdx
  rw [dif_neg (show ¬(0 : Fin S2048x128.rank) ∈ dot_S2048x128_S128x1_S2048x1_1_0_0_1_n_n.lhsBatch by decide), dif_pos (show (0 : Fin S2048x128.rank) ∈ dot_S2048x128_S128x1_S2048x1_1_0_0_1_n_n.lhsNonContracting by decide)]
  rfl

theorem mm1_rhs1 (i : S2048x1.Idx) (q : dot_S2048x128_S128x1_S2048x1_1_0_0_1_n_n.contr.Idx) : (dot_S2048x128_S128x1_S2048x1_1_0_0_1_n_n.rhsIdx i q 1).val = (i 1).val := by
  unfold DotDims.rhsIdx
  rw [dif_neg (show ¬(1 : Fin S128x1.rank) ∈ dot_S2048x128_S128x1_S2048x1_1_0_0_1_n_n.rhsBatch by decide), dif_pos (show (1 : Fin S128x1.rank) ∈ dot_S2048x128_S128x1_S2048x1_1_0_0_1_n_n.rhsNonContracting by decide)]
  rfl

/-- A product of a [2048, 128] matrix with a [128, 1] matrix, accumulated into zeros, has at (p, c) the inner product
    of row p of the first with column c of the second. -/
theorem mm1_apply {φ₁ φ₂ : FTy} (x : FVec Ideal S2048x128 φ₁) (w : FVec Ideal S128x1 φ₂) (p : Fin 2048) (c : Fin 1) :
    matmul dot_S2048x128_S128x1_S2048x1_1_0_0_1_n_n none x w (constant S2048x1 .f32 0x00000000#32) (ix2 p c)
      = ∑ k : Fin 128, x (ix2 p k) * w (ix2 k c) := by
  simp only [matmul]
  rw [Ideal.matmul_constant_zero_apply, ← Equiv.sum_comp (contrEquiv1 dot_S2048x128_S128x1_S2048x1_1_0_0_1_n_n 128 rfl rfl).symm]
  refine Finset.sum_congr rfl fun k _ => ?_
  have hk := contrEquiv1_symm_val dot_S2048x128_S128x1_S2048x1_1_0_0_1_n_n 128 rfl rfl k
  have el : dot_S2048x128_S128x1_S2048x1_1_0_0_1_n_n.lhsIdx (ix2 p c) ((contrEquiv1 dot_S2048x128_S128x1_S2048x1_1_0_0_1_n_n 128 rfl rfl).symm k) = ix2 p k := funext fun a => Fin.ext (by
    match a with
    | ⟨0, _⟩ => exact mm1_lhs0 _ _
    | ⟨1, _⟩ => exact (dot_S2048x128_S128x1_S2048x1_1_0_0_1_n_n.lhsIdx_val_of_single rfl _ _).trans hk)
  have er : dot_S2048x128_S128x1_S2048x1_1_0_0_1_n_n.rhsIdx (ix2 p c) ((contrEquiv1 dot_S2048x128_S128x1_S2048x1_1_0_0_1_n_n 128 rfl rfl).symm k) = ix2 k c := funext fun a => Fin.ext (by
    match a with
    | ⟨0, _⟩ => exact (dot_S2048x128_S128x1_S2048x1_1_0_0_1_n_n.rhsIdx_val_of_single rfl _ _).trans hk
    | ⟨1, _⟩ => exact mm1_rhs1 _ _)
  rw [el, er]

end Cert.Routed.Kernel

end
-- ==== Proof.KPay.lean ====
/-
  The body's arithmetic, read entry by entry. The body computes the first layers of all five experts at once — one
  product with the five weight matrices laid side by side, 640 columns — and then, expert by expert, the second layer
  from that expert's 128 columns, the last layer, the routing test on the row's treatment value, and the running sum.
  Each lemma reads one stretch of that computation at a row p (and a column where there is one) in terms of the
  values it is given, in the vocabulary of the specification: `lin` for a layer's entry, `route` for the routed
  contribution. Changes of float format are the identity here, a shape cast that adds or drops a unit axis does not
  move an entry, and a broadcast along rows or columns reads the one row or column it repeats.
-/
import proofs.«175108_j54133767799373_2_alg».proof.Proof.Gen.KernelIdeal.Skeleton
import proofs.«175108_j54133767799373_2_alg».proof.Proof.Spec
import proofs.«175108_j54133767799373_2_alg».proof.Proof.Layout
import proofs.«175108_j54133767799373_2_alg».proof.Proof.KDots
import Idealize.ShloMosaic.Lib.ValueIdx
import Idealize.ShloMosaic.Lib.ValueLayout
import Idealize.ShloMosaic.Lib.Pipeline.Value

noncomputable section

namespace Cert.Routed.Kernel

open Cert.KernelIdeal Cert.KernelIdeal.Gen Idealize.ShloMosaic Idealize.ShloMosaic.ValueIdx Cert.Routed

/-- The one-bit conjunction of two vectors of bits, entry by entry. -/
theorem andi_apply {s : Shape} {w : ℕ} (x y : IVec s w) (i : s.Idx) : andi x y i = IntOp.andi (x i) (y i) := rfl

/-! ## The slices of a row: its treatment value, its features, and an expert's 128 columns of the first layers -/

theorem slice_treat {α : Type} (X : S2048x129.Idx → α) (h : S2048x129.Slices ![0, 0] S2048x1) (p : Fin 2048) (q : Fin 1) :
    extractStridedSlice S2048x1 ![0, 0] X h (ix2 p q) = X (ix2 p (0 : Fin 129)) :=
  slice2_axis1_apply 0 X h p q (0 : Fin 129) (by have := q.isLt; show 0 = 0 + q.val; omega)

theorem slice_feat {α : Type} (X : S2048x129.Idx → α) (h : S2048x129.Slices ![0, 1] S2048x128) (p : Fin 2048) (k : Fin 128) :
    extractStridedSlice S2048x128 ![0, 1] X h (ix2 p k) = X (ix2 p (featCol k)) :=
  slice2_axis1_apply 1 X h p k (featCol k) rfl

theorem slice_col0 {α : Type} (X : S2048x640.Idx → α) (h : S2048x640.Slices ![0, 0] S2048x128) (p : Fin 2048) (k : Fin 128) :
    extractStridedSlice S2048x128 ![0, 0] X h (ix2 p k) = X (ix2 p (col 0 k)) :=
  slice2_axis1_apply 0 X h p k (col 0 k) (by show 0 * 128 + k.val = 0 + k.val; omega)

theorem slice_col1 {α : Type} (X : S2048x640.Idx → α) (h : S2048x640.Slices ![0, 128] S2048x128) (p : Fin 2048) (k : Fin 128) :
    extractStridedSlice S2048x128 ![0, 128] X h (ix2 p k) = X (ix2 p (col 1 k)) :=
  slice2_axis1_apply 128 X h p k (col 1 k) (by show 1 * 128 + k.val = 128 + k.val; omega)

theorem slice_col2 {α : Type} (X : S2048x640.Idx → α) (h : S2048x640.Slices ![0, 256] S2048x128) (p : Fin 2048) (k : Fin 128) :
    extractStridedSlice S2048x128 ![0, 256] X h (ix2 p k) = X (ix2 p (col 2 k)) :=
  slice2_axis1_apply 256 X h p k (col 2 k) (by show 2 * 128 + k.val = 256 + k.val; omega)

theorem slice_col3 {α : Type} (X : S2048x640.Idx → α) (h : S2048x640.Slices ![0, 384] S2048x128) (p : Fin 2048) (k : Fin 128) :
    extractStridedSlice S2048x128 ![0, 384] X h (ix2 p k) = X (ix2 p (col 3 k)) :=
  slice2_axis1_apply 384 X h p k (col 3 k) (by show 3 * 128 + k.val = 384 + k.val; omega)

theorem slice_col4 {α : Type} (X : S2048x640.Idx → α) (h : S2048x640.Slices ![0, 512] S2048x128) (p : Fin 2048) (k : Fin 128) :
    extractStridedSlice S2048x128 ![0, 512] X h (ix2 p k) = X (ix2 p (col 4 k)) :=
  slice2_axis1_apply 512 X h p k (col 4 k) (by show 4 * 128 + k.val = 512 + k.val; omega)

/-! ## The shared first stretch -/

/-- The row's treatment value. -/
theorem pay2_apply (v0 : Vec Ideal S2048x129 .f32) (p : Fin 2048) (q : Fin 1) :
    k0_pay2 (F := Ideal) v0 (ix2 p q) = v0 (ix2 p (0 : Fin 129)) := by
  simp only [k0_pay2, slice_treat]

/-- The five first layers side by side: column c of row p. -/
theorem pay3_apply (v0 : Vec Ideal S2048x129 .f32) (v4 : Vec Ideal S128x640 .bf16) (v7 : Vec Ideal S1x640 .bf16) (v14 : Vec Ideal S1x640 .f32)
    (p : Fin 2048) (c : Fin 640) :
    k0_pay3 (F := Ideal) v0 v4 v7 v14 (ix2 p c)
      = max (lin (fun k => v0 (ix2 p (featCol k))) (fun k => v4 (ix2 k c)) (v0 (ix2 p (0 : Fin 129)))
          (v7 (ix2 (0 : Fin 1) c)) (v14 (ix2 (0 : Fin 1) c))) zero := by
  simp only [k0_pay3, pay2_apply, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]
  rfl

/-- The running sum starts at 0.0. -/
theorem pay4_apply (p : Fin 2048) (q : Fin 1) : k0_pay4 (F := Ideal) (ix2 p q) = zero := by
  simp only [k0_pay4, broadcast_apply]
  rfl

/-! ## Expert 0 -/

/-- Expert 0's second layer before its max with 0: entry (p, j). -/
theorem pay5_apply (v0 : Vec Ideal S2048x129 .f32) (v4 : Vec Ideal S128x640 .bf16) (v7 : Vec Ideal S1x640 .bf16) (v14 : Vec Ideal S1x640 .f32)
    (v23 : Vec Ideal S1x128x128 .bf16) (v26 : Vec Ideal S1x1x128 .bf16) (v33 : Vec Ideal S1x128 .f32) (p : Fin 2048) (j : Fin 128) :
    k0_pay5 (F := Ideal) v0 v4 v7 v14 v23 v26 v33 (ix2 p j)
      = lin (fun k => k0_pay3 (F := Ideal) v0 v4 v7 v14 (ix2 p (col 0 k))) (fun k => v23 (ix3 (0 : Fin 1) k j))
          (v0 (ix2 p (0 : Fin 129))) (v26 (ix3 (0 : Fin 1) (0 : Fin 1) j)) (v33 (ix2 (0 : Fin 1) j)) := by
  simp only [k0_pay5, pay2_apply, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]
  rfl

/-- Expert 0's routed contribution added to the running sum, at row p. -/
theorem k0_pay6_apply (v1 : FVec Ideal S2048x1 .f32) (v21 : FVec Ideal S2048x1 .f32) (v37 : FVec Ideal S2048x128 .f32) (cst_18 : Ideal .f32) (v41 : Vec Ideal S1x128x1 .bf16) (v44 : Vec Ideal S1x1x1 .bf16) (v50 : Vec Ideal S1x1 .f32) (p : Fin 2048) :
    k0_pay6 (F := Ideal) v1 v21 v37 cst_18 v41 v44 v50 (ix2 p (0 : Fin 1))
      = v21 (ix2 p (0 : Fin 1)) + route 0x00000000#32 0x3E4CCCCD#32 (v1 (ix2 p (0 : Fin 1)))
          (lin (fun k => max (v37 (ix2 p k)) cst_18) (fun k => v41 (ix3 (0 : Fin 1) k (0 : Fin 1))) (v1 (ix2 p (0 : Fin 1)))
            (v44 (ix3 (0 : Fin 1) (0 : Fin 1) (0 : Fin 1))) (v50 (ix2 (0 : Fin 1) (0 : Fin 1)))) := by
  simp only [k0_pay6, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]
  rfl

/-! ## Expert 1 -/

/-- Expert 1's second layer without its bias: entry (p, j). -/
theorem pay7_apply (v1 : FVec Ideal S2048x1 .f32) (v20 : FVec Ideal S2048x640 .bf16) (v64 : Vec Ideal S1x128x128 .bf16) (v67 : Vec Ideal S1x1x128 .bf16)
    (p : Fin 2048) (j : Fin 128) :
    k0_pay7 (F := Ideal) v1 v20 v64 v67 (ix2 p j)
      = (∑ k : Fin 128, v20 (ix2 p (col 1 k)) * v64 (ix3 (0 : Fin 1) k j)) + v1 (ix2 p (0 : Fin 1)) * v67 (ix3 (0 : Fin 1) (0 : Fin 1) j) := by
  simp only [k0_pay7, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]

/-- Its bias row. -/
theorem pay8_apply (v74 : Vec Ideal S1x128 .f32) (u : Fin 1) (j : Fin 128) :
    k0_pay8 (F := Ideal) v74 (ix2 u j) = v74 (ix2 (0 : Fin 1) j) := by
  simp only [k0_pay8, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]

/-- Expert 1's routed contribution added to the running sum, at row p. -/
theorem k0_pay9_apply (v1 : FVec Ideal S2048x1 .f32) (v62 : FVec Ideal S2048x1 .f32) (v73 : FVec Ideal S2048x128 .f32) (v76 : FVec Ideal S1x128 .f32) (v82 : Vec Ideal S1x128x1 .bf16) (v85 : Vec Ideal S1x1x1 .bf16) (v91 : Vec Ideal S1x1 .f32) (p : Fin 2048) :
    k0_pay9 (F := Ideal) v1 v62 v73 v76 v82 v85 v91 (ix2 p (0 : Fin 1))
      = v62 (ix2 p (0 : Fin 1)) + route 0x3E4CCCCD#32 0x3ECCCCCD#32 (v1 (ix2 p (0 : Fin 1)))
          (lin (fun k => max (v73 (ix2 p k) + v76 (ix2 (0 : Fin 1) k)) zero) (fun k => v82 (ix3 (0 : Fin 1) k (0 : Fin 1))) (v1 (ix2 p (0 : Fin 1)))
            (v85 (ix3 (0 : Fin 1) (0 : Fin 1) (0 : Fin 1))) (v91 (ix2 (0 : Fin 1) (0 : Fin 1)))) := by
  simp only [k0_pay9, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]
  rfl

/-! ## Expert 2 -/

/-- Expert 2's second layer without its bias: entry (p, j). -/
theorem pay10_apply (v1 : FVec Ideal S2048x1 .f32) (v20 : FVec Ideal S2048x640 .bf16) (v105 : Vec Ideal S1x128x128 .bf16) (v108 : Vec Ideal S1x1x128 .bf16)
    (p : Fin 2048) (j : Fin 128) :
    k0_pay10 (F := Ideal) v1 v20 v105 v108 (ix2 p j)
      = (∑ k : Fin 128, v20 (ix2 p (col 2 k)) * v105 (ix3 (0 : Fin 1) k j)) + v1 (ix2 p (0 : Fin 1)) * v108 (ix3 (0 : Fin 1) (0 : Fin 1) j) := by
  simp only [k0_pay10, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]

/-- Expert 2's routed contribution added to the running sum, at row p. -/
theorem k0_pay11_apply (v1 : FVec Ideal S2048x1 .f32) (v103 : FVec Ideal S2048x1 .f32) (v114 : FVec Ideal S2048x128 .f32) (v115 : Vec Ideal S1x128 .f32) (v123 : Vec Ideal S1x128x1 .bf16) (v126 : Vec Ideal S1x1x1 .bf16) (v132 : Vec Ideal S1x1 .f32) (p : Fin 2048) :
    k0_pay11 (F := Ideal) v1 v103 v114 v115 v123 v126 v132 (ix2 p (0 : Fin 1))
      = v103 (ix2 p (0 : Fin 1)) + route 0x3ECCCCCD#32 0x3F19999A#32 (v1 (ix2 p (0 : Fin 1)))
          (lin (fun k => max (v114 (ix2 p k) + v115 (ix2 (0 : Fin 1) k)) zero) (fun k => v123 (ix3 (0 : Fin 1) k (0 : Fin 1))) (v1 (ix2 p (0 : Fin 1)))
            (v126 (ix3 (0 : Fin 1) (0 : Fin 1) (0 : Fin 1))) (v132 (ix2 (0 : Fin 1) (0 : Fin 1)))) := by
  simp only [k0_pay11, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]
  rfl

/-! ## Expert 3 -/

/-- Expert 3's second layer, the product alone: entry (p, j). -/
theorem pay12_apply (v20 : FVec Ideal S2048x640 .bf16) (v146 : Vec Ideal S1x128x128 .bf16) (p : Fin 2048) (j : Fin 128) :
    k0_pay12 (F := Ideal) v20 v146 (ix2 p j) = ∑ k : Fin 128, v20 (ix2 p (col 3 k)) * v146 (ix3 (0 : Fin 1) k j) := by
  simp only [k0_pay12, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]

/-- Its treatment term. -/
theorem pay13_apply (v1 : FVec Ideal S2048x1 .f32) (v149 : Vec Ideal S1x1x128 .bf16) (p : Fin 2048) (j : Fin 128) :
    k0_pay13 (F := Ideal) v1 v149 (ix2 p j) = v1 (ix2 p (0 : Fin 1)) * v149 (ix3 (0 : Fin 1) (0 : Fin 1) j) := by
  simp only [k0_pay13, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]

/-- Expert 3's routed contribution added to the running sum, at row p. -/
theorem k0_pay14_apply (v1 : FVec Ideal S2048x1 .f32) (v144 : FVec Ideal S2048x1 .f32) (v148 : FVec Ideal S2048x128 .f32) (v154 : FVec Ideal S2048x128 .f32) (v156 : Vec Ideal S1x128 .f32) (v164 : Vec Ideal S1x128x1 .bf16) (v167 : Vec Ideal S1x1x1 .bf16) (v173 : Vec Ideal S1x1 .f32) (p : Fin 2048) :
    k0_pay14 (F := Ideal) v1 v144 v148 v154 v156 v164 v167 v173 (ix2 p (0 : Fin 1))
      = v144 (ix2 p (0 : Fin 1)) + route 0x3F19999A#32 0x3F4CCCCD#32 (v1 (ix2 p (0 : Fin 1)))
          (lin (fun k => max (v148 (ix2 p k) + v154 (ix2 p k) + v156 (ix2 (0 : Fin 1) k)) zero) (fun k => v164 (ix3 (0 : Fin 1) k (0 : Fin 1))) (v1 (ix2 p (0 : Fin 1)))
            (v167 (ix3 (0 : Fin 1) (0 : Fin 1) (0 : Fin 1))) (v173 (ix2 (0 : Fin 1) (0 : Fin 1)))) := by
  simp only [k0_pay14, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]
  rfl

/-! ## Expert 4 -/

/-- Expert 4's second layer, the product alone: entry (p, j). -/
theorem pay15_apply (v20 : FVec Ideal S2048x640 .bf16) (v187 : Vec Ideal S1x128x128 .bf16) (p : Fin 2048) (j : Fin 128) :
    k0_pay15 (F := Ideal) v20 v187 (ix2 p j) = ∑ k : Fin 128, v20 (ix2 p (col 4 k)) * v187 (ix3 (0 : Fin 1) k j) := by
  simp only [k0_pay15, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]

/-- Its treatment weights as a row. -/
theorem pay16_apply (v190 : Vec Ideal S1x1x128 .bf16) (u : Fin 1) (j : Fin 128) :
    k0_pay16 (F := Ideal) v190 (ix2 u j) = v190 (ix3 (0 : Fin 1) (0 : Fin 1) j) := by
  have hu : u = 0 := Subsingleton.elim _ _
  subst hu
  simp only [k0_pay16, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]

/-- Expert 4's routed contribution added to the running sum, at row p. -/
theorem k0_pay1_apply (v1 : FVec Ideal S2048x1 .f32) (v185 : FVec Ideal S2048x1 .f32) (v189 : FVec Ideal S2048x128 .f32) (v192 : FVec Ideal S1x128 .f32) (v197 : Vec Ideal S1x128 .f32) (v205 : Vec Ideal S1x128x1 .bf16) (v208 : Vec Ideal S1x1x1 .bf16) (v214 : Vec Ideal S1x1 .f32) (p : Fin 2048) :
    k0_pay1 (F := Ideal) v1 v185 v189 v192 v197 v205 v208 v214 (ix2 p (0 : Fin 1))
      = v185 (ix2 p (0 : Fin 1)) + route 0x3F4CCCCD#32 0x3F800000#32 (v1 (ix2 p (0 : Fin 1)))
          (lin (fun k => max (v189 (ix2 p k) + v1 (ix2 p (0 : Fin 1)) * v192 (ix2 (0 : Fin 1) k) + v197 (ix2 (0 : Fin 1) k)) zero) (fun k => v205 (ix3 (0 : Fin 1) k (0 : Fin 1))) (v1 (ix2 p (0 : Fin 1)))
            (v208 (ix3 (0 : Fin 1) (0 : Fin 1) (0 : Fin 1))) (v214 (ix2 (0 : Fin 1) (0 : Fin 1)))) := by
  simp only [k0_pay1, mulf_apply, addf_apply, maximumf_apply, truncf_apply, extf_apply, broadcast_apply, cmpf_apply, select_apply, andi_apply,
    broadcastTo_a1_ab_apply, broadcastTo_1b_ab_apply, shapeCast_1ab_ab_apply, shapeCast_1a_a_apply, shapeCast_a_1a_apply, shapeCast_self,
    mm640_apply, mm128_apply, mm1_apply, slice_treat, slice_feat, slice_col0, slice_col1, slice_col2, slice_col3, slice_col4]
  rfl

end Cert.Routed.Kernel

end
-- ==== Proof.KBody.lean ====
/-
  What the body leaves in the output block, row by row. The body reads its ten input blocks — the block of 2048 rows of
  the input, the five first-layer weight matrices side by side with their treatment weights and biases, and, one expert
  at a time, that expert's slab of each remaining parameter array — and stores one column of 2048 results. Row p of
  that column is the specification's row result of row p of the input block; the side-by-side first layers give expert
  e its columns e · 128 … e · 128 + 127, and expert e's slab of a parameter array is the array at leading index e.
-/
import proofs.«175108_j54133767799373_2_alg».proof.Proof.Gen.KernelIdeal.Frame
import proofs.«175108_j54133767799373_2_alg».proof.Proof.KPay

set_option maxRecDepth 16384

noncomputable section

namespace Cert.Routed.Kernel

open Cert.KernelIdeal Cert.KernelIdeal.Gen Idealize.ShloMosaic Idealize.ShloMosaic.ValueIdx Cert.Routed

theorem hz2 : (![0, 0] : Fin 2 → Nat) = fun _ => 0 := funext fun a => by fin_cases a <;> rfl

/-! ## One slab of a parameter array: the rectangle that starts at leading index e places its own index at e -/

/-- A unit-stride rectangle of a rank-3 array places its own index y at the offsets plus y, coordinate by coordinate. -/
theorem unit_idx3 {N0 N1 N2 : ℕ} (off size : Fin 3 → ℕ) (inb : ∀ a, off a + size a ≤ (⟨3, ![N0, N1, N2]⟩ : Shape).size a)
    (a : Fin N0) (b : Fin N1) (c : Fin N2) (y : (Rect.unit (s := ⟨3, ![N0, N1, N2]⟩) off size inb).shape.Idx)
    (h0 : a.val = off 0 + (y 0).val) (h1 : b.val = off 1 + (y 1).val) (h2 : c.val = off 2 + (y 2).val) :
    (Rect.unit (s := ⟨3, ![N0, N1, N2]⟩) off size inb).idx y = ix3 a b c :=
  funext fun d => Fin.ext (by
    match d with
    | ⟨0, _⟩ => show off 0 + 1 * (y 0).val = a.val; omega
    | ⟨1, _⟩ => show off 1 + 1 * (y 1).val = b.val; omega
    | ⟨2, _⟩ => show off 2 + 1 * (y 2).val = c.val; omega)

/-- The same for a matrix. -/
theorem unit_idx2 {N0 N1 : ℕ} (off size : Fin 2 → ℕ) (inb : ∀ a, off a + size a ≤ (⟨2, ![N0, N1]⟩ : Shape).size a)
    (a : Fin N0) (b : Fin N1) (y : (Rect.unit (s := ⟨2, ![N0, N1]⟩) off size inb).shape.Idx)
    (h0 : a.val = off 0 + (y 0).val) (h1 : b.val = off 1 + (y 1).val) :
    (Rect.unit (s := ⟨2, ![N0, N1]⟩) off size inb).idx y = ix2 a b :=
  funext fun d => Fin.ext (by
    match d with
    | ⟨0, _⟩ => show off 0 + 1 * (y 0).val = a.val; omega
    | ⟨1, _⟩ => show off 1 + 1 * (y 1).val = b.val; omega)

theorem idx_r3 (k j : Fin 128) : r0_3.idx (ix3 (0 : Fin 1) k j) = (ix3 (0 : Fin 5) k j) :=
  unit_idx3 _ _ _ (0 : Fin 5) k j (ix3 (0 : Fin 1) k j) (by show 0 = 0 + 0; rfl) (by show k.val = 0 + k.val; omega) (by show j.val = 0 + j.val; omega)
theorem idx_r4 (j : Fin 128) : r0_4.idx (ix3 (0 : Fin 1) (0 : Fin 1) j) = (ix3 (0 : Fin 5) (0 : Fin 1) j) :=
  unit_idx3 _ _ _ (0 : Fin 5) (0 : Fin 1) j (ix3 (0 : Fin 1) (0 : Fin 1) j) (by show 0 = 0 + 0; rfl) (by show 0 = 0 + 0; rfl) (by show j.val = 0 + j.val; omega)
theorem idx_r5 (j : Fin 128) : r0_5.idx (ix2 (0 : Fin 1) j) = (ix2 (0 : Fin 5) j) :=
  unit_idx2 _ _ _ (0 : Fin 5) j (ix2 (0 : Fin 1) j) (by show 0 = 0 + 0; rfl) (by show j.val = 0 + j.val; omega)
theorem idx_r6 (k : Fin 128) : r0_6.idx (ix3 (0 : Fin 1) k (0 : Fin 1)) = (ix3 (0 : Fin 5) k (0 : Fin 1)) :=
  unit_idx3 _ _ _ (0 : Fin 5) k (0 : Fin 1) (ix3 (0 : Fin 1) k (0 : Fin 1)) (by show 0 = 0 + 0; rfl) (by show k.val = 0 + k.val; omega) (by show 0 = 0 + 0; rfl)
theorem idx_r7  : r0_7.idx (ix3 (0 : Fin 1) (0 : Fin 1) (0 : Fin 1)) = (ix3 (0 : Fin 5) (0 : Fin 1) (0 : Fin 1)) :=
  unit_idx3 _ _ _ (0 : Fin 5) (0 : Fin 1) (0 : Fin 1) (ix3 (0 : Fin 1) (0 : Fin 1) (0 : Fin 1)) (by show 0 = 0 + 0; rfl) (by show 0 = 0 + 0; rfl) (by show 0 = 0 + 0; rfl)
theorem idx_r8  : r0_8.idx (ix2 (0 : Fin 1) (0 : Fin 1)) = (ix2 (0 : Fin 5) (0 : Fin 1)) :=
  unit_idx2 _ _ _ (0 : Fin 5) (0 : Fin 1) (ix2 (0 : Fin 1) (0 : Fin 1)) (by show 0 = 0 + 0; rfl) (by show 0 = 0 + 0; rfl)
theorem idx_r9 (k j : Fin 128) : r0_9.idx (ix3 (0 : Fin 1) k j) = (ix3 (1 : Fin 5) k j) :=
  unit_idx3 _ _ _ (1 : Fin 5) k j (ix3 (0 : Fin 1) k j) (by show 1 = 1 + 0; rfl) (by show k.val = 0 + k.val; omega) (by show j.val = 0 + j.val; omega)
theorem idx_r10 (j : Fin 128) : r0_10.idx (ix3 (0 : Fin 1) (0 : Fin 1) j) = (ix3 (1 : Fin 5) (0 : Fin 1) j) :=
  unit_idx3 _ _ _ (1 : Fin 5) (0 : Fin 1) j (ix3 (0 : Fin 1) (0 : Fin 1) j) (by show 1 = 1 + 0; rfl) (by show 0 = 0 + 0; rfl) (by show j.val = 0 + j.val; omega)
theorem idx_r11 (j : Fin 128) : r0_11.idx (ix2 (0 : Fin 1) j) = (ix2 (1 : Fin 5) j) :=
  unit_idx2 _ _ _ (1 : Fin 5) j (ix2 (0 : Fin 1) j) (by show 1 = 1 + 0; rfl) (by show j.val = 0 + j.val; omega)
theorem idx_r12 (k : Fin 128) : r0_12.idx (ix3 (0 : Fin 1) k (0 : Fin 1)) = (ix3 (1 : Fin 5) k (0 : Fin 1)) :=
  unit_idx3 _ _ _ (1 : Fin 5) k (0 : Fin 1) (ix3 (0 : Fin 1) k (0 : Fin 1)) (by show 1 = 1 + 0; rfl) (by show k.val = 0 + k.val; omega) (by show 0 = 0 + 0; rfl)
theorem idx_r13  : r0_13.idx (ix3 (0 : Fin 1) (0 : Fin 1) (0 : Fin 1)) = (ix3 (1 : Fin 5) (0 : Fin 1) (0 : Fin 1)) :=
  unit_idx3 _ _ _ (1 : Fin 5) (0 : Fin 1) (0 : Fin 1) (ix3 (0 : Fin 1) (0 : Fin 1) (0 : Fin 1)) (by show 1 = 1 + 0; rfl) (by show 0 = 0 + 0; rfl) (by show 0 = 0 + 0; rfl)
theorem idx_r14  : r0_14.idx (ix2 (0 : Fin 1) (0 : Fin 1)) = (ix2 (1 : Fin 5) (0 : Fin 1)) :=
  unit_idx2 _ _ _ (1 : Fin 5) (0 : Fin 1) (ix2 (0 : Fin 1) (0 : Fin 1)) (by show 1 = 1 + 0; rfl) (by show 0 = 0 + 0; rfl)
theorem idx_r15 (k j : Fin 128) : r0_15.idx (ix3 (0 : Fin 1) k j) = (ix3 (2 : Fin 5) k j) :=
  unit_idx3 _ _ _ (2 : Fin 5) k j (ix3 (0 : Fin 1) k j) (by show 2 = 2 + 0; rfl) (by show k.val = 0 + k.val; omega) (by show j.val = 0 + j.val; omega)
theorem idx_r16 (j : Fin 128) : r0_16.idx (ix3 (0 : Fin 1) (0 : Fin 1) j) = (ix3 (2 : Fin 5) (0 : Fin 1) j) :=
  unit_idx3 _ _ _ (2 : Fin 5) (0 : Fin 1) j (ix3 (0 : Fin 1) (0 : Fin 1) j) (by show 2 = 2 + 0; rfl) (by show 0 = 0 + 0; rfl) (by show j.val = 0 + j.val; omega)
theorem idx_r17 (j : Fin 128) : r0_17.idx (ix2 (0 : Fin 1) j) = (ix2 (2 : Fin 5) j) :=
  unit_idx2 _ _ _ (2 : Fin 5) j (ix2 (0 : Fin 1) j) (by show 2 = 2 + 0; rfl) (by show j.val = 0 + j.val; omega)
theorem idx_r18 (k : Fin 128) : r0_18.idx (ix3 (0 : Fin 1) k (0 : Fin 1)) = (ix3 (2 : Fin 5) k (0 : Fin 1)) :=
  unit_idx3 _ _ _ (2 : Fin 5) k (0 : Fin 1) (ix3 (0 : Fin 1) k (0 : Fin 1)) (by show 2 = 2 + 0; rfl) (by show k.val = 0 + k.val; omega) (by show 0 = 0 + 0; rfl)
theorem idx_r19  : r0_19.idx (ix3 (0 : Fin 1) (0 : Fin 1) (0 : Fin 1)) = (ix3 (2 : Fin 5) (0 : Fin 1) (0 : Fin 1)) :=
  unit_idx3 _ _ _ (2 : Fin 5) (0 : Fin 1) (0 : Fin 1) (ix3 (0 : Fin 1) (0 : Fin 1) (0 : Fin 1)) (by show 2 = 2 + 0; rfl) (by show 0 = 0 + 0; rfl) (by show 0 = 0 + 0; rfl)
theorem idx_r20  : r0_20.idx (ix2 (0 : Fin 1) (0 : Fin 1)) = (ix2 (2 : Fin 5) (0 : Fin 1)) :=
  unit_idx2 _ _ _ (2 : Fin 5) (0 : Fin 1) (ix2 (0 : Fin 1) (0 : Fin 1)) (by show 2 = 2 + 0; rfl) (by show 0 = 0 + 0; rfl)
theorem idx_r21 (k j : Fin 128) : r0_21.idx (ix3 (0 : Fin 1) k j) = (ix3 (3 : Fin 5) k j) :=
  unit_idx3 _ _ _ (3 : Fin 5) k j (ix3 (0 : Fin 1) k j) (by show 3 = 3 + 0; rfl) (by show k.val = 0 + k.val; omega) (by show j.val = 0 + j.val; omega)
theorem idx_r22 (j : Fin 128) : r0_22.idx (ix3 (0 : Fin 1) (0 : Fin 1) j) = (ix3 (3 : Fin 5) (0 : Fin 1) j) :=
  unit_idx3 _ _ _ (3 : Fin 5) (0 : Fin 1) j (ix3 (0 : Fin 1) (0 : Fin 1) j) (by show 3 = 3 + 0; rfl) (by show 0 = 0 + 0; rfl) (by show j.val = 0 + j.val; omega)
theorem idx_r23 (j : Fin 128) : r0_23.idx (ix2 (0 : Fin 1) j) = (ix2 (3 : Fin 5) j) :=
  unit_idx2 _ _ _ (3 : Fin 5) j (ix2 (0 : Fin 1) j) (by show 3 = 3 + 0; rfl) (by show j.val = 0 + j.val; omega)
theorem idx_r24 (k : Fin 128) : r0_24.idx (ix3 (0 : Fin 1) k (0 : Fin 1)) = (ix3 (3 : Fin 5) k (0 : Fin 1)) :=
  unit_idx3 _ _ _ (3 : Fin 5) k (0 : Fin 1) (ix3 (0 : Fin 1) k (0 : Fin 1)) (by show 3 = 3 + 0; rfl) (by show k.val = 0 + k.val; omega) (by show 0 = 0 + 0; rfl)
theorem idx_r25  : r0_25.idx (ix3 (0 : Fin 1) (0 : Fin 1) (0 : Fin 1)) = (ix3 (3 : Fin 5) (0 : Fin 1) (0 : Fin 1)) :=
  unit_idx3 _ _ _ (3 : Fin 5) (0 : Fin 1) (0 : Fin 1) (ix3 (0 : Fin 1) (0 : Fin 1) (0 : Fin 1)) (by show 3 = 3 + 0; rfl) (by show 0 = 0 + 0; rfl) (by show 0 = 0 + 0; rfl)
theorem idx_r26  : r0_26.idx (ix2 (0 : Fin 1) (0 : Fin 1)) = (ix2 (3 : Fin 5) (0 : Fin 1)) :=
  unit_idx2 _ _ _ (3 : Fin 5) (0 : Fin 1) (ix2 (0 : Fin 1) (0 : Fin 1)) (by show 3 = 3 + 0; rfl) (by show 0 = 0 + 0; rfl)
theorem idx_r27 (k j : Fin 128) : r0_27.idx (ix3 (0 : Fin 1) k j) = (ix3 (4 : Fin 5) k j) :=
  unit_idx3 _ _ _ (4 : Fin 5) k j (ix3 (0 : Fin 1) k j) (by show 4 = 4 + 0; rfl) (by show k.val = 0 + k.val; omega) (by show j.val = 0 + j.val; omega)
theorem idx_r28 (j : Fin 128) : r0_28.idx (ix3 (0 : Fin 1) (0 : Fin 1) j) = (ix3 (4 : Fin 5) (0 : Fin 1) j) :=
  unit_idx3 _ _ _ (4 : Fin 5) (0 : Fin 1) j (ix3 (0 : Fin 1) (0 : Fin 1) j) (by show 4 = 4 + 0; rfl) (by show 0 = 0 + 0; rfl) (by show j.val = 0 + j.val; omega)
theorem idx_r29 (j : Fin 128) : r0_29.idx (ix2 (0 : Fin 1) j) = (ix2 (4 : Fin 5) j) :=
  unit_idx2 _ _ _ (4 : Fin 5) j (ix2 (0 : Fin 1) j) (by show 4 = 4 + 0; rfl) (by show j.val = 0 + j.val; omega)
theorem idx_r30 (k : Fin 128) : r0_30.idx (ix3 (0 : Fin 1) k (0 : Fin 1)) = (ix3 (4 : Fin 5) k (0 : Fin 1)) :=
  unit_idx3 _ _ _ (4 : Fin 5) k (0 : Fin 1) (ix3 (0 : Fin 1) k (0 : Fin 1)) (by show 4 = 4 + 0; rfl) (by show k.val = 0 + k.val; omega) (by show 0 = 0 + 0; rfl)
theorem idx_r31  : r0_31.idx (ix3 (0 : Fin 1) (0 : Fin 1) (0 : Fin 1)) = (ix3 (4 : Fin 5) (0 : Fin 1) (0 : Fin 1)) :=
  unit_idx3 _ _ _ (4 : Fin 5) (0 : Fin 1) (0 : Fin 1) (ix3 (0 : Fin 1) (0 : Fin 1) (0 : Fin 1)) (by show 4 = 4 + 0; rfl) (by show 0 = 0 + 0; rfl) (by show 0 = 0 + 0; rfl)
theorem idx_r32  : r0_32.idx (ix2 (0 : Fin 1) (0 : Fin 1)) = (ix2 (4 : Fin 5) (0 : Fin 1)) :=
  unit_idx2 _ _ _ (4 : Fin 5) (0 : Fin 1) (ix2 (0 : Fin 1) (0 : Fin 1)) (by show 4 = 4 + 0; rfl) (by show 0 = 0 + 0; rfl)

/-! ## The stored column -/

/-- Row p of the column the body stores is the row result of row p of the input block, under the block's parameters. -/
theorem body_row (x0 : Vec Ideal S2048x129 .f32) (x1 : Vec Ideal S128x640 .bf16) (x2 : Vec Ideal S1x640 .bf16) (x3 : Vec Ideal S1x640 .f32)
    (x4 : Vec Ideal S5x128x128 .bf16) (x5 : Vec Ideal S5x1x128 .bf16) (x6 : Vec Ideal S5x128 .f32)
    (x7 : Vec Ideal S5x128x1 .bf16) (x8 : Vec Ideal S5x1x1 .bf16) (x9 : Vec Ideal S5x1 .f32) (p : Fin 2048) :
    out0_10 (F := Ideal) x0 x1 x2 x3 x4 x5 x6 x7 x8 x9 (ix2 p (0 : Fin 1))
      = rowOut (x0 (ix2 p (0 : Fin 129))) (fun k => x0 (ix2 p (featCol k)))
          (fun e k j => x1 (ix2 k (col e j))) (fun e j => x2 (ix2 (0 : Fin 1) (col e j))) (fun e j => x3 (ix2 (0 : Fin 1) (col e j)))
          (fun e k j => x4 (ix3 e k j)) (fun e j => x5 (ix3 e (0 : Fin 1) j)) (fun e j => x6 (ix2 e j))
          (fun e k => x7 (ix3 e k (0 : Fin 1))) (fun e => x8 (ix3 e (0 : Fin 1) (0 : Fin 1))) (fun e => x9 (ix2 e (0 : Fin 1))) := by
  unfold out0_10
  rw [View.canon_unit_zero hz2]
  simp only [k0_pay1_apply, pay2_apply, pay3_apply, pay4_apply, pay5_apply, k0_pay6_apply, pay7_apply, pay8_apply, k0_pay9_apply, pay10_apply, k0_pay11_apply, pay12_apply, pay13_apply, k0_pay14_apply, pay15_apply, pay16_apply,
    View.ld_unit_zero (S := S2048x129) hz2, View.ld_unit_zero (S := S128x640) hz2, View.ld_unit_zero (S := S1x640) hz2]
  simp only [View.ld, idx_r3, idx_r4, idx_r5, idx_r6, idx_r7, idx_r8, idx_r9, idx_r10, idx_r11, idx_r12, idx_r13, idx_r14, idx_r15, idx_r16, idx_r17, idx_r18, idx_r19, idx_r20, idx_r21, idx_r22, idx_r23, idx_r24, idx_r25, idx_r26, idx_r27, idx_r28, idx_r29, idx_r30, idx_r31, idx_r32]
  rfl

end Cert.Routed.Kernel

end
-- ==== Proof.KArrays.lean ====
/-
  The parameter arrays as the region finds them. Before the region the host lays the five first-layer weight matrices
  side by side (expert e's column j becomes column e · 128 + j of a [128, 640] matrix), does the same with the first
  layer's treatment weights and biases (rows of 640), and changes the float format of the other weight arrays, which at
  exact arithmetic changes nothing. Each lemma reads one of those arrays at an index in terms of the argument it came
  from.
-/
import proofs.«175108_j54133767799373_2_alg».proof.Proof.Gen.KernelIdeal.Frame
import proofs.«175108_j54133767799373_2_alg».proof.Proof.Layout
import Idealize.ShloMosaic.Lib.StableHlo.Run
import Idealize.ShloMosaic.Lib.Pipeline.Value
import Idealize.ShloMosaic.Lib.ValueIdx
import Idealize.ShloMosaic.PureOps.Ideal

noncomputable section

namespace Cert.Routed.Kernel

open Cert.KernelIdeal Cert.KernelIdeal.Gen Idealize.ShloMosaic Idealize.ShloMosaic.TcCoe Idealize.SL.Sem
open Idealize.ShloMosaic.StableHlo Idealize.ShloMosaic.ValueIdx Cert.Routed

variable (m : (ℓ : Loc nD τ sig) → Buf (Elt Ideal) ℓ) (c : Dev nD)

/-! ## The first layers side by side -/

theorem V_v2_eq : (V m c main_v2 : S128x640.Idx → EReal)
    = (truncf .bf16 (shapeCast S128x640 (transpose S128x5x128 [1, 0, 2] (m ((c : Thread nD τ).loc main_arg1)) transposes_S5x128x128_S128x5x128_1_0_2)
        shapeCasts_S128x5x128_S128x640) bitsLt_bf16_f32 : FVec Ideal S128x640 .bf16) := by
  dsimp only [V, hostOps0]; after_results; rfl

/-- Entry (k, e · 128 + j) of the side-by-side weights is entry (e, k, j) of the first layers' weights. -/
theorem V_v2_apply (e : Fin 5) (k j : Fin 128) :
    (V m c main_v2 : S128x640.Idx → EReal) (ix2 k (col e j)) = ((m ((c : Thread nD τ).loc main_arg1)) : S5x128x128.Idx → EReal) (ix3 e k j) := by
  rw [V_v2_eq, truncf_apply]
  rw [shapeCast_apply _ shapeCasts_S128x5x128_S128x640 (ix2 k (col e j)) (ix3 k e j) (by
    rw [Shape.rowMajor_val_three, Shape.rowMajor_val_two]
    show (k.val * 5 + e.val) * 128 + j.val = k.val * 640 + (e.val * 128 + j.val); omega)]
  exact transpose_apply [1, 0, 2] _ transposes_S5x128x128_S128x5x128_1_0_2 (ix3 k e j) (ix3 e k j) (fun b => by
    match b with
    | ⟨0, _⟩ => rfl
    | ⟨1, _⟩ => rfl
    | ⟨2, _⟩ => rfl)

theorem V_v5_eq : (V m c main_v5 : S1x640.Idx → EReal)
    = (truncf .bf16 (shapeCast S1x640 (shapeCast S5x128 (m ((c : Thread nD τ).loc main_arg2)) shapeCasts_S5x1x128_S5x128) shapeCasts_S5x128_S1x640)
        bitsLt_bf16_f32 : FVec Ideal S1x640 .bf16) := by
  dsimp only [V, hostOps0]; after_results; rfl

/-- Entry (0, e · 128 + j) of the side-by-side treatment weights is entry (e, 0, j) of the first layers'. -/
theorem V_v5_apply (e : Fin 5) (j : Fin 128) :
    (V m c main_v5 : S1x640.Idx → EReal) (ix2 (0 : Fin 1) (col e j)) = ((m ((c : Thread nD τ).loc main_arg2)) : S5x1x128.Idx → EReal) (ix3 e (0 : Fin 1) j) := by
  rw [V_v5_eq, truncf_apply]
  rw [shapeCast_apply _ shapeCasts_S5x128_S1x640 (ix2 (0 : Fin 1) (col e j)) (ix2 e j) (by
    rw [Shape.rowMajor_val_two, Shape.rowMajor_val_two]
    show e.val * 128 + j.val = 0 * 640 + (e.val * 128 + j.val); omega)]
  exact shapeCast_apply _ shapeCasts_S5x1x128_S5x128 (ix2 e j) (ix3 e (0 : Fin 1) j) (by
    rw [Shape.rowMajor_val_three, Shape.rowMajor_val_two]
    show (e.val * 1 + 0) * 128 + j.val = e.val * 128 + j.val; omega)

theorem V_v6_eq : (V m c main_v6 : S1x640.Idx → EReal)
    = (shapeCast S1x640 (m ((c : Thread nD τ).loc main_arg3)) shapeCasts_S5x128_S1x640 : FVec Ideal S1x640 .f32) := by
  dsimp only [V, hostOps0]; after_results; rfl

/-- Entry (0, e · 128 + j) of the side-by-side biases is entry (e, j) of the first layers'. -/
theorem V_v6_apply (e : Fin 5) (j : Fin 128) :
    (V m c main_v6 : S1x640.Idx → EReal) (ix2 (0 : Fin 1) (col e j)) = ((m ((c : Thread nD τ).loc main_arg3)) : S5x128.Idx → EReal) (ix2 e j) := by
  rw [V_v6_eq]
  exact shapeCast_apply _ shapeCasts_S5x128_S1x640 (ix2 (0 : Fin 1) (col e j)) (ix2 e j) (by
    rw [Shape.rowMajor_val_two, Shape.rowMajor_val_two]
    show e.val * 128 + j.val = 0 * 640 + (e.val * 128 + j.val); omega)

/-! ## The arrays whose float format alone changes -/

theorem V_v7_eq : (V m c main_v7 : S5x128x128.Idx → EReal) = ((m ((c : Thread nD τ).loc main_arg4)) : S5x128x128.Idx → EReal) := by
  dsimp only [V, hostOps0]; after_results; rfl

theorem V_v8_eq : (V m c main_v8 : S5x1x128.Idx → EReal) = ((m ((c : Thread nD τ).loc main_arg5)) : S5x1x128.Idx → EReal) := by
  dsimp only [V, hostOps0]; after_results; rfl

theorem V_v9_eq : (V m c main_v9 : S5x128x1.Idx → EReal) = ((m ((c : Thread nD τ).loc main_arg7)) : S5x128x1.Idx → EReal) := by
  dsimp only [V, hostOps0]; after_results; rfl

theorem V_v10_eq : (V m c main_v10 : S5x1x1.Idx → EReal) = ((m ((c : Thread nD τ).loc main_arg8)) : S5x1x1.Idx → EReal) := by
  dsimp only [V, hostOps0]; after_results; rfl

end Cert.Routed.Kernel

end
-- ==== Proof.KBlocks.lean ====
/-
  From blocks to the array. The grid has 128 points; point t takes rows 2048 · t … 2048 · t + 2047 of the input and
  writes the same rows of the one-column result, and every parameter array is one block, the same at every point. So
  what point t writes back is block t of the specification's array, the 128 blocks cover all 262144 rows, and the
  array the run leaves is the specification's.
-/
import proofs.«175108_j54133767799373_2_alg».proof.Proof.Gen.KernelIdeal.Value
import proofs.«175108_j54133767799373_2_alg».proof.Proof.KBody
import proofs.«175108_j54133767799373_2_alg».proof.Proof.KArrays

set_option maxRecDepth 16384

noncomputable section

namespace Cert.Routed.Kernel

open Cert.KernelIdeal Cert.KernelIdeal.Gen Idealize.ShloMosaic Idealize.ShloMosaic.TcCoe Idealize.SL.Sem
open Idealize.ShloMosaic.Pipeline (Dat)
open Idealize.ShloMosaic.ValueIdx Cert.Routed

variable (m : (ℓ : Loc nD τ sig) → Buf (Elt Ideal) ℓ) (ρ : Dev nD → PrngReg)

/-- The printed index maps, decided over the grid: the input block and the output block of point t are block t along
    the rows, and every parameter window stays at block 0. -/
theorem idx_facts : ∀ t : Fin cfg0.N,
    win0_0.index t (0 : Fin 2) = t.val ∧ win0_0.index t (1 : Fin 2) = 0
    ∧ win0_10.index t (0 : Fin 2) = t.val ∧ win0_10.index t (1 : Fin 2) = 0
    ∧ (∀ a : Fin 2, win0_1.index t a = 0) ∧ (∀ a : Fin 2, win0_2.index t a = 0) ∧ (∀ a : Fin 2, win0_3.index t a = 0)
    ∧ (∀ a : Fin 3, win0_4.index t a = 0) ∧ (∀ a : Fin 3, win0_5.index t a = 0) ∧ (∀ a : Fin 2, win0_6.index t a = 0)
    ∧ (∀ a : Fin 3, win0_7.index t a = 0) ∧ (∀ a : Fin 3, win0_8.index t a = 0) ∧ (∀ a : Fin 2, win0_9.index t a = 0) :=
  (by decide +kernel : ∀ t : Fin grid0.N, _)

/-! ## The input blocks of point t -/

/-- Entry (p, cc) of the input block at point t is entry (2048 · t + p, cc) of the input. -/
theorem blk_x (c : Dev nD) (t : Fin cfg0.N) (p : Fin 2048) (r : Fin 262144) (hr : r.val = t.val * 2048 + p.val) (cc : Fin 129) :
    (iblk m c 0 t : Vec Ideal S2048x129 .f32) (ix2 p cc) = (m ((c : Thread nD τ).loc main_arg0) : S262144x129.Idx → EReal) (ix2 r cc) := by
  obtain ⟨f0a, f0b, f10a, f10b, h1, h2, h3, h4, h5, h6, h7, h8, h9⟩ := idx_facts t
  unfold iblk
  rw [View.read_apply]
  show (V m c main_arg0 : S262144x129.Idx → EReal) _ = _
  rw [V_main_arg0]
  refine congrArg (m ((c : Thread nD τ).loc main_arg0) : S262144x129.Idx → EReal) (funext fun a => Fin.ext ?_)
  match a with
  | ⟨0, _⟩ => show win0_0.index t (0 : Fin 2) * 2048 + 1 * p.val = r.val; rw [f0a, hr]; omega
  | ⟨1, _⟩ => show win0_0.index t (1 : Fin 2) * 129 + 1 * cc.val = cc.val; rw [f0b]; omega

theorem iblk1_raw (c : Dev nD) (t : Fin cfg0.N) (y : S128x640.Idx) :
    (iblk m c 1 t : Vec Ideal S128x640 .bf16) y = (V m c main_v2 : S128x640.Idx → EReal) y := by
  obtain ⟨f0a, f0b, f10a, f10b, h1, h2, h3, h4, h5, h6, h7, h8, h9⟩ := idx_facts t
  unfold iblk
  rw [View.read_apply]
  show (V m c main_v2 : S128x640.Idx → EReal) _ = _
  refine congrArg (V m c main_v2 : S128x640.Idx → EReal) (funext fun a => Fin.ext ?_)
  match a with
    | ⟨0, _⟩ => show win0_1.index t (0 : Fin 2) * 128 + 1 * (y 0).val = (y 0).val; rw [h1 0]; omega
    | ⟨1, _⟩ => show win0_1.index t (1 : Fin 2) * 640 + 1 * (y 1).val = (y 1).val; rw [h1 1]; omega

theorem iblk2_raw (c : Dev nD) (t : Fin cfg0.N) (y : S1x640.Idx) :
    (iblk m c 2 t : Vec Ideal S1x640 .bf16) y = (V m c main_v5 : S1x640.Idx → EReal) y := by
  obtain ⟨f0a, f0b, f10a, f10b, h1, h2, h3, h4, h5, h6, h7, h8, h9⟩ := idx_facts t
  unfold iblk
  rw [View.read_apply]
  show (V m c main_v5 : S1x640.Idx → EReal) _ = _
  refine congrArg (V m c main_v5 : S1x640.Idx → EReal) (funext fun a => Fin.ext ?_)
  match a with
    | ⟨0, _⟩ => show win0_2.index t (0 : Fin 2) * 1 + 1 * (y 0).val = (y 0).val; rw [h2 0]; omega
    | ⟨1, _⟩ => show win0_2.index t (1 : Fin 2) * 640 + 1 * (y 1).val = (y 1).val; rw [h2 1]; omega

theorem iblk3_raw (c : Dev nD) (t : Fin cfg0.N) (y : S1x640.Idx) :
    (iblk m c 3 t : Vec Ideal S1x640 .f32) y = (V m c main_v6 : S1x640.Idx → EReal) y := by
  obtain ⟨f0a, f0b, f10a, f10b, h1, h2, h3, h4, h5, h6, h7, h8, h9⟩ := idx_facts t
  unfold iblk
  rw [View.read_apply]
  show (V m c main_v6 : S1x640.Idx → EReal) _ = _
  refine congrArg (V m c main_v6 : S1x640.Idx → EReal) (funext fun a => Fin.ext ?_)
  match a with
    | ⟨0, _⟩ => show win0_3.index t (0 : Fin 2) * 1 + 1 * (y 0).val = (y 0).val; rw [h3 0]; omega
    | ⟨1, _⟩ => show win0_3.index t (1 : Fin 2) * 640 + 1 * (y 1).val = (y 1).val; rw [h3 1]; omega

theorem iblk4_raw (c : Dev nD) (t : Fin cfg0.N) (y : S5x128x128.Idx) :
    (iblk m c 4 t : Vec Ideal S5x128x128 .bf16) y = (V m c main_v7 : S5x128x128.Idx → EReal) y := by
  obtain ⟨f0a, f0b, f10a, f10b, h1, h2, h3, h4, h5, h6, h7, h8, h9⟩ := idx_facts t
  unfold iblk
  rw [View.read_apply]
  show (V m c main_v7 : S5x128x128.Idx → EReal) _ = _
  refine congrArg (V m c main_v7 : S5x128x128.Idx → EReal) (funext fun a => Fin.ext ?_)
  match a with
    | ⟨0, _⟩ => show win0_4.index t (0 : Fin 3) * 5 + 1 * (y 0).val = (y 0).val; rw [h4 0]; omega
    | ⟨1, _⟩ => show win0_4.index t (1 : Fin 3) * 128 + 1 * (y 1).val = (y 1).val; rw [h4 1]; omega
    | ⟨2, _⟩ => show win0_4.index t (2 : Fin 3) * 128 + 1 * (y 2).val = (y 2).val; rw [h4 2]; omega

theorem iblk5_raw (c : Dev nD) (t : Fin cfg0.N) (y : S5x1x128.Idx) :
    (iblk m c 5 t : Vec Ideal S5x1x128 .bf16) y = (V m c main_v8 : S5x1x128.Idx → EReal) y := by
  obtain ⟨f0a, f0b, f10a, f10b, h1, h2, h3, h4, h5, h6, h7, h8, h9⟩ := idx_facts t
  unfold iblk
  rw [View.read_apply]
  show (V m c main_v8 : S5x1x128.Idx → EReal) _ = _
  refine congrArg (V m c main_v8 : S5x1x128.Idx → EReal) (funext fun a => Fin.ext ?_)
  match a with
    | ⟨0, _⟩ => show win0_5.index t (0 : Fin 3) * 5 + 1 * (y 0).val = (y 0).val; rw [h5 0]; omega
    | ⟨1, _⟩ => show win0_5.index t (1 : Fin 3) * 1 + 1 * (y 1).val = (y 1).val; rw [h5 1]; omega
    | ⟨2, _⟩ => show win0_5.index t (2 : Fin 3) * 128 + 1 * (y 2).val = (y 2).val; rw [h5 2]; omega

theorem iblk6_raw (c : Dev nD) (t : Fin cfg0.N) (y : S5x128.Idx) :
    (iblk m c 6 t : Vec Ideal S5x128 .f32) y = (V m c main_arg6 : S5x128.Idx → EReal) y := by
  obtain ⟨f0a, f0b, f10a, f10b, h1, h2, h3, h4, h5, h6, h7, h8, h9⟩ := idx_facts t
  unfold iblk
  rw [View.read_apply]
  show (V m c main_arg6 : S5x128.Idx → EReal) _ = _
  refine congrArg (V m c main_arg6 : S5x128.Idx → EReal) (funext fun a => Fin.ext ?_)
  match a with
    | ⟨0, _⟩ => show win0_6.index t (0 : Fin 2) * 5 + 1 * (y 0).val = (y 0).val; rw [h6 0]; omega
    | ⟨1, _⟩ => show win0_6.index t (1 : Fin 2) * 128 + 1 * (y 1).val = (y 1).val; rw [h6 1]; omega

theorem iblk7_raw (c : Dev nD) (t : Fin cfg0.N) (y : S5x128x1.Idx) :
    (iblk m c 7 t : Vec Ideal S5x128x1 .bf16) y = (V m c main_v9 : S5x128x1.Idx → EReal) y := by
  obtain ⟨f0a, f0b, f10a, f10b, h1, h2, h3, h4, h5, h6, h7, h8, h9⟩ := idx_facts t
  unfold iblk
  rw [View.read_apply]
  show (V m c main_v9 : S5x128x1.Idx → EReal) _ = _
  refine congrArg (V m c main_v9 : S5x128x1.Idx → EReal) (funext fun a => Fin.ext ?_)
  match a with
    | ⟨0, _⟩ => show win0_7.index t (0 : Fin 3) * 5 + 1 * (y 0).val = (y 0).val; rw [h7 0]; omega
    | ⟨1, _⟩ => show win0_7.index t (1 : Fin 3) * 128 + 1 * (y 1).val = (y 1).val; rw [h7 1]; omega
    | ⟨2, _⟩ => show win0_7.index t (2 : Fin 3) * 1 + 1 * (y 2).val = (y 2).val; rw [h7 2]; omega

theorem iblk8_raw (c : Dev nD) (t : Fin cfg0.N) (y : S5x1x1.Idx) :
    (iblk m c 8 t : Vec Ideal S5x1x1 .bf16) y = (V m c main_v10 : S5x1x1.Idx → EReal) y := by
  obtain ⟨f0a, f0b, f10a, f10b, h1, h2, h3, h4, h5, h6, h7, h8, h9⟩ := idx_facts t
  unfold iblk
  rw [View.read_apply]
  show (V m c main_v10 : S5x1x1.Idx → EReal) _ = _
  refine congrArg (V m c main_v10 : S5x1x1.Idx → EReal) (funext fun a => Fin.ext ?_)
  match a with
    | ⟨0, _⟩ => show win0_8.index t (0 : Fin 3) * 5 + 1 * (y 0).val = (y 0).val; rw [h8 0]; omega
    | ⟨1, _⟩ => show win0_8.index t (1 : Fin 3) * 1 + 1 * (y 1).val = (y 1).val; rw [h8 1]; omega
    | ⟨2, _⟩ => show win0_8.index t (2 : Fin 3) * 1 + 1 * (y 2).val = (y 2).val; rw [h8 2]; omega

theorem iblk9_raw (c : Dev nD) (t : Fin cfg0.N) (y : S5x1.Idx) :
    (iblk m c 9 t : Vec Ideal S5x1 .f32) y = (V m c main_arg9 : S5x1.Idx → EReal) y := by
  obtain ⟨f0a, f0b, f10a, f10b, h1, h2, h3, h4, h5, h6, h7, h8, h9⟩ := idx_facts t
  unfold iblk
  rw [View.read_apply]
  show (V m c main_arg9 : S5x1.Idx → EReal) _ = _
  refine congrArg (V m c main_arg9 : S5x1.Idx → EReal) (funext fun a => Fin.ext ?_)
  match a with
    | ⟨0, _⟩ => show win0_9.index t (0 : Fin 2) * 5 + 1 * (y 0).val = (y 0).val; rw [h9 0]; omega
    | ⟨1, _⟩ => show win0_9.index t (1 : Fin 2) * 1 + 1 * (y 1).val = (y 1).val; rw [h9 1]; omega

/-- The side-by-side first-layer weights, read as expert e's. -/
theorem blk_w1 (c : Dev nD) (t : Fin cfg0.N) (e : Fin 5) (k j : Fin 128) :
    (iblk m c 1 t : Vec Ideal S128x640 .bf16) (ix2 k (col e j)) = (m ((c : Thread nD τ).loc main_arg1) : S5x128x128.Idx → EReal) (ix3 e k j) :=
  (iblk1_raw m c t _).trans (V_v2_apply m c e k j)

theorem blk_t1 (c : Dev nD) (t : Fin cfg0.N) (e : Fin 5) (j : Fin 128) :
    (iblk m c 2 t : Vec Ideal S1x640 .bf16) (ix2 (0 : Fin 1) (col e j)) = (m ((c : Thread nD τ).loc main_arg2) : S5x1x128.Idx → EReal) (ix3 e (0 : Fin 1) j) :=
  (iblk2_raw m c t _).trans (V_v5_apply m c e j)

theorem blk_b1 (c : Dev nD) (t : Fin cfg0.N) (e : Fin 5) (j : Fin 128) :
    (iblk m c 3 t : Vec Ideal S1x640 .f32) (ix2 (0 : Fin 1) (col e j)) = (m ((c : Thread nD τ).loc main_arg3) : S5x128.Idx → EReal) (ix2 e j) :=
  (iblk3_raw m c t _).trans (V_v6_apply m c e j)

theorem blk_a4 (c : Dev nD) (t : Fin cfg0.N) (y : S5x128x128.Idx) :
    (iblk m c 4 t : Vec Ideal S5x128x128 .bf16) y = (m ((c : Thread nD τ).loc main_arg4) : S5x128x128.Idx → EReal) y :=
  (iblk4_raw m c t y).trans (congrFun (V_v7_eq m c) y)

theorem blk_a5 (c : Dev nD) (t : Fin cfg0.N) (y : S5x1x128.Idx) :
    (iblk m c 5 t : Vec Ideal S5x1x128 .bf16) y = (m ((c : Thread nD τ).loc main_arg5) : S5x1x128.Idx → EReal) y :=
  (iblk5_raw m c t y).trans (congrFun (V_v8_eq m c) y)

theorem blk_a6 (c : Dev nD) (t : Fin cfg0.N) (y : S5x128.Idx) :
    (iblk m c 6 t : Vec Ideal S5x128 .f32) y = (m ((c : Thread nD τ).loc main_arg6) : S5x128.Idx → EReal) y :=
  (iblk6_raw m c t y).trans (congrFun (V_main_arg6 m c) y)

theorem blk_a7 (c : Dev nD) (t : Fin cfg0.N) (y : S5x128x1.Idx) :
    (iblk m c 7 t : Vec Ideal S5x128x1 .bf16) y = (m ((c : Thread nD τ).loc main_arg7) : S5x128x1.Idx → EReal) y :=
  (iblk7_raw m c t y).trans (congrFun (V_v9_eq m c) y)

theorem blk_a8 (c : Dev nD) (t : Fin cfg0.N) (y : S5x1x1.Idx) :
    (iblk m c 8 t : Vec Ideal S5x1x1 .bf16) y = (m ((c : Thread nD τ).loc main_arg8) : S5x1x1.Idx → EReal) y :=
  (iblk8_raw m c t y).trans (congrFun (V_v10_eq m c) y)

theorem blk_a9 (c : Dev nD) (t : Fin cfg0.N) (y : S5x1.Idx) :
    (iblk m c 9 t : Vec Ideal S5x1 .f32) y = (m ((c : Thread nD τ).loc main_arg9) : S5x1.Idx → EReal) y :=
  (iblk9_raw m c t y).trans (congrFun (V_main_arg9 m c) y)

/-! ## What a point writes back, the cover, the array -/

/-- What point t writes back is block t of the specification's array of the arguments. -/
theorem flushed_eq (c : Dev nD) (t : Fin cfg0.N) :
    (dats m 0 c).flushed 10 t = ((cfg0.win 10).blk t).view.read (Elt Ideal) (G (m ((c : Thread nD τ).loc main_arg0) : S262144x129.Idx → EReal) (m ((c : Thread nD τ).loc main_arg1) : S5x128x128.Idx → EReal) (m ((c : Thread nD τ).loc main_arg2) : S5x1x128.Idx → EReal) (m ((c : Thread nD τ).loc main_arg3) : S5x128.Idx → EReal) (m ((c : Thread nD τ).loc main_arg4) : S5x128x128.Idx → EReal) (m ((c : Thread nD τ).loc main_arg5) : S5x1x128.Idx → EReal) (m ((c : Thread nD τ).loc main_arg6) : S5x128.Idx → EReal) (m ((c : Thread nD τ).loc main_arg7) : S5x128x1.Idx → EReal) (m ((c : Thread nD τ).loc main_arg8) : S5x1x1.Idx → EReal) (m ((c : Thread nD τ).loc main_arg9) : S5x1.Idx → EReal) : S262144x1.Idx → EReal) := by
  rw [Cert.KernelIdeal.Value.flushed10]
  obtain ⟨f0a, f0b, f10a, f10b, h1, h2, h3, h4, h5, h6, h7, h8, h9⟩ := idx_facts t
  funext y
  obtain ⟨p, q, rfl⟩ : ∃ (p : Fin 2048) (q : Fin 1), y = ix2 p q := ⟨y 0, y 1, eq_ix2 y⟩
  obtain rfl : q = 0 := Subsingleton.elim _ _
  rw [View.read_apply]
  show out0_10 (iblk m c 0 t) (iblk m c 1 t) (iblk m c 2 t) (iblk m c 3 t) (iblk m c 4 t) (iblk m c 5 t) (iblk m c 6 t) (iblk m c 7 t) (iblk m c 8 t) (iblk m c 9 t) (ix2 p (0 : Fin 1)) = _
  refine (body_row (iblk m c 0 t) (iblk m c 1 t) (iblk m c 2 t) (iblk m c 3 t) (iblk m c 4 t) (iblk m c 5 t) (iblk m c 6 t) (iblk m c 7 t) (iblk m c 8 t) (iblk m c 9 t) p).trans ?_
  have hr : ((((cfg0.win 10).blk t).view.emb (ix2 p (0 : Fin 1)) : S262144x1.Idx) 0).val = t.val * 2048 + p.val := by
    show win0_10.index t (0 : Fin 2) * 2048 + 1 * p.val = _
    rw [f10a]; omega
  unfold G
  simp only [blk_x m c t p _ hr, blk_w1, blk_t1, blk_b1, blk_a4, blk_a5, blk_a6, blk_a7, blk_a8, blk_a9]
  rfl

/-- An index of the result array is in point t's block iff its row is among the block's 2048 rows. -/
theorem mem_blk (t : Fin cfg0.N) (i : S262144x1.Idx) :
    i ∈ ((cfg0.win 10).blk t).view.set ↔ ∀ a : Fin 2, win0_10.index t a * S2048x1.size a ≤ (i a).val ∧ (i a).val < win0_10.index t a * S2048x1.size a + S2048x1.size a := by
  show i ∈ ((View.whole main_v11).slice (win0_10.rect t)).set ↔ _
  rw [View.set_slice_whole, Rect.mem_set_unit]
  exact Iff.rfl

/-- Row r is written by point r / 2048. -/
theorem cover (i : S262144x1.Idx) : ∃ t : Fin cfg0.N, (cfg0.win 10).flush t = true ∧ i ∈ ((cfg0.win 10).blk t).view.set := by
  have hi0 : (i 0).val < 262144 := (i 0).isLt
  have hi1 : (i 1).val < 1 := (i 1).isLt
  have hN : cfg0.N = 128 := N_0
  have hlt : (i 0).val / 2048 < cfg0.N := by rw [hN]; omega
  obtain ⟨f0a, f0b, f10a, f10b, h1, h2, h3, h4, h5, h6, h7, h8, h9⟩ := idx_facts ⟨(i 0).val / 2048, hlt⟩
  have e0 : win0_10.index ⟨(i 0).val / 2048, hlt⟩ (0 : Fin 2) = (i 0).val / 2048 := f10a
  refine ⟨⟨(i 0).val / 2048, hlt⟩, flush0_10 _, ?_⟩
  rw [mem_blk]
  intro a
  match a with
  | ⟨0, _⟩ =>
    show win0_10.index ⟨(i 0).val / 2048, hlt⟩ (0 : Fin 2) * 2048 ≤ (i 0).val ∧ (i 0).val < win0_10.index ⟨(i 0).val / 2048, hlt⟩ (0 : Fin 2) * 2048 + 2048
    rw [e0]; omega
  | ⟨1, _⟩ =>
    show win0_10.index ⟨(i 0).val / 2048, hlt⟩ (1 : Fin 2) * 1 ≤ (i 1).val ∧ (i 1).val < win0_10.index ⟨(i 0).val / 2048, hlt⟩ (1 : Fin 2) * 1 + 1
    rw [f10b]; omega

/-- The result array after the run is the specification's array of the arguments. -/
theorem final (c : Dev nD) : (dats m 0 c).arrAt 10 cfg0.N = (G (m ((c : Thread nD τ).loc main_arg0) : S262144x129.Idx → EReal) (m ((c : Thread nD τ).loc main_arg1) : S5x128x128.Idx → EReal) (m ((c : Thread nD τ).loc main_arg2) : S5x1x128.Idx → EReal) (m ((c : Thread nD τ).loc main_arg3) : S5x128.Idx → EReal) (m ((c : Thread nD τ).loc main_arg4) : S5x128x128.Idx → EReal) (m ((c : Thread nD τ).loc main_arg5) : S5x1x128.Idx → EReal) (m ((c : Thread nD τ).loc main_arg6) : S5x128.Idx → EReal) (m ((c : Thread nD τ).loc main_arg7) : S5x128x1.Idx → EReal) (m ((c : Thread nD τ).loc main_arg8) : S5x1x1.Idx → EReal) (m ((c : Thread nD τ).loc main_arg9) : S5x1.Idx → EReal) : S262144x1.Idx → EReal) :=
  (dats m 0 c).arrAt_eq_of_cover 10 (G (m ((c : Thread nD τ).loc main_arg0) : S262144x129.Idx → EReal) (m ((c : Thread nD τ).loc main_arg1) : S5x128x128.Idx → EReal) (m ((c : Thread nD τ).loc main_arg2) : S5x1x128.Idx → EReal) (m ((c : Thread nD τ).loc main_arg3) : S5x128.Idx → EReal) (m ((c : Thread nD τ).loc main_arg4) : S5x128x128.Idx → EReal) (m ((c : Thread nD τ).loc main_arg5) : S5x1x128.Idx → EReal) (m ((c : Thread nD τ).loc main_arg6) : S5x128.Idx → EReal) (m ((c : Thread nD τ).loc main_arg7) : S5x128x1.Idx → EReal) (m ((c : Thread nD τ).loc main_arg8) : S5x1x1.Idx → EReal) (m ((c : Thread nD τ).loc main_arg9) : S5x1.Idx → EReal) : S262144x1.Idx → EReal) (fun t _ => flushed_eq m c t) cover

/-- The run: it ends, nothing faults, the result array holds the specification's array and the arguments are as
    they were. -/
theorem run : θ_run defs (onTc (τ := τ) (main (F := Ideal))) ⟨m, fun _ => 0, ρ⟩ fun r => ∀ c : Dev nD,
      r.2.mem ((c : Thread nD τ).loc main_v11) = (G (m ((c : Thread nD τ).loc main_arg0) : S262144x129.Idx → EReal) (m ((c : Thread nD τ).loc main_arg1) : S5x128x128.Idx → EReal) (m ((c : Thread nD τ).loc main_arg2) : S5x1x128.Idx → EReal) (m ((c : Thread nD τ).loc main_arg3) : S5x128.Idx → EReal) (m ((c : Thread nD τ).loc main_arg4) : S5x128x128.Idx → EReal) (m ((c : Thread nD τ).loc main_arg5) : S5x1x128.Idx → EReal) (m ((c : Thread nD τ).loc main_arg6) : S5x128.Idx → EReal) (m ((c : Thread nD τ).loc main_arg7) : S5x128x1.Idx → EReal) (m ((c : Thread nD τ).loc main_arg8) : S5x1x1.Idx → EReal) (m ((c : Thread nD τ).loc main_arg9) : S5x1.Idx → EReal) : S262144x1.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.Routed.Kernel

end
-- ==== Proof.RefE0.lean ====
import proofs.«175108_j54133767799373_2_alg».proof.Proof.ReadP
import proofs.«175108_j54133767799373_2_alg».proof.Proof.Spec
import Idealize.ShloMosaic.Lib.ValueIdx
import Idealize.ShloMosaic.PureOps.Ideal.Laws

noncomputable section

namespace Cert.Routed.Ref

open Cert.ReferenceIdeal Cert.ReferenceIdeal.ReadP Idealize.ShloMosaic Idealize.ShloMosaic.ValueIdx Cert.Routed

/-! # Expert 0 of the reference program, stage by stage

Every stage of expert 0 is read at explicit coordinates (row r, column j) and identified with the corresponding
function of the specification. The layout operations (slice, reshape, broadcast) only move indices, so each operand
lemma is an equation between indices, axis by axis. -/

variable (x0 : (⟨S262144x129, .f32⟩ : BufTy).Contents (Elt Ideal)) (x1 : (⟨S5x128x128, .f32⟩ : BufTy).Contents (Elt Ideal))
  (x2 : (⟨S5x1x128, .f32⟩ : BufTy).Contents (Elt Ideal)) (x3 : (⟨S5x128, .f32⟩ : BufTy).Contents (Elt Ideal))
  (x4 : (⟨S5x128x128, .f32⟩ : BufTy).Contents (Elt Ideal)) (x5 : (⟨S5x1x128, .f32⟩ : BufTy).Contents (Elt Ideal))
  (x6 : (⟨S5x128, .f32⟩ : BufTy).Contents (Elt Ideal)) (x7 : (⟨S5x128x1, .f32⟩ : BufTy).Contents (Elt Ideal))
  (x8 : (⟨S5x1x1, .f32⟩ : BufTy).Contents (Elt Ideal)) (x9 : (⟨S5x1, .f32⟩ : BufTy).Contents (Elt Ideal))

/-! ### Layer 1 of expert 0 -/

/-- The weight operand at contraction index k and output column j is the weight array's entry (0, k, j). -/
theorem w1_e0 (r : Fin 262144) (j k : Fin 128) :
    val_main_v9 (F := Ideal) x1 (ridx_main_v10 (ix2 r j) k) = x1 (ix3 (0 : Fin 5) k j) := by
  rw [val_main_v9_apply, val_main_v8_apply]
  exact congrArg x1 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- The feature operand at contraction index k is column 1 + k of the row. -/
theorem f_e0 (r : Fin 262144) (j k : Fin 128) :
    val_main_v1 (F := Ideal) x0 (lidx_main_v10 (ix2 r j) k) = x0 (ix2 r (featCol k)) := by
  rw [val_main_v1_apply]
  exact congrArg x0 (funext fun a => Fin.ext (by
    match a with
    | ⟨0, _⟩ => rfl
    | ⟨1, _⟩ => rfl))

/-- The treatment operand of the one-term product is the row's treatment value. -/
theorem t1_e0 (r : Fin 262144) (j : Fin 128) :
    val_main_v0 (F := Ideal) x0 (lidx_main_v13 (ix2 r j) (0 : Fin 1)) = x0 (ix2 r (0 : Fin 129)) := by
  rw [val_main_v0_apply]
  exact congrArg x0 (funext fun a => Fin.ext (by
    match a with
    | ⟨0, _⟩ => rfl
    | ⟨1, _⟩ => rfl))

/-- The treatment weight operand is the entry (0, 0, j). -/
theorem tw1_e0 (r : Fin 262144) (j : Fin 128) :
    val_main_v12 (F := Ideal) x2 (ridx_main_v13 (ix2 r j) (0 : Fin 1)) = x2 (ix3 (0 : Fin 5) (0 : Fin 1) j) := by
  rw [val_main_v12_apply, val_main_v11_apply]
  exact congrArg x2 (funext fun a => Fin.ext (by
    match a with
    | ⟨0, _⟩ => rfl
    | ⟨1, _⟩ => rfl
    | ⟨2, _⟩ => show (0 * 128 + j.val) % 128 = j.val; omega))

/-- The broadcast bias at (r, j) is the entry (0, j). -/
theorem b1_e0 (r : Fin 262144) (j : Fin 128) :
    val_main_v18 (F := Ideal) x3 (ix2 r j) = x3 (ix2 (0 : Fin 5) j) := by
  rw [val_main_v18_apply, val_main_v17_apply, val_main_v16_apply, val_main_v15_apply]
  exact congrArg x3 (funext fun a => Fin.ext (by
    match a with
    | ⟨0, _⟩ => rfl
    | ⟨1, _⟩ => show j.val % 128 = j.val; omega))

/-- The rectifier's broadcast constant is 0.0 everywhere. -/
theorem z1_e0 (r : Fin 262144) (j : Fin 128) :
    val_main_call0_v0 (F := Ideal) (ix2 r j) = zero := by
  rw [val_main_call0_v0_apply, val_main_call0_cst_apply]; rfl

/-- Layer 1 of expert 0 at row r, column j. -/
theorem hid1_e0 (r : Fin 262144) (j : Fin 128) :
    val_main_v20 (F := Ideal) x0 x1 x2 x3 (ix2 r j) = hid1 (x0 (ix2 r (0 : Fin 129))) (fun k => x0 (ix2 r (featCol k))) (fun e k j => x1 (ix3 e k j)) (fun e j => x2 (ix3 e (0 : Fin 1) j)) (fun e j => x3 (ix2 e j)) (0 : Fin 5) j := by
  rw [val_main_v20_apply, val_main_v19_apply, val_main_v14_apply, val_main_v10_apply, val_main_v13_apply, Fin.sum_univ_one,
    z1_e0, b1_e0, t1_e0, tw1_e0]
  simp only [w1_e0, f_e0]
  rfl

/-! ### Layer 2 of expert 0 -/

/-- The weight operand at contraction index k and output column j is the weight array's entry (0, k, j). -/
theorem w2_e0 (r : Fin 262144) (j k : Fin 128) :
    val_main_v22 (F := Ideal) x4 (ridx_main_v23 (ix2 r j) k) = x4 (ix3 (0 : Fin 5) k j) := by
  rw [val_main_v22_apply, val_main_v21_apply]
  exact congrArg x4 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- The left operand at contraction index k is the first hidden vector's entry k. -/
theorem h1op_e0 (r : Fin 262144) (j k : Fin 128) :
    val_main_v20 (F := Ideal) x0 x1 x2 x3 (lidx_main_v23 (ix2 r j) k) = hid1 (x0 (ix2 r (0 : Fin 129))) (fun k => x0 (ix2 r (featCol k))) (fun e k j => x1 (ix3 e k j)) (fun e j => x2 (ix3 e (0 : Fin 1) j)) (fun e j => x3 (ix2 e j)) (0 : Fin 5) k :=
  (congrArg (val_main_v20 (F := Ideal) x0 x1 x2 x3) (funext fun a => Fin.ext (by
    match a with
    | ⟨0, _⟩ => rfl
    | ⟨1, _⟩ => rfl))).trans (hid1_e0 x0 x1 x2 x3 r k)

/-- The treatment operand of the one-term product is the row's treatment value. -/
theorem t2_e0 (r : Fin 262144) (j : Fin 128) :
    val_main_v0 (F := Ideal) x0 (lidx_main_v26 (ix2 r j) (0 : Fin 1)) = x0 (ix2 r (0 : Fin 129)) := by
  rw [val_main_v0_apply]
  exact congrArg x0 (funext fun a => Fin.ext (by
    match a with
    | ⟨0, _⟩ => rfl
    | ⟨1, _⟩ => rfl))

/-- The treatment weight operand is the entry (0, 0, j). -/
theorem tw2_e0 (r : Fin 262144) (j : Fin 128) :
    val_main_v25 (F := Ideal) x5 (ridx_main_v26 (ix2 r j) (0 : Fin 1)) = x5 (ix3 (0 : Fin 5) (0 : Fin 1) j) := by
  rw [val_main_v25_apply, val_main_v24_apply]
  exact congrArg x5 (funext fun a => Fin.ext (by
    match a with
    | ⟨0, _⟩ => rfl
    | ⟨1, _⟩ => rfl
    | ⟨2, _⟩ => show (0 * 128 + j.val) % 128 = j.val; omega))

/-- The broadcast bias at (r, j) is the entry (0, j). -/
theorem b2_e0 (r : Fin 262144) (j : Fin 128) :
    val_main_v31 (F := Ideal) x6 (ix2 r j) = x6 (ix2 (0 : Fin 5) j) := by
  rw [val_main_v31_apply, val_main_v30_apply, val_main_v29_apply, val_main_v28_apply]
  exact congrArg x6 (funext fun a => Fin.ext (by
    match a with
    | ⟨0, _⟩ => rfl
    | ⟨1, _⟩ => show j.val % 128 = j.val; omega))

/-- The rectifier's broadcast constant is 0.0 everywhere. -/
theorem z2_e0 (r : Fin 262144) (j : Fin 128) :
    val_main_call1_v0 (F := Ideal) (ix2 r j) = zero := by
  rw [val_main_call1_v0_apply, val_main_call1_cst_apply]; rfl

/-- Layer 2 of expert 0 at row r, column j. -/
theorem hid2_e0 (r : Fin 262144) (j : Fin 128) :
    val_main_v33 (F := Ideal) x0 x1 x2 x3 x4 x5 x6 (ix2 r j) = hid2 (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (0 : Fin 5) j := by
  rw [val_main_v33_apply, val_main_v32_apply, val_main_v27_apply, val_main_v23_apply, val_main_v26_apply, Fin.sum_univ_one,
    z2_e0, b2_e0, t2_e0, tw2_e0]
  simp only [w2_e0, h1op_e0]
  rfl

/-! ### Output layer of expert 0 -/

/-- The output weight operand at contraction index k is the entry (0, k, 0). -/
theorem w3_e0 (r : Fin 262144) (k : Fin 128) :
    val_main_v35 (F := Ideal) x7 (ridx_main_v36 (ix2 r (0 : Fin 1)) k) = x7 (ix3 (0 : Fin 5) k (0 : Fin 1)) := by
  rw [val_main_v35_apply, val_main_v34_apply]
  exact congrArg x7 (funext fun a => Fin.ext (by
    match a with
    | ⟨0, _⟩ => rfl
    | ⟨1, _⟩ => show (k.val * 1 + 0) / 1 % 128 = k.val; omega
    | ⟨2, _⟩ => rfl))

/-- The left operand at contraction index k is the second hidden vector's entry k. -/
theorem h2op_e0 (r : Fin 262144) (k : Fin 128) :
    val_main_v33 (F := Ideal) x0 x1 x2 x3 x4 x5 x6 (lidx_main_v36 (ix2 r (0 : Fin 1)) k) = hid2 (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (0 : Fin 5) k :=
  (congrArg (val_main_v33 (F := Ideal) x0 x1 x2 x3 x4 x5 x6) (funext fun a => Fin.ext (by
    match a with
    | ⟨0, _⟩ => rfl
    | ⟨1, _⟩ => rfl))).trans (hid2_e0 x0 x1 x2 x3 x4 x5 x6 r k)

theorem t3_e0 (r : Fin 262144) :
    val_main_v0 (F := Ideal) x0 (lidx_main_v39 (ix2 r (0 : Fin 1)) (0 : Fin 1)) = x0 (ix2 r (0 : Fin 129)) := by
  rw [val_main_v0_apply]
  exact congrArg x0 (funext fun a => Fin.ext (by
    match a with
    | ⟨0, _⟩ => rfl
    | ⟨1, _⟩ => rfl))

theorem tw3_e0 (r : Fin 262144) :
    val_main_v38 (F := Ideal) x8 (ridx_main_v39 (ix2 r (0 : Fin 1)) (0 : Fin 1)) = x8 (ix3 (0 : Fin 5) (0 : Fin 1) (0 : Fin 1)) := by
  rw [val_main_v38_apply, val_main_v37_apply]
  exact congrArg x8 (funext fun a => Fin.ext (by
    match a with
    | ⟨0, _⟩ => rfl
    | ⟨1, _⟩ => rfl
    | ⟨2, _⟩ => rfl))

theorem b3_e0 (r : Fin 262144) :
    val_main_v44 (F := Ideal) x9 (ix2 r (0 : Fin 1)) = x9 (ix2 (0 : Fin 5) (0 : Fin 1)) := by
  rw [val_main_v44_apply, val_main_v43_apply, val_main_v42_apply, val_main_v41_apply]
  exact congrArg x9 (funext fun a => Fin.ext (by
    match a with
    | ⟨0, _⟩ => rfl
    | ⟨1, _⟩ => rfl))

/-- Expert 0's output at row r. -/
theorem outE_e0 (r : Fin 262144) :
    val_main_v45 (F := Ideal) x0 x1 x2 x3 x4 x5 x6 x7 x8 x9 (ix2 r (0 : Fin 1)) = outE (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (fun e k => x7 (ix3 e k (0 : Fin 1))) (fun e => x8 (ix3 e (0 : Fin 1) (0 : Fin 1))) (fun e => x9 (ix2 e (0 : Fin 1))) (0 : Fin 5) := by
  rw [val_main_v45_apply, val_main_v40_apply, val_main_v36_apply, val_main_v39_apply, Fin.sum_univ_one,
    b3_e0, t3_e0, tw3_e0]
  simp only [w3_e0, h2op_e0]
  rfl

/-! ### Routing of expert 0 -/

/-- The mask at row r is the routing test on the row's treatment value. -/
theorem gate_e0 (r : Fin 262144) :
    val_main_v7 (F := Ideal) x0 (ix2 r (0 : Fin 1)) = gate 0x00000000#32 0x3E4CCCCD#32 (x0 (ix2 r (0 : Fin 129))) := by
  rw [val_main_v7_apply, val_main_v4_apply, val_main_v6_apply, val_main_v3_apply, val_main_v5_apply, val_main_cst_0_apply, val_main_cst_1_apply,
    val_main_v0_apply]
  rw [show idx_main_v0 (ix2 r (0 : Fin 1)) = ix2 r (0 : Fin 129) from (funext fun a => Fin.ext (by
    match a with
    | ⟨0, _⟩ => rfl
    | ⟨1, _⟩ => rfl))]
  rfl

theorem z3_e0 (r : Fin 262144) :
    val_main_call2_v0 (F := Ideal) (ix2 r (0 : Fin 1)) = zero := by
  rw [val_main_call2_v0_apply, val_main_cst_2_apply]; rfl

/-- Expert 0's routed contribution at row r. -/
theorem contrib_e0 (r : Fin 262144) :
    val_main_v46 (F := Ideal) x0 x1 x2 x3 x4 x5 x6 x7 x8 x9 (ix2 r (0 : Fin 1)) =
      contrib (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (fun e k => x7 (ix3 e k (0 : Fin 1))) (fun e => x8 (ix3 e (0 : Fin 1) (0 : Fin 1))) (fun e => x9 (ix2 e (0 : Fin 1))) 0x00000000#32 0x3E4CCCCD#32 (0 : Fin 5) := by
  rw [val_main_v46_apply, gate_e0, outE_e0, z3_e0]
  rfl

end Cert.Routed.Ref

end
-- ==== Proof.RefE1.lean ====
import proofs.«175108_j54133767799373_2_alg».proof.Proof.ReadP
import proofs.«175108_j54133767799373_2_alg».proof.Proof.Spec
import Idealize.ShloMosaic.Lib.ValueIdx
import Idealize.ShloMosaic.PureOps.Ideal.Laws

noncomputable section

namespace Cert.Routed.Ref

open Cert.ReferenceIdeal Cert.ReferenceIdeal.ReadP Idealize.ShloMosaic Idealize.ShloMosaic.ValueIdx Cert.Routed

/-! # Expert 1 of the reference program, stage by stage

Every stage of expert 1 is read at explicit coordinates (row r, column j) and identified with the corresponding
function of the specification. The layout operations (slice, reshape, broadcast) only move indices, so each operand
lemma is an equation between indices, axis by axis. -/

variable (x0 : (⟨S262144x129, .f32⟩ : BufTy).Contents (Elt Ideal)) (x1 : (⟨S5x128x128, .f32⟩ : BufTy).Contents (Elt Ideal))
  (x2 : (⟨S5x1x128, .f32⟩ : BufTy).Contents (Elt Ideal)) (x3 : (⟨S5x128, .f32⟩ : BufTy).Contents (Elt Ideal))
  (x4 : (⟨S5x128x128, .f32⟩ : BufTy).Contents (Elt Ideal)) (x5 : (⟨S5x1x128, .f32⟩ : BufTy).Contents (Elt Ideal))
  (x6 : (⟨S5x128, .f32⟩ : BufTy).Contents (Elt Ideal)) (x7 : (⟨S5x128x1, .f32⟩ : BufTy).Contents (Elt Ideal))
  (x8 : (⟨S5x1x1, .f32⟩ : BufTy).Contents (Elt Ideal)) (x9 : (⟨S5x1, .f32⟩ : BufTy).Contents (Elt Ideal))

/-! ### Layer 1 of expert 1 -/

/-- The weight operand at contraction index k and output column j is the weight array's entry (1, k, j). -/
theorem w1_e1 (r : Fin 262144) (j k : Fin 128) :
    val_main_v54 (F := Ideal) x1 (ridx_main_v55 (ix2 r j) k) = x1 (ix3 (1 : Fin 5) k j) := by
  rw [val_main_v54_apply, val_main_v53_apply]
  exact congrArg x1 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- The feature operand at contraction index k is column 1 + k of the row. -/
theorem f_e1 (r : Fin 262144) (j k : Fin 128) :
    val_main_v1 (F := Ideal) x0 (lidx_main_v55 (ix2 r j) k) = x0 (ix2 r (featCol k)) := by
  rw [val_main_v1_apply]
  exact congrArg x0 (funext fun a => Fin.ext (by
    match a with
    | ⟨0, _⟩ => rfl
    | ⟨1, _⟩ => rfl))

/-- The treatment operand of the one-term product is the row's treatment value. -/
theorem t1_e1 (r : Fin 262144) (j : Fin 128) :
    val_main_v0 (F := Ideal) x0 (lidx_main_v58 (ix2 r j) (0 : Fin 1)) = x0 (ix2 r (0 : Fin 129)) := by
  rw [val_main_v0_apply]
  exact congrArg x0 (funext fun a => Fin.ext (by
    match a with
    | ⟨0, _⟩ => rfl
    | ⟨1, _⟩ => rfl))

/-- The treatment weight operand is the entry (1, 0, j). -/
theorem tw1_e1 (r : Fin 262144) (j : Fin 128) :
    val_main_v57 (F := Ideal) x2 (ridx_main_v58 (ix2 r j) (0 : Fin 1)) = x2 (ix3 (1 : Fin 5) (0 : Fin 1) j) := by
  rw [val_main_v57_apply, val_main_v56_apply]
  exact congrArg x2 (funext fun a => Fin.ext (by
    match a with
    | ⟨0, _⟩ => rfl
    | ⟨1, _⟩ => rfl
    | ⟨2, _⟩ => show (0 * 128 + j.val) % 128 = j.val; omega))

/-- The broadcast bias at (r, j) is the entry (1, j). -/
theorem b1_e1 (r : Fin 262144) (j : Fin 128) :
    val_main_v63 (F := Ideal) x3 (ix2 r j) = x3 (ix2 (1 : Fin 5) j) := by
  rw [val_main_v63_apply, val_main_v62_apply, val_main_v61_apply, val_main_v60_apply]
  exact congrArg x3 (funext fun a => Fin.ext (by
    match a with
    | ⟨0, _⟩ => rfl
    | ⟨1, _⟩ => show j.val % 128 = j.val; omega))

/-- The rectifier's broadcast constant is 0.0 everywhere. -/
theorem z1_e1 (r : Fin 262144) (j : Fin 128) :
    val_main_call3_v0 (F := Ideal) (ix2 r j) = zero := by
  rw [val_main_call3_v0_apply, val_main_call3_cst_apply]; rfl

/-- Layer 1 of expert 1 at row r, column j. -/
theorem hid1_e1 (r : Fin 262144) (j : Fin 128) :
    val_main_v65 (F := Ideal) x0 x1 x2 x3 (ix2 r j) = hid1 (x0 (ix2 r (0 : Fin 129))) (fun k => x0 (ix2 r (featCol k))) (fun e k j => x1 (ix3 e k j)) (fun e j => x2 (ix3 e (0 : Fin 1) j)) (fun e j => x3 (ix2 e j)) (1 : Fin 5) j := by
  rw [val_main_v65_apply, val_main_v64_apply, val_main_v59_apply, val_main_v55_apply, val_main_v58_apply, Fin.sum_univ_one,
    z1_e1, b1_e1, t1_e1, tw1_e1]
  simp only [w1_e1, f_e1]
  rfl

/-! ### Layer 2 of expert 1 -/

/-- The weight operand at contraction index k and output column j is the weight array's entry (1, k, j). -/
theorem w2_e1 (r : Fin 262144) (j k : Fin 128) :
    val_main_v67 (F := Ideal) x4 (ridx_main_v68 (ix2 r j) k) = x4 (ix3 (1 : Fin 5) k j) := by
  rw [val_main_v67_apply, val_main_v66_apply]
  exact congrArg x4 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- The left operand at contraction index k is the first hidden vector's entry k. -/
theorem h1op_e1 (r : Fin 262144) (j k : Fin 128) :
    val_main_v65 (F := Ideal) x0 x1 x2 x3 (lidx_main_v68 (ix2 r j) k) = hid1 (x0 (ix2 r (0 : Fin 129))) (fun k => x0 (ix2 r (featCol k))) (fun e k j => x1 (ix3 e k j)) (fun e j => x2 (ix3 e (0 : Fin 1) j)) (fun e j => x3 (ix2 e j)) (1 : Fin 5) k :=
  (congrArg (val_main_v65 (F := Ideal) x0 x1 x2 x3) (funext fun a => Fin.ext (by
    match a with
    | ⟨0, _⟩ => rfl
    | ⟨1, _⟩ => rfl))).trans (hid1_e1 x0 x1 x2 x3 r k)

/-- The treatment operand of the one-term product is the row's treatment value. -/
theorem t2_e1 (r : Fin 262144) (j : Fin 128) :
    val_main_v0 (F := Ideal) x0 (lidx_main_v71 (ix2 r j) (0 : Fin 1)) = x0 (ix2 r (0 : Fin 129)) := by
  rw [val_main_v0_apply]
  exact congrArg x0 (funext fun a => Fin.ext (by
    match a with
    | ⟨0, _⟩ => rfl
    | ⟨1, _⟩ => rfl))

/-- The treatment weight operand is the entry (1, 0, j). -/
theorem tw2_e1 (r : Fin 262144) (j : Fin 128) :
    val_main_v70 (F := Ideal) x5 (ridx_main_v71 (ix2 r j) (0 : Fin 1)) = x5 (ix3 (1 : Fin 5) (0 : Fin 1) j) := by
  rw [val_main_v70_apply, val_main_v69_apply]
  exact congrArg x5 (funext fun a => Fin.ext (by
    match a with
    | ⟨0, _⟩ => rfl
    | ⟨1, _⟩ => rfl
    | ⟨2, _⟩ => show (0 * 128 + j.val) % 128 = j.val; omega))

/-- The broadcast bias at (r, j) is the entry (1, j). -/
theorem b2_e1 (r : Fin 262144) (j : Fin 128) :
    val_main_v76 (F := Ideal) x6 (ix2 r j) = x6 (ix2 (1 : Fin 5) j) := by
  rw [val_main_v76_apply, val_main_v75_apply, val_main_v74_apply, val_main_v73_apply]
  exact congrArg x6 (funext fun a => Fin.ext (by
    match a with
    | ⟨0, _⟩ => rfl
    | ⟨1, _⟩ => show j.val % 128 = j.val; omega))

/-- The rectifier's broadcast constant is 0.0 everywhere. -/
theorem z2_e1 (r : Fin 262144) (j : Fin 128) :
    val_main_call4_v0 (F := Ideal) (ix2 r j) = zero := by
  rw [val_main_call4_v0_apply, val_main_call4_cst_apply]; rfl

/-- Layer 2 of expert 1 at row r, column j. -/
theorem hid2_e1 (r : Fin 262144) (j : Fin 128) :
    val_main_v78 (F := Ideal) x0 x1 x2 x3 x4 x5 x6 (ix2 r j) = hid2 (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (1 : Fin 5) j := by
  rw [val_main_v78_apply, val_main_v77_apply, val_main_v72_apply, val_main_v68_apply, val_main_v71_apply, Fin.sum_univ_one,
    z2_e1, b2_e1, t2_e1, tw2_e1]
  simp only [w2_e1, h1op_e1]
  rfl

/-! ### Output layer of expert 1 -/

/-- The output weight operand at contraction index k is the entry (1, k, 0). -/
theorem w3_e1 (r : Fin 262144) (k : Fin 128) :
    val_main_v80 (F := Ideal) x7 (ridx_main_v81 (ix2 r (0 : Fin 1)) k) = x7 (ix3 (1 : Fin 5) k (0 : Fin 1)) := by
  rw [val_main_v80_apply, val_main_v79_apply]
  exact congrArg x7 (funext fun a => Fin.ext (by
    match a with
    | ⟨0, _⟩ => rfl
    | ⟨1, _⟩ => show (k.val * 1 + 0) / 1 % 128 = k.val; omega
    | ⟨2, _⟩ => rfl))

/-- The left operand at contraction index k is the second hidden vector's entry k. -/
theorem h2op_e1 (r : Fin 262144) (k : Fin 128) :
    val_main_v78 (F := Ideal) x0 x1 x2 x3 x4 x5 x6 (lidx_main_v81 (ix2 r (0 : Fin 1)) k) = hid2 (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (1 : Fin 5) k :=
  (congrArg (val_main_v78 (F := Ideal) x0 x1 x2 x3 x4 x5 x6) (funext fun a => Fin.ext (by
    match a with
    | ⟨0, _⟩ => rfl
    | ⟨1, _⟩ => rfl))).trans (hid2_e1 x0 x1 x2 x3 x4 x5 x6 r k)

theorem t3_e1 (r : Fin 262144) :
    val_main_v0 (F := Ideal) x0 (lidx_main_v84 (ix2 r (0 : Fin 1)) (0 : Fin 1)) = x0 (ix2 r (0 : Fin 129)) := by
  rw [val_main_v0_apply]
  exact congrArg x0 (funext fun a => Fin.ext (by
    match a with
    | ⟨0, _⟩ => rfl
    | ⟨1, _⟩ => rfl))

theorem tw3_e1 (r : Fin 262144) :
    val_main_v83 (F := Ideal) x8 (ridx_main_v84 (ix2 r (0 : Fin 1)) (0 : Fin 1)) = x8 (ix3 (1 : Fin 5) (0 : Fin 1) (0 : Fin 1)) := by
  rw [val_main_v83_apply, val_main_v82_apply]
  exact congrArg x8 (funext fun a => Fin.ext (by
    match a with
    | ⟨0, _⟩ => rfl
    | ⟨1, _⟩ => rfl
    | ⟨2, _⟩ => rfl))

theorem b3_e1 (r : Fin 262144) :
    val_main_v89 (F := Ideal) x9 (ix2 r (0 : Fin 1)) = x9 (ix2 (1 : Fin 5) (0 : Fin 1)) := by
  rw [val_main_v89_apply, val_main_v88_apply, val_main_v87_apply, val_main_v86_apply]
  exact congrArg x9 (funext fun a => Fin.ext (by
    match a with
    | ⟨0, _⟩ => rfl
    | ⟨1, _⟩ => rfl))

/-- Expert 1's output at row r. -/
theorem outE_e1 (r : Fin 262144) :
    val_main_v90 (F := Ideal) x0 x1 x2 x3 x4 x5 x6 x7 x8 x9 (ix2 r (0 : Fin 1)) = outE (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (fun e k => x7 (ix3 e k (0 : Fin 1))) (fun e => x8 (ix3 e (0 : Fin 1) (0 : Fin 1))) (fun e => x9 (ix2 e (0 : Fin 1))) (1 : Fin 5) := by
  rw [val_main_v90_apply, val_main_v85_apply, val_main_v81_apply, val_main_v84_apply, Fin.sum_univ_one,
    b3_e1, t3_e1, tw3_e1]
  simp only [w3_e1, h2op_e1]
  rfl

/-! ### Routing of expert 1 -/

/-- The mask at row r is the routing test on the row's treatment value. -/
theorem gate_e1 (r : Fin 262144) :
    val_main_v52 (F := Ideal) x0 (ix2 r (0 : Fin 1)) = gate 0x3E4CCCCD#32 0x3ECCCCCD#32 (x0 (ix2 r (0 : Fin 129))) := by
  rw [val_main_v52_apply, val_main_v49_apply, val_main_v51_apply, val_main_v48_apply, val_main_v50_apply, val_main_cst_3_apply, val_main_cst_4_apply,
    val_main_v0_apply]
  rw [show idx_main_v0 (ix2 r (0 : Fin 1)) = ix2 r (0 : Fin 129) from (funext fun a => Fin.ext (by
    match a with
    | ⟨0, _⟩ => rfl
    | ⟨1, _⟩ => rfl))]
  rfl

theorem z3_e1 (r : Fin 262144) :
    val_main_call5_v0 (F := Ideal) (ix2 r (0 : Fin 1)) = zero := by
  rw [val_main_call5_v0_apply, val_main_cst_5_apply]; rfl

/-- Expert 1's routed contribution at row r. -/
theorem contrib_e1 (r : Fin 262144) :
    val_main_v91 (F := Ideal) x0 x1 x2 x3 x4 x5 x6 x7 x8 x9 (ix2 r (0 : Fin 1)) =
      contrib (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (fun e k => x7 (ix3 e k (0 : Fin 1))) (fun e => x8 (ix3 e (0 : Fin 1) (0 : Fin 1))) (fun e => x9 (ix2 e (0 : Fin 1))) 0x3E4CCCCD#32 0x3ECCCCCD#32 (1 : Fin 5) := by
  rw [val_main_v91_apply, gate_e1, outE_e1, z3_e1]
  rfl

end Cert.Routed.Ref

end
-- ==== Proof.RefE2.lean ====
import proofs.«175108_j54133767799373_2_alg».proof.Proof.ReadP
import proofs.«175108_j54133767799373_2_alg».proof.Proof.Spec
import Idealize.ShloMosaic.Lib.ValueIdx
import Idealize.ShloMosaic.PureOps.Ideal.Laws

noncomputable section

namespace Cert.Routed.Ref

open Cert.ReferenceIdeal Cert.ReferenceIdeal.ReadP Idealize.ShloMosaic Idealize.ShloMosaic.ValueIdx Cert.Routed

/-! # Expert 2 of the reference program, stage by stage

Every stage of expert 2 is read at explicit coordinates (row r, column j) and identified with the corresponding
function of the specification. The layout operations (slice, reshape, broadcast) only move indices, so each operand
lemma is an equation between indices, axis by axis. -/

variable (x0 : (⟨S262144x129, .f32⟩ : BufTy).Contents (Elt Ideal)) (x1 : (⟨S5x128x128, .f32⟩ : BufTy).Contents (Elt Ideal))
  (x2 : (⟨S5x1x128, .f32⟩ : BufTy).Contents (Elt Ideal)) (x3 : (⟨S5x128, .f32⟩ : BufTy).Contents (Elt Ideal))
  (x4 : (⟨S5x128x128, .f32⟩ : BufTy).Contents (Elt Ideal)) (x5 : (⟨S5x1x128, .f32⟩ : BufTy).Contents (Elt Ideal))
  (x6 : (⟨S5x128, .f32⟩ : BufTy).Contents (Elt Ideal)) (x7 : (⟨S5x128x1, .f32⟩ : BufTy).Contents (Elt Ideal))
  (x8 : (⟨S5x1x1, .f32⟩ : BufTy).Contents (Elt Ideal)) (x9 : (⟨S5x1, .f32⟩ : BufTy).Contents (Elt Ideal))

/-! ### Layer 1 of expert 2 -/

/-- The weight operand at contraction index k and output column j is the weight array's entry (2, k, j). -/
theorem w1_e2 (r : Fin 262144) (j k : Fin 128) :
    val_main_v99 (F := Ideal) x1 (ridx_main_v100 (ix2 r j) k) = x1 (ix3 (2 : Fin 5) k j) := by
  rw [val_main_v99_apply, val_main_v98_apply]
  exact congrArg x1 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- The feature operand at contraction index k is column 1 + k of the row. -/
theorem f_e2 (r : Fin 262144) (j k : Fin 128) :
    val_main_v1 (F := Ideal) x0 (lidx_main_v100 (ix2 r j) k) = x0 (ix2 r (featCol k)) := by
  rw [val_main_v1_apply]
  exact congrArg x0 (funext fun a => Fin.ext (by
    match a with
    | ⟨0, _⟩ => rfl
    | ⟨1, _⟩ => rfl))

/-- The treatment operand of the one-term product is the row's treatment value. -/
theorem t1_e2 (r : Fin 262144) (j : Fin 128) :
    val_main_v0 (F := Ideal) x0 (lidx_main_v103 (ix2 r j) (0 : Fin 1)) = x0 (ix2 r (0 : Fin 129)) := by
  rw [val_main_v0_apply]
  exact congrArg x0 (funext fun a => Fin.ext (by
    match a with
    | ⟨0, _⟩ => rfl
    | ⟨1, _⟩ => rfl))

/-- The treatment weight operand is the entry (2, 0, j). -/
theorem tw1_e2 (r : Fin 262144) (j : Fin 128) :
    val_main_v102 (F := Ideal) x2 (ridx_main_v103 (ix2 r j) (0 : Fin 1)) = x2 (ix3 (2 : Fin 5) (0 : Fin 1) j) := by
  rw [val_main_v102_apply, val_main_v101_apply]
  exact congrArg x2 (funext fun a => Fin.ext (by
    match a with
    | ⟨0, _⟩ => rfl
    | ⟨1, _⟩ => rfl
    | ⟨2, _⟩ => show (0 * 128 + j.val) % 128 = j.val; omega))

/-- The broadcast bias at (r, j) is the entry (2, j). -/
theorem b1_e2 (r : Fin 262144) (j : Fin 128) :
    val_main_v108 (F := Ideal) x3 (ix2 r j) = x3 (ix2 (2 : Fin 5) j) := by
  rw [val_main_v108_apply, val_main_v107_apply, val_main_v106_apply, val_main_v105_apply]
  exact congrArg x3 (funext fun a => Fin.ext (by
    match a with
    | ⟨0, _⟩ => rfl
    | ⟨1, _⟩ => show j.val % 128 = j.val; omega))

/-- The rectifier's broadcast constant is 0.0 everywhere. -/
theorem z1_e2 (r : Fin 262144) (j : Fin 128) :
    val_main_call6_v0 (F := Ideal) (ix2 r j) = zero := by
  rw [val_main_call6_v0_apply, val_main_call6_cst_apply]; rfl

/-- Layer 1 of expert 2 at row r, column j. -/
theorem hid1_e2 (r : Fin 262144) (j : Fin 128) :
    val_main_v110 (F := Ideal) x0 x1 x2 x3 (ix2 r j) = hid1 (x0 (ix2 r (0 : Fin 129))) (fun k => x0 (ix2 r (featCol k))) (fun e k j => x1 (ix3 e k j)) (fun e j => x2 (ix3 e (0 : Fin 1) j)) (fun e j => x3 (ix2 e j)) (2 : Fin 5) j := by
  rw [val_main_v110_apply, val_main_v109_apply, val_main_v104_apply, val_main_v100_apply, val_main_v103_apply, Fin.sum_univ_one,
    z1_e2, b1_e2, t1_e2, tw1_e2]
  simp only [w1_e2, f_e2]
  rfl

/-! ### Layer 2 of expert 2 -/

/-- The weight operand at contraction index k and output column j is the weight array's entry (2, k, j). -/
theorem w2_e2 (r : Fin 262144) (j k : Fin 128) :
    val_main_v112 (F := Ideal) x4 (ridx_main_v113 (ix2 r j) k) = x4 (ix3 (2 : Fin 5) k j) := by
  rw [val_main_v112_apply, val_main_v111_apply]
  exact congrArg x4 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- The left operand at contraction index k is the first hidden vector's entry k. -/
theorem h1op_e2 (r : Fin 262144) (j k : Fin 128) :
    val_main_v110 (F := Ideal) x0 x1 x2 x3 (lidx_main_v113 (ix2 r j) k) = hid1 (x0 (ix2 r (0 : Fin 129))) (fun k => x0 (ix2 r (featCol k))) (fun e k j => x1 (ix3 e k j)) (fun e j => x2 (ix3 e (0 : Fin 1) j)) (fun e j => x3 (ix2 e j)) (2 : Fin 5) k :=
  (congrArg (val_main_v110 (F := Ideal) x0 x1 x2 x3) (funext fun a => Fin.ext (by
    match a with
    | ⟨0, _⟩ => rfl
    | ⟨1, _⟩ => rfl))).trans (hid1_e2 x0 x1 x2 x3 r k)

/-- The treatment operand of the one-term product is the row's treatment value. -/
theorem t2_e2 (r : Fin 262144) (j : Fin 128) :
    val_main_v0 (F := Ideal) x0 (lidx_main_v116 (ix2 r j) (0 : Fin 1)) = x0 (ix2 r (0 : Fin 129)) := by
  rw [val_main_v0_apply]
  exact congrArg x0 (funext fun a => Fin.ext (by
    match a with
    | ⟨0, _⟩ => rfl
    | ⟨1, _⟩ => rfl))

/-- The treatment weight operand is the entry (2, 0, j). -/
theorem tw2_e2 (r : Fin 262144) (j : Fin 128) :
    val_main_v115 (F := Ideal) x5 (ridx_main_v116 (ix2 r j) (0 : Fin 1)) = x5 (ix3 (2 : Fin 5) (0 : Fin 1) j) := by
  rw [val_main_v115_apply, val_main_v114_apply]
  exact congrArg x5 (funext fun a => Fin.ext (by
    match a with
    | ⟨0, _⟩ => rfl
    | ⟨1, _⟩ => rfl
    | ⟨2, _⟩ => show (0 * 128 + j.val) % 128 = j.val; omega))

/-- The broadcast bias at (r, j) is the entry (2, j). -/
theorem b2_e2 (r : Fin 262144) (j : Fin 128) :
    val_main_v121 (F := Ideal) x6 (ix2 r j) = x6 (ix2 (2 : Fin 5) j) := by
  rw [val_main_v121_apply, val_main_v120_apply, val_main_v119_apply, val_main_v118_apply]
  exact congrArg x6 (funext fun a => Fin.ext (by
    match a with
    | ⟨0, _⟩ => rfl
    | ⟨1, _⟩ => show j.val % 128 = j.val; omega))

/-- The rectifier's broadcast constant is 0.0 everywhere. -/
theorem z2_e2 (r : Fin 262144) (j : Fin 128) :
    val_main_call7_v0 (F := Ideal) (ix2 r j) = zero := by
  rw [val_main_call7_v0_apply, val_main_call7_cst_apply]; rfl

/-- Layer 2 of expert 2 at row r, column j. -/
theorem hid2_e2 (r : Fin 262144) (j : Fin 128) :
    val_main_v123 (F := Ideal) x0 x1 x2 x3 x4 x5 x6 (ix2 r j) = hid2 (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (2 : Fin 5) j := by
  rw [val_main_v123_apply, val_main_v122_apply, val_main_v117_apply, val_main_v113_apply, val_main_v116_apply, Fin.sum_univ_one,
    z2_e2, b2_e2, t2_e2, tw2_e2]
  simp only [w2_e2, h1op_e2]
  rfl

/-! ### Output layer of expert 2 -/

/-- The output weight operand at contraction index k is the entry (2, k, 0). -/
theorem w3_e2 (r : Fin 262144) (k : Fin 128) :
    val_main_v125 (F := Ideal) x7 (ridx_main_v126 (ix2 r (0 : Fin 1)) k) = x7 (ix3 (2 : Fin 5) k (0 : Fin 1)) := by
  rw [val_main_v125_apply, val_main_v124_apply]
  exact congrArg x7 (funext fun a => Fin.ext (by
    match a with
    | ⟨0, _⟩ => rfl
    | ⟨1, _⟩ => show (k.val * 1 + 0) / 1 % 128 = k.val; omega
    | ⟨2, _⟩ => rfl))

/-- The left operand at contraction index k is the second hidden vector's entry k. -/
theorem h2op_e2 (r : Fin 262144) (k : Fin 128) :
    val_main_v123 (F := Ideal) x0 x1 x2 x3 x4 x5 x6 (lidx_main_v126 (ix2 r (0 : Fin 1)) k) = hid2 (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (2 : Fin 5) k :=
  (congrArg (val_main_v123 (F := Ideal) x0 x1 x2 x3 x4 x5 x6) (funext fun a => Fin.ext (by
    match a with
    | ⟨0, _⟩ => rfl
    | ⟨1, _⟩ => rfl))).trans (hid2_e2 x0 x1 x2 x3 x4 x5 x6 r k)

theorem t3_e2 (r : Fin 262144) :
    val_main_v0 (F := Ideal) x0 (lidx_main_v129 (ix2 r (0 : Fin 1)) (0 : Fin 1)) = x0 (ix2 r (0 : Fin 129)) := by
  rw [val_main_v0_apply]
  exact congrArg x0 (funext fun a => Fin.ext (by
    match a with
    | ⟨0, _⟩ => rfl
    | ⟨1, _⟩ => rfl))

theorem tw3_e2 (r : Fin 262144) :
    val_main_v128 (F := Ideal) x8 (ridx_main_v129 (ix2 r (0 : Fin 1)) (0 : Fin 1)) = x8 (ix3 (2 : Fin 5) (0 : Fin 1) (0 : Fin 1)) := by
  rw [val_main_v128_apply, val_main_v127_apply]
  exact congrArg x8 (funext fun a => Fin.ext (by
    match a with
    | ⟨0, _⟩ => rfl
    | ⟨1, _⟩ => rfl
    | ⟨2, _⟩ => rfl))

theorem b3_e2 (r : Fin 262144) :
    val_main_v134 (F := Ideal) x9 (ix2 r (0 : Fin 1)) = x9 (ix2 (2 : Fin 5) (0 : Fin 1)) := by
  rw [val_main_v134_apply, val_main_v133_apply, val_main_v132_apply, val_main_v131_apply]
  exact congrArg x9 (funext fun a => Fin.ext (by
    match a with
    | ⟨0, _⟩ => rfl
    | ⟨1, _⟩ => rfl))

/-- Expert 2's output at row r. -/
theorem outE_e2 (r : Fin 262144) :
    val_main_v135 (F := Ideal) x0 x1 x2 x3 x4 x5 x6 x7 x8 x9 (ix2 r (0 : Fin 1)) = outE (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (fun e k => x7 (ix3 e k (0 : Fin 1))) (fun e => x8 (ix3 e (0 : Fin 1) (0 : Fin 1))) (fun e => x9 (ix2 e (0 : Fin 1))) (2 : Fin 5) := by
  rw [val_main_v135_apply, val_main_v130_apply, val_main_v126_apply, val_main_v129_apply, Fin.sum_univ_one,
    b3_e2, t3_e2, tw3_e2]
  simp only [w3_e2, h2op_e2]
  rfl

/-! ### Routing of expert 2 -/

/-- The mask at row r is the routing test on the row's treatment value. -/
theorem gate_e2 (r : Fin 262144) :
    val_main_v97 (F := Ideal) x0 (ix2 r (0 : Fin 1)) = gate 0x3ECCCCCD#32 0x3F19999A#32 (x0 (ix2 r (0 : Fin 129))) := by
  rw [val_main_v97_apply, val_main_v94_apply, val_main_v96_apply, val_main_v93_apply, val_main_v95_apply, val_main_cst_6_apply, val_main_cst_7_apply,
    val_main_v0_apply]
  rw [show idx_main_v0 (ix2 r (0 : Fin 1)) = ix2 r (0 : Fin 129) from (funext fun a => Fin.ext (by
    match a with
    | ⟨0, _⟩ => rfl
    | ⟨1, _⟩ => rfl))]
  rfl

theorem z3_e2 (r : Fin 262144) :
    val_main_call8_v0 (F := Ideal) (ix2 r (0 : Fin 1)) = zero := by
  rw [val_main_call8_v0_apply, val_main_cst_8_apply]; rfl

/-- Expert 2's routed contribution at row r. -/
theorem contrib_e2 (r : Fin 262144) :
    val_main_v136 (F := Ideal) x0 x1 x2 x3 x4 x5 x6 x7 x8 x9 (ix2 r (0 : Fin 1)) =
      contrib (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (fun e k => x7 (ix3 e k (0 : Fin 1))) (fun e => x8 (ix3 e (0 : Fin 1) (0 : Fin 1))) (fun e => x9 (ix2 e (0 : Fin 1))) 0x3ECCCCCD#32 0x3F19999A#32 (2 : Fin 5) := by
  rw [val_main_v136_apply, gate_e2, outE_e2, z3_e2]
  rfl

end Cert.Routed.Ref

end
-- ==== Proof.RefE3.lean ====
import proofs.«175108_j54133767799373_2_alg».proof.Proof.ReadP
import proofs.«175108_j54133767799373_2_alg».proof.Proof.Spec
import Idealize.ShloMosaic.Lib.ValueIdx
import Idealize.ShloMosaic.PureOps.Ideal.Laws

noncomputable section

namespace Cert.Routed.Ref

open Cert.ReferenceIdeal Cert.ReferenceIdeal.ReadP Idealize.ShloMosaic Idealize.ShloMosaic.ValueIdx Cert.Routed

/-! # Expert 3 of the reference program, stage by stage

Every stage of expert 3 is read at explicit coordinates (row r, column j) and identified with the corresponding
function of the specification. The layout operations (slice, reshape, broadcast) only move indices, so each operand
lemma is an equation between indices, axis by axis. -/

variable (x0 : (⟨S262144x129, .f32⟩ : BufTy).Contents (Elt Ideal)) (x1 : (⟨S5x128x128, .f32⟩ : BufTy).Contents (Elt Ideal))
  (x2 : (⟨S5x1x128, .f32⟩ : BufTy).Contents (Elt Ideal)) (x3 : (⟨S5x128, .f32⟩ : BufTy).Contents (Elt Ideal))
  (x4 : (⟨S5x128x128, .f32⟩ : BufTy).Contents (Elt Ideal)) (x5 : (⟨S5x1x128, .f32⟩ : BufTy).Contents (Elt Ideal))
  (x6 : (⟨S5x128, .f32⟩ : BufTy).Contents (Elt Ideal)) (x7 : (⟨S5x128x1, .f32⟩ : BufTy).Contents (Elt Ideal))
  (x8 : (⟨S5x1x1, .f32⟩ : BufTy).Contents (Elt Ideal)) (x9 : (⟨S5x1, .f32⟩ : BufTy).Contents (Elt Ideal))

/-! ### Layer 1 of expert 3 -/

/-- The weight operand at contraction index k and output column j is the weight array's entry (3, k, j). -/
theorem w1_e3 (r : Fin 262144) (j k : Fin 128) :
    val_main_v144 (F := Ideal) x1 (ridx_main_v145 (ix2 r j) k) = x1 (ix3 (3 : Fin 5) k j) := by
  rw [val_main_v144_apply, val_main_v143_apply]
  exact congrArg x1 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- The feature operand at contraction index k is column 1 + k of the row. -/
theorem f_e3 (r : Fin 262144) (j k : Fin 128) :
    val_main_v1 (F := Ideal) x0 (lidx_main_v145 (ix2 r j) k) = x0 (ix2 r (featCol k)) := by
  rw [val_main_v1_apply]
  exact congrArg x0 (funext fun a => Fin.ext (by
    match a with
    | ⟨0, _⟩ => rfl
    | ⟨1, _⟩ => rfl))

/-- The treatment operand of the one-term product is the row's treatment value. -/
theorem t1_e3 (r : Fin 262144) (j : Fin 128) :
    val_main_v0 (F := Ideal) x0 (lidx_main_v148 (ix2 r j) (0 : Fin 1)) = x0 (ix2 r (0 : Fin 129)) := by
  rw [val_main_v0_apply]
  exact congrArg x0 (funext fun a => Fin.ext (by
    match a with
    | ⟨0, _⟩ => rfl
    | ⟨1, _⟩ => rfl))

/-- The treatment weight operand is the entry (3, 0, j). -/
theorem tw1_e3 (r : Fin 262144) (j : Fin 128) :
    val_main_v147 (F := Ideal) x2 (ridx_main_v148 (ix2 r j) (0 : Fin 1)) = x2 (ix3 (3 : Fin 5) (0 : Fin 1) j) := by
  rw [val_main_v147_apply, val_main_v146_apply]
  exact congrArg x2 (funext fun a => Fin.ext (by
    match a with
    | ⟨0, _⟩ => rfl
    | ⟨1, _⟩ => rfl
    | ⟨2, _⟩ => show (0 * 128 + j.val) % 128 = j.val; omega))

/-- The broadcast bias at (r, j) is the entry (3, j). -/
theorem b1_e3 (r : Fin 262144) (j : Fin 128) :
    val_main_v153 (F := Ideal) x3 (ix2 r j) = x3 (ix2 (3 : Fin 5) j) := by
  rw [val_main_v153_apply, val_main_v152_apply, val_main_v151_apply, val_main_v150_apply]
  exact congrArg x3 (funext fun a => Fin.ext (by
    match a with
    | ⟨0, _⟩ => rfl
    | ⟨1, _⟩ => show j.val % 128 = j.val; omega))

/-- The rectifier's broadcast constant is 0.0 everywhere. -/
theorem z1_e3 (r : Fin 262144) (j : Fin 128) :
    val_main_call9_v0 (F := Ideal) (ix2 r j) = zero := by
  rw [val_main_call9_v0_apply, val_main_call9_cst_apply]; rfl

/-- Layer 1 of expert 3 at row r, column j. -/
theorem hid1_e3 (r : Fin 262144) (j : Fin 128) :
    val_main_v155 (F := Ideal) x0 x1 x2 x3 (ix2 r j) = hid1 (x0 (ix2 r (0 : Fin 129))) (fun k => x0 (ix2 r (featCol k))) (fun e k j => x1 (ix3 e k j)) (fun e j => x2 (ix3 e (0 : Fin 1) j)) (fun e j => x3 (ix2 e j)) (3 : Fin 5) j := by
  rw [val_main_v155_apply, val_main_v154_apply, val_main_v149_apply, val_main_v145_apply, val_main_v148_apply, Fin.sum_univ_one,
    z1_e3, b1_e3, t1_e3, tw1_e3]
  simp only [w1_e3, f_e3]
  rfl

/-! ### Layer 2 of expert 3 -/

/-- The weight operand at contraction index k and output column j is the weight array's entry (3, k, j). -/
theorem w2_e3 (r : Fin 262144) (j k : Fin 128) :
    val_main_v157 (F := Ideal) x4 (ridx_main_v158 (ix2 r j) k) = x4 (ix3 (3 : Fin 5) k j) := by
  rw [val_main_v157_apply, val_main_v156_apply]
  exact congrArg x4 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- The left operand at contraction index k is the first hidden vector's entry k. -/
theorem h1op_e3 (r : Fin 262144) (j k : Fin 128) :
    val_main_v155 (F := Ideal) x0 x1 x2 x3 (lidx_main_v158 (ix2 r j) k) = hid1 (x0 (ix2 r (0 : Fin 129))) (fun k => x0 (ix2 r (featCol k))) (fun e k j => x1 (ix3 e k j)) (fun e j => x2 (ix3 e (0 : Fin 1) j)) (fun e j => x3 (ix2 e j)) (3 : Fin 5) k :=
  (congrArg (val_main_v155 (F := Ideal) x0 x1 x2 x3) (funext fun a => Fin.ext (by
    match a with
    | ⟨0, _⟩ => rfl
    | ⟨1, _⟩ => rfl))).trans (hid1_e3 x0 x1 x2 x3 r k)

/-- The treatment operand of the one-term product is the row's treatment value. -/
theorem t2_e3 (r : Fin 262144) (j : Fin 128) :
    val_main_v0 (F := Ideal) x0 (lidx_main_v161 (ix2 r j) (0 : Fin 1)) = x0 (ix2 r (0 : Fin 129)) := by
  rw [val_main_v0_apply]
  exact congrArg x0 (funext fun a => Fin.ext (by
    match a with
    | ⟨0, _⟩ => rfl
    | ⟨1, _⟩ => rfl))

/-- The treatment weight operand is the entry (3, 0, j). -/
theorem tw2_e3 (r : Fin 262144) (j : Fin 128) :
    val_main_v160 (F := Ideal) x5 (ridx_main_v161 (ix2 r j) (0 : Fin 1)) = x5 (ix3 (3 : Fin 5) (0 : Fin 1) j) := by
  rw [val_main_v160_apply, val_main_v159_apply]
  exact congrArg x5 (funext fun a => Fin.ext (by
    match a with
    | ⟨0, _⟩ => rfl
    | ⟨1, _⟩ => rfl
    | ⟨2, _⟩ => show (0 * 128 + j.val) % 128 = j.val; omega))

/-- The broadcast bias at (r, j) is the entry (3, j). -/
theorem b2_e3 (r : Fin 262144) (j : Fin 128) :
    val_main_v166 (F := Ideal) x6 (ix2 r j) = x6 (ix2 (3 : Fin 5) j) := by
  rw [val_main_v166_apply, val_main_v165_apply, val_main_v164_apply, val_main_v163_apply]
  exact congrArg x6 (funext fun a => Fin.ext (by
    match a with
    | ⟨0, _⟩ => rfl
    | ⟨1, _⟩ => show j.val % 128 = j.val; omega))

/-- The rectifier's broadcast constant is 0.0 everywhere. -/
theorem z2_e3 (r : Fin 262144) (j : Fin 128) :
    val_main_call10_v0 (F := Ideal) (ix2 r j) = zero := by
  rw [val_main_call10_v0_apply, val_main_call10_cst_apply]; rfl

/-- Layer 2 of expert 3 at row r, column j. -/
theorem hid2_e3 (r : Fin 262144) (j : Fin 128) :
    val_main_v168 (F := Ideal) x0 x1 x2 x3 x4 x5 x6 (ix2 r j) = hid2 (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (3 : Fin 5) j := by
  rw [val_main_v168_apply, val_main_v167_apply, val_main_v162_apply, val_main_v158_apply, val_main_v161_apply, Fin.sum_univ_one,
    z2_e3, b2_e3, t2_e3, tw2_e3]
  simp only [w2_e3, h1op_e3]
  rfl

/-! ### Output layer of expert 3 -/

/-- The output weight operand at contraction index k is the entry (3, k, 0). -/
theorem w3_e3 (r : Fin 262144) (k : Fin 128) :
    val_main_v170 (F := Ideal) x7 (ridx_main_v171 (ix2 r (0 : Fin 1)) k) = x7 (ix3 (3 : Fin 5) k (0 : Fin 1)) := by
  rw [val_main_v170_apply, val_main_v169_apply]
  exact congrArg x7 (funext fun a => Fin.ext (by
    match a with
    | ⟨0, _⟩ => rfl
    | ⟨1, _⟩ => show (k.val * 1 + 0) / 1 % 128 = k.val; omega
    | ⟨2, _⟩ => rfl))

/-- The left operand at contraction index k is the second hidden vector's entry k. -/
theorem h2op_e3 (r : Fin 262144) (k : Fin 128) :
    val_main_v168 (F := Ideal) x0 x1 x2 x3 x4 x5 x6 (lidx_main_v171 (ix2 r (0 : Fin 1)) k) = hid2 (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (3 : Fin 5) k :=
  (congrArg (val_main_v168 (F := Ideal) x0 x1 x2 x3 x4 x5 x6) (funext fun a => Fin.ext (by
    match a with
    | ⟨0, _⟩ => rfl
    | ⟨1, _⟩ => rfl))).trans (hid2_e3 x0 x1 x2 x3 x4 x5 x6 r k)

theorem t3_e3 (r : Fin 262144) :
    val_main_v0 (F := Ideal) x0 (lidx_main_v174 (ix2 r (0 : Fin 1)) (0 : Fin 1)) = x0 (ix2 r (0 : Fin 129)) := by
  rw [val_main_v0_apply]
  exact congrArg x0 (funext fun a => Fin.ext (by
    match a with
    | ⟨0, _⟩ => rfl
    | ⟨1, _⟩ => rfl))

theorem tw3_e3 (r : Fin 262144) :
    val_main_v173 (F := Ideal) x8 (ridx_main_v174 (ix2 r (0 : Fin 1)) (0 : Fin 1)) = x8 (ix3 (3 : Fin 5) (0 : Fin 1) (0 : Fin 1)) := by
  rw [val_main_v173_apply, val_main_v172_apply]
  exact congrArg x8 (funext fun a => Fin.ext (by
    match a with
    | ⟨0, _⟩ => rfl
    | ⟨1, _⟩ => rfl
    | ⟨2, _⟩ => rfl))

theorem b3_e3 (r : Fin 262144) :
    val_main_v179 (F := Ideal) x9 (ix2 r (0 : Fin 1)) = x9 (ix2 (3 : Fin 5) (0 : Fin 1)) := by
  rw [val_main_v179_apply, val_main_v178_apply, val_main_v177_apply, val_main_v176_apply]
  exact congrArg x9 (funext fun a => Fin.ext (by
    match a with
    | ⟨0, _⟩ => rfl
    | ⟨1, _⟩ => rfl))

/-- Expert 3's output at row r. -/
theorem outE_e3 (r : Fin 262144) :
    val_main_v180 (F := Ideal) x0 x1 x2 x3 x4 x5 x6 x7 x8 x9 (ix2 r (0 : Fin 1)) = outE (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (fun e k => x7 (ix3 e k (0 : Fin 1))) (fun e => x8 (ix3 e (0 : Fin 1) (0 : Fin 1))) (fun e => x9 (ix2 e (0 : Fin 1))) (3 : Fin 5) := by
  rw [val_main_v180_apply, val_main_v175_apply, val_main_v171_apply, val_main_v174_apply, Fin.sum_univ_one,
    b3_e3, t3_e3, tw3_e3]
  simp only [w3_e3, h2op_e3]
  rfl

/-! ### Routing of expert 3 -/

/-- The mask at row r is the routing test on the row's treatment value. -/
theorem gate_e3 (r : Fin 262144) :
    val_main_v142 (F := Ideal) x0 (ix2 r (0 : Fin 1)) = gate 0x3F19999A#32 0x3F4CCCCD#32 (x0 (ix2 r (0 : Fin 129))) := by
  rw [val_main_v142_apply, val_main_v139_apply, val_main_v141_apply, val_main_v138_apply, val_main_v140_apply, val_main_cst_9_apply, val_main_cst_10_apply,
    val_main_v0_apply]
  rw [show idx_main_v0 (ix2 r (0 : Fin 1)) = ix2 r (0 : Fin 129) from (funext fun a => Fin.ext (by
    match a with
    | ⟨0, _⟩ => rfl
    | ⟨1, _⟩ => rfl))]
  rfl

theorem z3_e3 (r : Fin 262144) :
    val_main_call11_v0 (F := Ideal) (ix2 r (0 : Fin 1)) = zero := by
  rw [val_main_call11_v0_apply, val_main_cst_11_apply]; rfl

/-- Expert 3's routed contribution at row r. -/
theorem contrib_e3 (r : Fin 262144) :
    val_main_v181 (F := Ideal) x0 x1 x2 x3 x4 x5 x6 x7 x8 x9 (ix2 r (0 : Fin 1)) =
      contrib (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (fun e k => x7 (ix3 e k (0 : Fin 1))) (fun e => x8 (ix3 e (0 : Fin 1) (0 : Fin 1))) (fun e => x9 (ix2 e (0 : Fin 1))) 0x3F19999A#32 0x3F4CCCCD#32 (3 : Fin 5) := by
  rw [val_main_v181_apply, gate_e3, outE_e3, z3_e3]
  rfl

end Cert.Routed.Ref

end
-- ==== Proof.RefE4.lean ====
import proofs.«175108_j54133767799373_2_alg».proof.Proof.ReadP
import proofs.«175108_j54133767799373_2_alg».proof.Proof.Spec
import Idealize.ShloMosaic.Lib.ValueIdx
import Idealize.ShloMosaic.PureOps.Ideal.Laws

noncomputable section

namespace Cert.Routed.Ref

open Cert.ReferenceIdeal Cert.ReferenceIdeal.ReadP Idealize.ShloMosaic Idealize.ShloMosaic.ValueIdx Cert.Routed

/-! # Expert 4 of the reference program, stage by stage

Every stage of expert 4 is read at explicit coordinates (row r, column j) and identified with the corresponding
function of the specification. The layout operations (slice, reshape, broadcast) only move indices, so each operand
lemma is an equation between indices, axis by axis. -/

variable (x0 : (⟨S262144x129, .f32⟩ : BufTy).Contents (Elt Ideal)) (x1 : (⟨S5x128x128, .f32⟩ : BufTy).Contents (Elt Ideal))
  (x2 : (⟨S5x1x128, .f32⟩ : BufTy).Contents (Elt Ideal)) (x3 : (⟨S5x128, .f32⟩ : BufTy).Contents (Elt Ideal))
  (x4 : (⟨S5x128x128, .f32⟩ : BufTy).Contents (Elt Ideal)) (x5 : (⟨S5x1x128, .f32⟩ : BufTy).Contents (Elt Ideal))
  (x6 : (⟨S5x128, .f32⟩ : BufTy).Contents (Elt Ideal)) (x7 : (⟨S5x128x1, .f32⟩ : BufTy).Contents (Elt Ideal))
  (x8 : (⟨S5x1x1, .f32⟩ : BufTy).Contents (Elt Ideal)) (x9 : (⟨S5x1, .f32⟩ : BufTy).Contents (Elt Ideal))

/-! ### Layer 1 of expert 4 -/

/-- The weight operand at contraction index k and output column j is the weight array's entry (4, k, j). -/
theorem w1_e4 (r : Fin 262144) (j k : Fin 128) :
    val_main_v189 (F := Ideal) x1 (ridx_main_v190 (ix2 r j) k) = x1 (ix3 (4 : Fin 5) k j) := by
  rw [val_main_v189_apply, val_main_v188_apply]
  exact congrArg x1 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- The feature operand at contraction index k is column 1 + k of the row. -/
theorem f_e4 (r : Fin 262144) (j k : Fin 128) :
    val_main_v1 (F := Ideal) x0 (lidx_main_v190 (ix2 r j) k) = x0 (ix2 r (featCol k)) := by
  rw [val_main_v1_apply]
  exact congrArg x0 (funext fun a => Fin.ext (by
    match a with
    | ⟨0, _⟩ => rfl
    | ⟨1, _⟩ => rfl))

/-- The treatment operand of the one-term product is the row's treatment value. -/
theorem t1_e4 (r : Fin 262144) (j : Fin 128) :
    val_main_v0 (F := Ideal) x0 (lidx_main_v193 (ix2 r j) (0 : Fin 1)) = x0 (ix2 r (0 : Fin 129)) := by
  rw [val_main_v0_apply]
  exact congrArg x0 (funext fun a => Fin.ext (by
    match a with
    | ⟨0, _⟩ => rfl
    | ⟨1, _⟩ => rfl))

/-- The treatment weight operand is the entry (4, 0, j). -/
theorem tw1_e4 (r : Fin 262144) (j : Fin 128) :
    val_main_v192 (F := Ideal) x2 (ridx_main_v193 (ix2 r j) (0 : Fin 1)) = x2 (ix3 (4 : Fin 5) (0 : Fin 1) j) := by
  rw [val_main_v192_apply, val_main_v191_apply]
  exact congrArg x2 (funext fun a => Fin.ext (by
    match a with
    | ⟨0, _⟩ => rfl
    | ⟨1, _⟩ => rfl
    | ⟨2, _⟩ => show (0 * 128 + j.val) % 128 = j.val; omega))

/-- The broadcast bias at (r, j) is the entry (4, j). -/
theorem b1_e4 (r : Fin 262144) (j : Fin 128) :
    val_main_v198 (F := Ideal) x3 (ix2 r j) = x3 (ix2 (4 : Fin 5) j) := by
  rw [val_main_v198_apply, val_main_v197_apply, val_main_v196_apply, val_main_v195_apply]
  exact congrArg x3 (funext fun a => Fin.ext (by
    match a with
    | ⟨0, _⟩ => rfl
    | ⟨1, _⟩ => show j.val % 128 = j.val; omega))

/-- The rectifier's broadcast constant is 0.0 everywhere. -/
theorem z1_e4 (r : Fin 262144) (j : Fin 128) :
    val_main_call12_v0 (F := Ideal) (ix2 r j) = zero := by
  rw [val_main_call12_v0_apply, val_main_call12_cst_apply]; rfl

/-- Layer 1 of expert 4 at row r, column j. -/
theorem hid1_e4 (r : Fin 262144) (j : Fin 128) :
    val_main_v200 (F := Ideal) x0 x1 x2 x3 (ix2 r j) = hid1 (x0 (ix2 r (0 : Fin 129))) (fun k => x0 (ix2 r (featCol k))) (fun e k j => x1 (ix3 e k j)) (fun e j => x2 (ix3 e (0 : Fin 1) j)) (fun e j => x3 (ix2 e j)) (4 : Fin 5) j := by
  rw [val_main_v200_apply, val_main_v199_apply, val_main_v194_apply, val_main_v190_apply, val_main_v193_apply, Fin.sum_univ_one,
    z1_e4, b1_e4, t1_e4, tw1_e4]
  simp only [w1_e4, f_e4]
  rfl

/-! ### Layer 2 of expert 4 -/

/-- The weight operand at contraction index k and output column j is the weight array's entry (4, k, j). -/
theorem w2_e4 (r : Fin 262144) (j k : Fin 128) :
    val_main_v202 (F := Ideal) x4 (ridx_main_v203 (ix2 r j) k) = x4 (ix3 (4 : Fin 5) k j) := by
  rw [val_main_v202_apply, val_main_v201_apply]
  exact congrArg x4 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- The left operand at contraction index k is the first hidden vector's entry k. -/
theorem h1op_e4 (r : Fin 262144) (j k : Fin 128) :
    val_main_v200 (F := Ideal) x0 x1 x2 x3 (lidx_main_v203 (ix2 r j) k) = hid1 (x0 (ix2 r (0 : Fin 129))) (fun k => x0 (ix2 r (featCol k))) (fun e k j => x1 (ix3 e k j)) (fun e j => x2 (ix3 e (0 : Fin 1) j)) (fun e j => x3 (ix2 e j)) (4 : Fin 5) k :=
  (congrArg (val_main_v200 (F := Ideal) x0 x1 x2 x3) (funext fun a => Fin.ext (by
    match a with
    | ⟨0, _⟩ => rfl
    | ⟨1, _⟩ => rfl))).trans (hid1_e4 x0 x1 x2 x3 r k)

/-- The treatment operand of the one-term product is the row's treatment value. -/
theorem t2_e4 (r : Fin 262144) (j : Fin 128) :
    val_main_v0 (F := Ideal) x0 (lidx_main_v206 (ix2 r j) (0 : Fin 1)) = x0 (ix2 r (0 : Fin 129)) := by
  rw [val_main_v0_apply]
  exact congrArg x0 (funext fun a => Fin.ext (by
    match a with
    | ⟨0, _⟩ => rfl
    | ⟨1, _⟩ => rfl))

/-- The treatment weight operand is the entry (4, 0, j). -/
theorem tw2_e4 (r : Fin 262144) (j : Fin 128) :
    val_main_v205 (F := Ideal) x5 (ridx_main_v206 (ix2 r j) (0 : Fin 1)) = x5 (ix3 (4 : Fin 5) (0 : Fin 1) j) := by
  rw [val_main_v205_apply, val_main_v204_apply]
  exact congrArg x5 (funext fun a => Fin.ext (by
    match a with
    | ⟨0, _⟩ => rfl
    | ⟨1, _⟩ => rfl
    | ⟨2, _⟩ => show (0 * 128 + j.val) % 128 = j.val; omega))

/-- The broadcast bias at (r, j) is the entry (4, j). -/
theorem b2_e4 (r : Fin 262144) (j : Fin 128) :
    val_main_v211 (F := Ideal) x6 (ix2 r j) = x6 (ix2 (4 : Fin 5) j) := by
  rw [val_main_v211_apply, val_main_v210_apply, val_main_v209_apply, val_main_v208_apply]
  exact congrArg x6 (funext fun a => Fin.ext (by
    match a with
    | ⟨0, _⟩ => rfl
    | ⟨1, _⟩ => show j.val % 128 = j.val; omega))

/-- The rectifier's broadcast constant is 0.0 everywhere. -/
theorem z2_e4 (r : Fin 262144) (j : Fin 128) :
    val_main_call13_v0 (F := Ideal) (ix2 r j) = zero := by
  rw [val_main_call13_v0_apply, val_main_call13_cst_apply]; rfl

/-- Layer 2 of expert 4 at row r, column j. -/
theorem hid2_e4 (r : Fin 262144) (j : Fin 128) :
    val_main_v213 (F := Ideal) x0 x1 x2 x3 x4 x5 x6 (ix2 r j) = hid2 (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (4 : Fin 5) j := by
  rw [val_main_v213_apply, val_main_v212_apply, val_main_v207_apply, val_main_v203_apply, val_main_v206_apply, Fin.sum_univ_one,
    z2_e4, b2_e4, t2_e4, tw2_e4]
  simp only [w2_e4, h1op_e4]
  rfl

/-! ### Output layer of expert 4 -/

/-- The output weight operand at contraction index k is the entry (4, k, 0). -/
theorem w3_e4 (r : Fin 262144) (k : Fin 128) :
    val_main_v215 (F := Ideal) x7 (ridx_main_v216 (ix2 r (0 : Fin 1)) k) = x7 (ix3 (4 : Fin 5) k (0 : Fin 1)) := by
  rw [val_main_v215_apply, val_main_v214_apply]
  exact congrArg x7 (funext fun a => Fin.ext (by
    match a with
    | ⟨0, _⟩ => rfl
    | ⟨1, _⟩ => show (k.val * 1 + 0) / 1 % 128 = k.val; omega
    | ⟨2, _⟩ => rfl))

/-- The left operand at contraction index k is the second hidden vector's entry k. -/
theorem h2op_e4 (r : Fin 262144) (k : Fin 128) :
    val_main_v213 (F := Ideal) x0 x1 x2 x3 x4 x5 x6 (lidx_main_v216 (ix2 r (0 : Fin 1)) k) = hid2 (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (4 : Fin 5) k :=
  (congrArg (val_main_v213 (F := Ideal) x0 x1 x2 x3 x4 x5 x6) (funext fun a => Fin.ext (by
    match a with
    | ⟨0, _⟩ => rfl
    | ⟨1, _⟩ => rfl))).trans (hid2_e4 x0 x1 x2 x3 x4 x5 x6 r k)

theorem t3_e4 (r : Fin 262144) :
    val_main_v0 (F := Ideal) x0 (lidx_main_v219 (ix2 r (0 : Fin 1)) (0 : Fin 1)) = x0 (ix2 r (0 : Fin 129)) := by
  rw [val_main_v0_apply]
  exact congrArg x0 (funext fun a => Fin.ext (by
    match a with
    | ⟨0, _⟩ => rfl
    | ⟨1, _⟩ => rfl))

theorem tw3_e4 (r : Fin 262144) :
    val_main_v218 (F := Ideal) x8 (ridx_main_v219 (ix2 r (0 : Fin 1)) (0 : Fin 1)) = x8 (ix3 (4 : Fin 5) (0 : Fin 1) (0 : Fin 1)) := by
  rw [val_main_v218_apply, val_main_v217_apply]
  exact congrArg x8 (funext fun a => Fin.ext (by
    match a with
    | ⟨0, _⟩ => rfl
    | ⟨1, _⟩ => rfl
    | ⟨2, _⟩ => rfl))

theorem b3_e4 (r : Fin 262144) :
    val_main_v224 (F := Ideal) x9 (ix2 r (0 : Fin 1)) = x9 (ix2 (4 : Fin 5) (0 : Fin 1)) := by
  rw [val_main_v224_apply, val_main_v223_apply, val_main_v222_apply, val_main_v221_apply]
  exact congrArg x9 (funext fun a => Fin.ext (by
    match a with
    | ⟨0, _⟩ => rfl
    | ⟨1, _⟩ => rfl))

/-- Expert 4's output at row r. -/
theorem outE_e4 (r : Fin 262144) :
    val_main_v225 (F := Ideal) x0 x1 x2 x3 x4 x5 x6 x7 x8 x9 (ix2 r (0 : Fin 1)) = outE (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (fun e k => x7 (ix3 e k (0 : Fin 1))) (fun e => x8 (ix3 e (0 : Fin 1) (0 : Fin 1))) (fun e => x9 (ix2 e (0 : Fin 1))) (4 : Fin 5) := by
  rw [val_main_v225_apply, val_main_v220_apply, val_main_v216_apply, val_main_v219_apply, Fin.sum_univ_one,
    b3_e4, t3_e4, tw3_e4]
  simp only [w3_e4, h2op_e4]
  rfl

/-! ### Routing of expert 4 -/

/-- The mask at row r is the routing test on the row's treatment value. -/
theorem gate_e4 (r : Fin 262144) :
    val_main_v187 (F := Ideal) x0 (ix2 r (0 : Fin 1)) = gate 0x3F4CCCCD#32 0x3F800000#32 (x0 (ix2 r (0 : Fin 129))) := by
  rw [val_main_v187_apply, val_main_v184_apply, val_main_v186_apply, val_main_v183_apply, val_main_v185_apply, val_main_cst_12_apply, val_main_cst_13_apply,
    val_main_v0_apply]
  rw [show idx_main_v0 (ix2 r (0 : Fin 1)) = ix2 r (0 : Fin 129) from (funext fun a => Fin.ext (by
    match a with
    | ⟨0, _⟩ => rfl
    | ⟨1, _⟩ => rfl))]
  rfl

theorem z3_e4 (r : Fin 262144) :
    val_main_call14_v0 (F := Ideal) (ix2 r (0 : Fin 1)) = zero := by
  rw [val_main_call14_v0_apply, val_main_cst_14_apply]; rfl

/-- Expert 4's routed contribution at row r. -/
theorem contrib_e4 (r : Fin 262144) :
    val_main_v226 (F := Ideal) x0 x1 x2 x3 x4 x5 x6 x7 x8 x9 (ix2 r (0 : Fin 1)) =
      contrib (x0 (ix2 r (0 : Fin 129))) (fun k => x0 (ix2 r (featCol k))) (fun e k j => x1 (ix3 e k j)) (fun e j => x2 (ix3 e (0 : Fin 1) j)) (fun e j => x3 (ix2 e j)) (fun e k j => x4 (ix3 e k j)) (fun e j => x5 (ix3 e (0 : Fin 1) j)) (fun e j => x6 (ix2 e j)) (fun e k => x7 (ix3 e k (0 : Fin 1))) (fun e => x8 (ix3 e (0 : Fin 1) (0 : Fin 1))) (fun e => x9 (ix2 e (0 : Fin 1))) 0x3F4CCCCD#32 0x3F800000#32 (4 : Fin 5) := by
  rw [val_main_v226_apply, gate_e4, outE_e4, z3_e4]
  rfl

end Cert.Routed.Ref

end
-- ==== Proof.RefValue.lean ====
import proofs.«175108_j54133767799373_2_alg».proof.Proof.RefE0
import proofs.«175108_j54133767799373_2_alg».proof.Proof.RefE1
import proofs.«175108_j54133767799373_2_alg».proof.Proof.RefE2
import proofs.«175108_j54133767799373_2_alg».proof.Proof.RefE3
import proofs.«175108_j54133767799373_2_alg».proof.Proof.RefE4
import Idealize.ShloMosaic.Lib.ValueIdx
import Idealize.ShloMosaic.PureOps.Ideal.Laws

noncomputable section

namespace Cert.Routed.Ref

open Cert.ReferenceIdeal Cert.ReferenceIdeal.ReadP Idealize.ShloMosaic Idealize.ShloMosaic.ValueIdx Cert.Routed

/-! # The reference program is the specification

The program's result is the running sum, starting from a broadcast 0.0, of the five experts' routed contributions;
each contribution was identified with the specification's `contrib` stage by stage, so the result at row r is
`rowOut` of that row. -/

variable (x0 : (⟨S262144x129, .f32⟩ : BufTy).Contents (Elt Ideal)) (x1 : (⟨S5x128x128, .f32⟩ : BufTy).Contents (Elt Ideal))
  (x2 : (⟨S5x1x128, .f32⟩ : BufTy).Contents (Elt Ideal)) (x3 : (⟨S5x128, .f32⟩ : BufTy).Contents (Elt Ideal))
  (x4 : (⟨S5x128x128, .f32⟩ : BufTy).Contents (Elt Ideal)) (x5 : (⟨S5x1x128, .f32⟩ : BufTy).Contents (Elt Ideal))
  (x6 : (⟨S5x128, .f32⟩ : BufTy).Contents (Elt Ideal)) (x7 : (⟨S5x128x1, .f32⟩ : BufTy).Contents (Elt Ideal))
  (x8 : (⟨S5x1x1, .f32⟩ : BufTy).Contents (Elt Ideal)) (x9 : (⟨S5x1, .f32⟩ : BufTy).Contents (Elt Ideal))

/-- The running sum starts from 0.0. -/
theorem z0 (r : Fin 262144) : val_main_v2 (F := Ideal) (ix2 r (0 : Fin 1)) = zero := by
  rw [val_main_v2_apply, val_main_cst_apply]; rfl

/-- The reference program's result is the specification's array. -/
theorem ref_eq :
    Cert.ReferenceIdeal.ReadP.val_main_v227 (F := Ideal) x0 x1 x2 x3 x4 x5 x6 x7 x8 x9 = Cert.Routed.G x0 x1 x2 x3 x4 x5 x6 x7 x8 x9 := by
  funext i
  obtain ⟨r, q, rfl⟩ : ∃ (r : Fin 262144) (q : Fin 1), i = ix2 r q := ⟨i 0, i 1, eq_ix2 i⟩
  obtain rfl : q = 0 := Subsingleton.elim q 0
  rw [val_main_v227_apply, val_main_v182_apply, val_main_v137_apply, val_main_v92_apply, val_main_v47_apply,
    z0, contrib_e0, contrib_e1, contrib_e2, contrib_e3, contrib_e4]
  rfl

end Cert.Routed.Ref

end
-- ==== Proof.lean ====
/-
  A kernel of five routed experts against its reference, over the extended reals.

  Both programs compute, for each of 262144 rows, the same number: the row's first entry is a treatment value t, the
  other 128 are features; each of five three-layer perceptrons (every layer with a treatment term t · tw and a bias, the
  first two followed by max(·, 0)) answers for the rows whose t lies in its interval, and the row's result is the sum,
  in the experts' order and starting from 0, of each expert's output where its interval holds and 0 elsewhere
  (`Cert.Routed.G`, Proof/Spec.lean).

  The reference evaluates this expert by expert over whole arrays; its treatment terms are products with a one-row
  matrix, sums of one term. The kernel handles 2048 rows per grid point, computes the five first layers as one product
  with the weight matrices laid side by side and the treatment terms as plain products, and keeps its intermediate
  matrices in a narrower float format, which changes nothing at exact arithmetic. No algebraic law beyond the one-term
  sum is needed — the two sides add and multiply the same numbers in the same order —, so the precondition on the inputs
  is never opened.

  The three frame claims come from the generated frames and the reference's run, which is read part by part
  (Proof/RefOps.lean, RefStage0 … RefStage4, RefRun.lean: the program is cut into five stretches of host operations, each
  read back from what the stretches before it left); the idealisation rewrote no
  operation, so its claim is trivial; the value claim sets the kernel's run (Proof/KBlocks.lean, over KBody, KPay,
  KDots, KArrays) beside the reference's run read operation by operation (Proof/RefValue.lean).
-/
import proofs.«175108_j54133767799373_2_alg».proof.Defs
import proofs.«175108_j54133767799373_2_alg».proof.Proof.Gen.Kernel
import proofs.«175108_j54133767799373_2_alg».proof.Proof.Gen.Kernel.Skeleton
import proofs.«175108_j54133767799373_2_alg».proof.Proof.Gen.Kernel.Launch
import proofs.«175108_j54133767799373_2_alg».proof.Proof.Gen.Kernel.Points
import proofs.«175108_j54133767799373_2_alg».proof.Proof.Gen.Kernel.Frame
import proofs.«175108_j54133767799373_2_alg».proof.Proof.Gen.KernelIdeal
import proofs.«175108_j54133767799373_2_alg».proof.Proof.Gen.KernelIdeal.Skeleton
import proofs.«175108_j54133767799373_2_alg».proof.Proof.Gen.KernelIdeal.Launch
import proofs.«175108_j54133767799373_2_alg».proof.Proof.Gen.KernelIdeal.Points
import proofs.«175108_j54133767799373_2_alg».proof.Proof.Gen.KernelIdeal.Frame
import proofs.«175108_j54133767799373_2_alg».proof.Proof.Gen.ReferenceIdeal
import proofs.«175108_j54133767799373_2_alg».proof.Proof.Gen.Pre_finite_inputs
import proofs.«175108_j54133767799373_2_alg».proof.Proof.Gen.KernelIdeal.Value
import proofs.«175108_j54133767799373_2_alg».proof.Proof.ReadP
import proofs.«175108_j54133767799373_2_alg».proof.Proof.RefRun
import proofs.«175108_j54133767799373_2_alg».proof.Proof.KBlocks
import proofs.«175108_j54133767799373_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.Routed.RefRun.run (F := Ideal) m ρ)

theorem preserves : Cert.preserves_Kernel_KernelIdeal := trivial

/-- Both runs end with the result array at the specification's array of the arguments, and the arguments agree. -/
theorem algebraic : Cert.algebraic_KernelIdeal_ReferenceIdeal := by
  intro m ρ m' ρ' _ hagree
  refine ⟨_, Cert.Routed.Kernel.run m ρ, ?_⟩
  refine (θ_run Cert.ReferenceIdeal.defs _ _).mono (fun _ h c => ⟨(h c).1.trans ?_, (h c).2⟩)
    (Cert.Routed.RefRun.run (F := Ideal) m' ρ')
  rw [Cert.Routed.Ref.ref_eq]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
